-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2x524288 : Shape := ⟨2, ![2, 524288]⟩
abbrev S4x256x128 : Shape := ⟨3, ![4, 256, 128]⟩
abbrev S4x128 : Shape := ⟨2, ![4, 128]⟩
abbrev S4x128x128 : Shape := ⟨3, ![4, 128, 128]⟩
abbrev S4 : Shape := ⟨1, ![4]⟩
abbrev S_ : Shape := ⟨0, ![]⟩
abbrev S512x128 : Shape := ⟨2, ![512, 128]⟩
abbrev S128 : Shape := ⟨1, ![128]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4 : S_.BroadcastsInDim S4 (![] : Fin 0 → Fin S4.rank)
  reducesTo_S4_S_d0 : S4.ReducesTo [0] S_
  reducesTo_S_S_d : S_.ReducesTo [] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  main_v52

def fn_part2 {F : FTy → Type} [FloatOps F] (main_arg8 : FVec F S4 .f32) (main_arg9 : FVec F S_ .f32) (main_arg10 : FVec F S512x128 .f32) (main_arg11 : FVec F S128 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S512x128 .f32 := Host.absf main_arg10
  let main_cst_16 : FVec F S_ .f32 := constant S_ .f32 0x7F800000#32
  let main_v44 : FVec F S512x128 .f32 := broadcastInDim S512x128 ![] bcast_S_S512x128 main_cst_16
  let main_v45 : IVec S512x128 1 := cmpf .olt main_v43 main_v44
  let main_c_17 : IVec S_ 1 := constantI S_ 1 1#1
  let main_v46 : IVec S_ 1 := (fun x v => Host.reduce IntOp.andi x v reducesTo_S512x128_S_d0_1 h_S_) main_v45 main_c_17
  let main_v47 : IVec S_ 1 := andi main_v42 main_v46
  let main_v48 : FVec F S128 .f32 := Host.absf main_arg11
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_v47 main_v50

def fn_part1 {F : FTy → Type} [FloatOps F] (main_arg5 : FVec F S4x128 .f32) (main_arg6 : FVec F S4x128x128 .f32) (main_arg7 : FVec F S4x128 .f32) (main_arg8 : FVec F S4 .f32) (main_arg9 : FVec F S_ .f32) (main_arg10 : FVec F S512x128 .f32) (main_arg11 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S32768x256 .f32) (main_arg1 : IVec S2x524288 32) (main_arg2 : FVec F S4x256x128 .f32) (main_arg3 : FVec F S4x128 .f32) (main_arg4 : FVec F S4x128x128 .f32) (main_arg5 : FVec F S4x128 .f32) (main_arg6 : FVec F S4x128x128 .f32) (main_arg7 : FVec F S4x128 .f32) (main_arg8 : FVec F S4 .f32) (main_arg9 : FVec F S_ .f32) (main_arg10 : FVec F S512x128 .f32) (main_arg11 : FVec F S128 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S4x256x128 .f32 := Host.absf main_arg2
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_v13 main_v16
-- ==== Kernel.lean ====
abbrev S32768x256 : Shape := ⟨2, ![32768, 256]⟩
abbrev S2x524288 : Shape := ⟨2, ![2, 524288]⟩
abbrev S4x256x128 : Shape := ⟨3, ![4, 256, 128]⟩
abbrev S4x128 : Shape := ⟨2, ![4, 128]⟩
abbrev S4x128x128 : Shape := ⟨3, ![4, 128, 128]⟩
abbrev S4 : Shape := ⟨1, ![4]⟩
abbrev S_ : Shape := ⟨0, ![]⟩
abbrev S512x128 : Shape := ⟨2, ![512, 128]⟩
abbrev S128 : Shape := ⟨1, ![128]⟩
abbrev S1 : Shape := ⟨1, ![1]⟩
abbrev S4x1x1 : Shape := ⟨3, ![4, 1, 1]⟩
abbrev S256x4x128 : Shape := ⟨3, ![256, 4, 128]⟩
abbrev S256x512 : Shape := ⟨2, ![256, 512]⟩
abbrev S512 : Shape := ⟨1, ![512]⟩
abbrev S1x512 : Shape := ⟨2, ![1, 512]⟩
abbrev S32768x512 : Shape := ⟨2, ![32768, 512]⟩
abbrev S2048x256 : Shape := ⟨2, ![2048, 256]⟩
abbrev S2048x512 : Shape := ⟨2, ![2048, 512]⟩
abbrev S1x524288 : Shape := ⟨2, ![1, 524288]⟩
abbrev S524288 : Shape := ⟨1, ![524288]⟩
abbrev S32768 : Shape := ⟨1, ![32768]⟩
abbrev S524288x1 : Shape := ⟨2, ![524288, 1]⟩
abbrev S32768x1 : Shape := ⟨2, ![32768, 1]⟩
abbrev S32768x128 : Shape := ⟨2, ![32768, 128]⟩
abbrev S524288x128 : Shape := ⟨2, ![524288, 128]⟩
abbrev S1x32768x128 : Shape := ⟨3, ![1, 32768, 128]⟩
abbrev S4x32768x128 : Shape := ⟨3, ![4, 32768, 128]⟩
abbrev S4x1x128 : Shape := ⟨3, ![4, 1, 128]⟩
abbrev S1x128 : Shape := ⟨2, ![1, 128]⟩
abbrev S1x4096x128 : Shape := ⟨3, ![1, 4096, 128]⟩
abbrev S1x128x128 : Shape := ⟨3, ![1, 128, 128]⟩
abbrev S1x1x128 : Shape := ⟨3, ![1, 1, 128]⟩
abbrev S4096x128 : Shape := ⟨2, ![4096, 128]⟩
abbrev S128x128 : Shape := ⟨2, ![128, 128]⟩

abbrev nBuf : Space → Nat
  | .hbm => 162
  | .vmem => 22
  | .smem => 0
  | _ => 0

abbrev hbmTy0_0 (i : Nat) : BufTy := match i % 128 with
  | 0 => ⟨S32768x256, .f32⟩
  | 1 => ⟨S2x524288, .i32⟩
  | 2 => ⟨S4x256x128, .f32⟩
  | 3 => ⟨S4x128, .f32⟩
  | 4 => ⟨S4x128x128, .f32⟩
  | 5 => ⟨S4x128, .f32⟩
  | 6 => ⟨S4x128x128, .f32⟩
  | 7 => ⟨S4x128, .f32⟩
  | 8 => ⟨S4, .f32⟩
  | 9 => ⟨S_, .f32⟩
  | 10 => ⟨S512x128, .f32⟩
  | 11 => ⟨S128, .f32⟩
  | 12 => ⟨S4, .f32⟩
  | 13 => ⟨S4, .f32⟩
  | 14 => ⟨S_, .f32⟩
  | 15 => ⟨S_, .f32⟩
  | 16 => ⟨S_, .f32⟩
  | 17 => ⟨S_, .f32⟩
  | 18 => ⟨S1, .f32⟩
  | 19 => ⟨S4, .f32⟩
  | 20 => ⟨S4, .f32⟩
  | 21 => ⟨S4, .f32⟩
  | 22 => ⟨S_, .f32⟩
  | 23 => ⟨S_, .f32⟩
  | 24 => ⟨S1, .f32⟩
  | 25 => ⟨S4, .f32⟩
  | 26 => ⟨S4, .f32⟩
  | 27 => ⟨S4x128x128, .f32⟩
  | 28 => ⟨S4x1x1, .f32⟩
  | 29 => ⟨S4x128x128, .f32⟩
  | 30 => ⟨S4x128x128, .f32⟩
  | 31 => ⟨S256x4x128, .f32⟩
  | 32 => ⟨S256x512, .f32⟩
  | 33 => ⟨S512, .f32⟩
  | 34 => ⟨S32768x256, .bf16⟩
  | 35 => ⟨S256x512, .bf16⟩
  | 36 => ⟨S1x512, .f32⟩
  | 37 => ⟨S32768x512, .f32⟩
  | 38 => ⟨S1x524288, .i32⟩
  | 39 => ⟨S524288, .i32⟩
  | 40 => ⟨S1x524288, .i32⟩
  | 41 => ⟨S524288, .i32⟩
  | 42 => ⟨S_, .f32⟩
  | 43 => ⟨S524288, .f32⟩
  | 44 => ⟨S_, .f32⟩
  | 45 => ⟨S32768, .f32⟩
  | 46 => ⟨S524288x1, .i32⟩
  | 47 => ⟨S32768, .f32⟩
  | 48 => ⟨S_, .f32⟩
  | 49 => ⟨S32768, .f32⟩
  | 50 => ⟨S32768, .f32⟩
  | 51 => ⟨S_, .f32⟩
  | 52 => ⟨S32768, .f32⟩
  | 53 => ⟨S32768, .f32⟩
  | 54 => ⟨S32768x1, .f32⟩
  | 55 => ⟨S32768x128, .f32⟩
  | 56 => ⟨S32768x128, .f32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S524288x1, .i32⟩
  | 65 => ⟨S524288x128, .f32⟩
  | 66 => ⟨S_, .f32⟩
  | 67 => ⟨S32768x128, .f32⟩
  | 68 => ⟨S524288x1, .i32⟩
  | 69 => ⟨S32768x128, .f32⟩
  | 70 => ⟨S32768x128, .f32⟩
  | 71 => ⟨S32768x128, .f32⟩
  | 72 => ⟨S32768x128, .f32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x128, .f32⟩
  | 82 => ⟨S_, .f32⟩
  | 83 => ⟨S32768x128, .f32⟩
  | 84 => ⟨S524288x1, .i32⟩
  | 85 => ⟨S32768x128, .f32⟩
  | 86 => ⟨S32768x128, .f32⟩
  | 87 => ⟨S32768x128, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S524288x1, .i32⟩
  | 96 => ⟨S524288x128, .f32⟩
  | 97 => ⟨S_, .f32⟩
  | 98 => ⟨S32768x128, .f32⟩
  | 99 => ⟨S524288x1, .i32⟩
  | 100 => ⟨S32768x128, .f32⟩
  | 101 => ⟨S32768x128, .f32⟩
  | 102 => ⟨S32768x128, .f32⟩
  | 103 => ⟨S32768x128, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x128, .f32⟩
  | 113 => ⟨S_, .f32⟩
  | 114 => ⟨S32768x128, .f32⟩
  | 115 => ⟨S524288x1, .i32⟩
  | 116 => ⟨S32768x128, .f32⟩
  | 117 => ⟨S32768x128, .f32⟩
  | 118 => ⟨S32768x128, .f32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S524288x1, .i32⟩
  | 127 => ⟨S524288x128, .f32⟩
  | _ => ⟨S32768x256, .f32⟩

abbrev hbmTy0_1 (i : Nat) : BufTy := match i % 128 with
  | 0 => ⟨S_, .f32⟩
  | 1 => ⟨S32768x128, .f32⟩
  | 2 => ⟨S524288x1, .i32⟩
  | 3 => ⟨S32768x128, .f32⟩
  | 4 => ⟨S32768x128, .f32⟩
  | 5 => ⟨S32768x128, .f32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S524288x1, .i32⟩
  | 14 => ⟨S524288x128, .f32⟩
  | 15 => ⟨S_, .f32⟩
  | 16 => ⟨S32768x128, .f32⟩
  | 17 => ⟨S524288x1, .i32⟩
  | 18 => ⟨S32768x128, .f32⟩
  | 19 => ⟨S32768x128, .f32⟩
  | 20 => ⟨S32768x128, .f32⟩
  | 21 => ⟨S1x32768x128, .f32⟩
  | 22 => ⟨S1x32768x128, .f32⟩
  | 23 => ⟨S1x32768x128, .f32⟩
  | 24 => ⟨S1x32768x128, .f32⟩
  | 25 => ⟨S4x32768x128, .f32⟩
  | 26 => ⟨S4x32768x128, .bf16⟩
  | 27 => ⟨S4x128x128, .bf16⟩
  | 28 => ⟨S4x128x128, .bf16⟩
  | 29 => ⟨S4x128x128, .bf16⟩
  | 30 => ⟨S4x1x128, .f32⟩
  | 31 => ⟨S4x1x128, .f32⟩
  | 32 => ⟨S1x128, .f32⟩
  | 33 => ⟨S32768x128, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1x4096x128, .bf16⟩
  | .local _ .vmem, ⟨7, _⟩ => ⟨S1x4096x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x1x128, .f32⟩
  | .local _ .vmem, ⟨11, _⟩ => ⟨S1x1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x1x128, .f32⟩
  | .local _ .vmem, ⟨15, _⟩ => ⟨S1x1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_14 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_20 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_25 : BitVec 32 := 0#32
  let v33 : BitVec 1 := Scalar.cmpi .ne v32 c0_i32_25
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bcast_S_S4 : S_.BroadcastsInDim S4 (![] : Fin 0 → Fin S4.rank)
  reducesTo_S4_S_d0 : S4.ReducesTo [0] S_
  h_S_ : 0 < S_.numel
  bcast_S_S1 : S_.BroadcastsInDim S1 (![] : Fin 0 → Fin S1.rank)
  bcast_S1_S4_0 : S1.BroadcastsInDim S4 (![0] : Fin 1 → Fin S4.rank)
  shapeCasts_S512x128_S4x128x128 : S512x128.ShapeCasts S4x128x128
  bcast_S4_S4x1x1_0 : S4.BroadcastsInDim S4x1x1 (![0] : Fin 1 → Fin S4x1x1.rank)
  bcast_S4x1x1_S4x128x128_0_1_2 : S4x1x1.BroadcastsInDim S4x128x128 (![0, 1, 2] : Fin 3 → Fin S4x128x128.rank)
  transposes_S4x256x128_S256x4x128_1_0_2 : S4x256x128.Transposes [1, 0, 2] S256x4x128
  shapeCasts_S256x4x128_S256x512 : S256x4x128.ShapeCasts S256x512
  shapeCasts_S4x128_S512 : S4x128.ShapeCasts S512
  bitsLt_bf16_f32 : FTy.bits .bf16 < FTy.bits .f32
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S32768_S32768x1_0 : S32768.BroadcastsInDim S32768x1 (![0] : Fin 1 → Fin S32768x1.rank)
  slices_S32768x512_S32768x128_0_0 : S32768x512.Slices ![0, 0] S32768x128
  slices_S32768x512_S32768x128_0_128 : S32768x512.Slices ![0, 128] S32768x128
  bcast_S_S32768x128 : S_.BroadcastsInDim S32768x128 (![] : Fin 0 → Fin S32768x128.rank)
  bcast_S32768x1_S32768x128_0_1 : S32768x1.BroadcastsInDim S32768x128 (![0, 1] : Fin 2 → Fin S32768x128.rank)
  slices_S32768x512_S32768x128_0_256 : S32768x512.Slices ![0, 256] S32768x128
  slices_S32768x512_S32768x128_0_384 : S32768x512.Slices ![0, 384] S32768x128
  bcast_S32768x128_S1x32768x128_1_2 : S32768x128.BroadcastsInDim S1x32768x128 (![1, 2] : Fin 2 → Fin S1x32768x128.rank)
  concatenates_S1x32768x128_S1x32768x128_S1x32768x128_S1x32768x128_S4x32768x128_d0 : Shape.Concatenates [S1x32768x128, S1x32768x128, S1x32768x128, S1x32768x128] S4x32768x128 0
  shapeCasts_S4x128_S4x1x128 : S4x128.ShapeCasts S4x1x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S4096x128 : S1x128.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S2048x256_S256x512_S2048x512_1_0_0_1_n_n_wf : DotDims.WF S2048x256 S256x512 S2048x512 [1] [0] [0] [1] [] []
  scatter_S32768_S524288x1_S524288_n_0_0_1_wf : ScatterDims.WF S32768 S524288x1 S524288 [] [0] [0] 1
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .bf16 = 32 ∨ (Rect.block (s := S32768x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x32768x128.size a
  hwx1_0 : ∀ i : grid1.Coords, EltTy.bits .bf16 = 32 ∨ (Rect.block (s := S4x32768x128) S1x4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x128.size a
  hwx1_1 : ∀ i : grid1.Coords, EltTy.bits .bf16 = 32 ∨ (Rect.block (s := S4x128x128) S1x128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S4x1x128.size a
  hwx1_2 : ∀ i : grid1.Coords, EltTy.bits .f32 = 32 ∨ (Rect.block (s := S4x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S4x128x128.size a
  hwx1_3 : ∀ i : grid1.Coords, EltTy.bits .bf16 = 32 ∨ (Rect.block (s := S4x128x128) S1x128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S4x1x128.size a
  hwx1_4 : ∀ i : grid1.Coords, EltTy.bits .f32 = 32 ∨ (Rect.block (s := S4x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S4x128x128.size a
  hwx1_5 : ∀ i : grid1.Coords, EltTy.bits .bf16 = 32 ∨ (Rect.block (s := S4x128x128) S1x128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S32768x128.size a
  hwx1_7 : ∀ i : grid1.Coords, EltTy.bits .f32 = 32 ∨ (Rect.block (s := S32768x128) S4096x128.size (cc1_transform_7 i) (hinb1_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v19) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v117) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v118) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v121) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v119) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v122) S1x1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v120) S1x128x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v123) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v124) S4096x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S32768x256 : Shape := ⟨2, ![32768, 256]⟩
abbrev S2x524288 : Shape := ⟨2, ![2, 524288]⟩
abbrev S4x256x128 : Shape := ⟨3, ![4, 256, 128]⟩
abbrev S4x128 : Shape := ⟨2, ![4, 128]⟩
abbrev S4x128x128 : Shape := ⟨3, ![4, 128, 128]⟩
abbrev S4 : Shape := ⟨1, ![4]⟩
abbrev S_ : Shape := ⟨0, ![]⟩
abbrev S512x128 : Shape := ⟨2, ![512, 128]⟩
abbrev S128 : Shape := ⟨1, ![128]⟩
abbrev S1x524288 : Shape := ⟨2, ![1, 524288]⟩
abbrev S524288 : Shape := ⟨1, ![524288]⟩
abbrev S32768 : Shape := ⟨1, ![32768]⟩
abbrev S524288x1 : Shape := ⟨2, ![524288, 1]⟩
abbrev S32768x1 : Shape := ⟨2, ![32768, 1]⟩
abbrev S1 : Shape := ⟨1, ![1]⟩
abbrev S1x256x128 : Shape := ⟨3, ![1, 256, 128]⟩
abbrev S256x128 : Shape := ⟨2, ![256, 128]⟩
abbrev S32768x128 : Shape := ⟨2, ![32768, 128]⟩
abbrev S1x128 : Shape := ⟨2, ![1, 128]⟩
abbrev S1x128x128 : Shape := ⟨3, ![1, 128, 128]⟩
abbrev S128x128 : Shape := ⟨2, ![128, 128]⟩
abbrev S524288x128 : Shape := ⟨2, ![524288, 128]⟩
abbrev S32768x512 : Shape := ⟨2, ![32768, 512]⟩

abbrev nBuf : Space → Nat
  | .hbm => 263
  | .vmem => 0
  | .smem => 0
  | _ => 0

abbrev hbmTy0_0 (i : Nat) : BufTy := match i % 128 with
  | 0 => ⟨S32768x256, .f32⟩
  | 1 => ⟨S2x524288, .i32⟩
  | 2 => ⟨S4x256x128, .f32⟩
  | 3 => ⟨S4x128, .f32⟩
  | 4 => ⟨S4x128x128, .f32⟩
  | 5 => ⟨S4x128, .f32⟩
  | 6 => ⟨S4x128x128, .f32⟩
  | 7 => ⟨S4x128, .f32⟩
  | 8 => ⟨S4, .f32⟩
  | 9 => ⟨S_, .f32⟩
  | 10 => ⟨S512x128, .f32⟩
  | 11 => ⟨S128, .f32⟩
  | 12 => ⟨S1x524288, .i32⟩
  | 13 => ⟨S524288, .i32⟩
  | 14 => ⟨S1x524288, .i32⟩
  | 15 => ⟨S524288, .i32⟩
  | 16 => ⟨S_, .f32⟩
  | 17 => ⟨S524288, .f32⟩
  | 18 => ⟨S_, .f32⟩
  | 19 => ⟨S32768, .f32⟩
  | 20 => ⟨S524288x1, .i32⟩
  | 21 => ⟨S32768, .f32⟩
  | 22 => ⟨S_, .f32⟩
  | 23 => ⟨S32768, .f32⟩
  | 24 => ⟨S32768, .f32⟩
  | 25 => ⟨S_, .f32⟩
  | 26 => ⟨S32768, .f32⟩
  | 27 => ⟨S32768, .f32⟩
  | 28 => ⟨S32768x1, .f32⟩
  | 29 => ⟨S4, .f32⟩
  | 30 => ⟨S4, .f32⟩
  | 31 => ⟨S_, .f32⟩
  | 32 => ⟨S_, .f32⟩
  | 33 => ⟨S_, .f32⟩
  | 34 => ⟨S_, .f32⟩
  | 35 => ⟨S1, .f32⟩
  | 36 => ⟨S4, .f32⟩
  | 37 => ⟨S4, .f32⟩
  | 38 => ⟨S4, .f32⟩
  | 39 => ⟨S_, .f32⟩
  | 40 => ⟨S_, .f32⟩
  | 41 => ⟨S1, .f32⟩
  | 42 => ⟨S4, .f32⟩
  | 43 => ⟨S4, .f32⟩
  | 44 => ⟨S1x256x128, .f32⟩
  | 45 => ⟨S256x128, .f32⟩
  | 46 => ⟨S32768x128, .f32⟩
  | 47 => ⟨S1x128, .f32⟩
  | 48 => ⟨S128, .f32⟩
  | 49 => ⟨S1x128, .f32⟩
  | 50 => ⟨S32768x128, .f32⟩
  | 51 => ⟨S32768x128, .f32⟩
  | 52 => ⟨S1x128x128, .f32⟩
  | 53 => ⟨S128x128, .f32⟩
  | 54 => ⟨S32768x128, .f32⟩
  | 55 => ⟨S1x128, .f32⟩
  | 56 => ⟨S128, .f32⟩
  | 57 => ⟨S1x128, .f32⟩
  | 58 => ⟨S32768x128, .f32⟩
  | 59 => ⟨S32768x128, .f32⟩
  | 60 => ⟨S_, .f32⟩
  | 61 => ⟨S32768x128, .f32⟩
  | 62 => ⟨S32768x128, .f32⟩
  | 63 => ⟨S1x128x128, .f32⟩
  | 64 => ⟨S128x128, .f32⟩
  | 65 => ⟨S32768x128, .f32⟩
  | 66 => ⟨S1x128, .f32⟩
  | 67 => ⟨S128, .f32⟩
  | 68 => ⟨S1x128, .f32⟩
  | 69 => ⟨S32768x128, .f32⟩
  | 70 => ⟨S32768x128, .f32⟩
  | 71 => ⟨S1, .f32⟩
  | 72 => ⟨S_, .f32⟩
  | 73 => ⟨S32768x128, .f32⟩
  | 74 => ⟨S32768x128, .f32⟩
  | 75 => ⟨S1x256x128, .f32⟩
  | 76 => ⟨S256x128, .f32⟩
  | 77 => ⟨S32768x128, .f32⟩
  | 78 => ⟨S1x128, .f32⟩
  | 79 => ⟨S128, .f32⟩
  | 80 => ⟨S1x128, .f32⟩
  | 81 => ⟨S32768x128, .f32⟩
  | 82 => ⟨S32768x128, .f32⟩
  | 83 => ⟨S_, .i32⟩
  | 84 => ⟨S524288, .i32⟩
  | 85 => ⟨S524288, .i1⟩
  | 86 => ⟨S_, .i32⟩
  | 87 => ⟨S524288, .i32⟩
  | 88 => ⟨S524288, .i32⟩
  | 89 => ⟨S524288, .i32⟩
  | 90 => ⟨S524288x1, .i32⟩
  | 91 => ⟨S524288x128, .f32⟩
  | 92 => ⟨S_, .f32⟩
  | 93 => ⟨S32768x128, .f32⟩
  | 94 => ⟨S524288x1, .i32⟩
  | 95 => ⟨S32768x128, .f32⟩
  | 96 => ⟨S32768x128, .f32⟩
  | 97 => ⟨S32768x128, .f32⟩
  | 98 => ⟨S1x128x128, .f32⟩
  | 99 => ⟨S128x128, .f32⟩
  | 100 => ⟨S32768x128, .f32⟩
  | 101 => ⟨S1x128, .f32⟩
  | 102 => ⟨S128, .f32⟩
  | 103 => ⟨S1x128, .f32⟩
  | 104 => ⟨S32768x128, .f32⟩
  | 105 => ⟨S32768x128, .f32⟩
  | 106 => ⟨S_, .f32⟩
  | 107 => ⟨S32768x128, .f32⟩
  | 108 => ⟨S32768x128, .f32⟩
  | 109 => ⟨S1x128x128, .f32⟩
  | 110 => ⟨S128x128, .f32⟩
  | 111 => ⟨S32768x128, .f32⟩
  | 112 => ⟨S1x128, .f32⟩
  | 113 => ⟨S128, .f32⟩
  | 114 => ⟨S1x128, .f32⟩
  | 115 => ⟨S32768x128, .f32⟩
  | 116 => ⟨S32768x128, .f32⟩
  | 117 => ⟨S1, .f32⟩
  | 118 => ⟨S_, .f32⟩
  | 119 => ⟨S32768x128, .f32⟩
  | 120 => ⟨S32768x128, .f32⟩
  | 121 => ⟨S1x256x128, .f32⟩
  | 122 => ⟨S256x128, .f32⟩
  | 123 => ⟨S32768x128, .f32⟩
  | 124 => ⟨S1x128, .f32⟩
  | 125 => ⟨S128, .f32⟩
  | 126 => ⟨S1x128, .f32⟩
  | 127 => ⟨S32768x128, .f32⟩
  | _ => ⟨S32768x256, .f32⟩

abbrev hbmTy0_1 (i : Nat) : BufTy := match i % 128 with
  | 0 => ⟨S32768x128, .f32⟩
  | 1 => ⟨S_, .i32⟩
  | 2 => ⟨S524288, .i32⟩
  | 3 => ⟨S524288, .i1⟩
  | 4 => ⟨S_, .i32⟩
  | 5 => ⟨S524288, .i32⟩
  | 6 => ⟨S524288, .i32⟩
  | 7 => ⟨S524288, .i32⟩
  | 8 => ⟨S524288x1, .i32⟩
  | 9 => ⟨S524288x128, .f32⟩
  | 10 => ⟨S_, .f32⟩
  | 11 => ⟨S32768x128, .f32⟩
  | 12 => ⟨S524288x1, .i32⟩
  | 13 => ⟨S32768x128, .f32⟩
  | 14 => ⟨S32768x128, .f32⟩
  | 15 => ⟨S32768x128, .f32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S524288x1, .i32⟩
  | 24 => ⟨S524288x128, .f32⟩
  | 25 => ⟨S_, .f32⟩
  | 26 => ⟨S32768x128, .f32⟩
  | 27 => ⟨S524288x1, .i32⟩
  | 28 => ⟨S32768x128, .f32⟩
  | 29 => ⟨S32768x128, .f32⟩
  | 30 => ⟨S32768x128, .f32⟩
  | 31 => ⟨S1x128x128, .f32⟩
  | 32 => ⟨S128x128, .f32⟩
  | 33 => ⟨S32768x128, .f32⟩
  | 34 => ⟨S1x128, .f32⟩
  | 35 => ⟨S128, .f32⟩
  | 36 => ⟨S1x128, .f32⟩
  | 37 => ⟨S32768x128, .f32⟩
  | 38 => ⟨S32768x128, .f32⟩
  | 39 => ⟨S_, .f32⟩
  | 40 => ⟨S32768x128, .f32⟩
  | 41 => ⟨S32768x128, .f32⟩
  | 42 => ⟨S1x128x128, .f32⟩
  | 43 => ⟨S128x128, .f32⟩
  | 44 => ⟨S32768x128, .f32⟩
  | 45 => ⟨S1x128, .f32⟩
  | 46 => ⟨S128, .f32⟩
  | 47 => ⟨S1x128, .f32⟩
  | 48 => ⟨S32768x128, .f32⟩
  | 49 => ⟨S32768x128, .f32⟩
  | 50 => ⟨S1, .f32⟩
  | 51 => ⟨S_, .f32⟩
  | 52 => ⟨S32768x128, .f32⟩
  | 53 => ⟨S32768x128, .f32⟩
  | 54 => ⟨S1x256x128, .f32⟩
  | 55 => ⟨S256x128, .f32⟩
  | 56 => ⟨S32768x128, .f32⟩
  | 57 => ⟨S1x128, .f32⟩
  | 58 => ⟨S128, .f32⟩
  | 59 => ⟨S1x128, .f32⟩
  | 60 => ⟨S32768x128, .f32⟩
  | 61 => ⟨S32768x128, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288x128, .f32⟩
  | 71 => ⟨S_, .f32⟩
  | 72 => ⟨S32768x128, .f32⟩
  | 73 => ⟨S524288x1, .i32⟩
  | 74 => ⟨S32768x128, .f32⟩
  | 75 => ⟨S32768x128, .f32⟩
  | 76 => ⟨S32768x128, .f32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S524288x1, .i32⟩
  | 85 => ⟨S524288x128, .f32⟩
  | 86 => ⟨S_, .f32⟩
  | 87 => ⟨S32768x128, .f32⟩
  | 88 => ⟨S524288x1, .i32⟩
  | 89 => ⟨S32768x128, .f32⟩
  | 90 => ⟨S32768x128, .f32⟩
  | 91 => ⟨S32768x128, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x128, .f32⟩
  | 101 => ⟨S_, .f32⟩
  | 102 => ⟨S32768x128, .f32⟩
  | 103 => ⟨S524288x1, .i32⟩
  | 104 => ⟨S32768x128, .f32⟩
  | 105 => ⟨S32768x128, .f32⟩
  | 106 => ⟨S32768x128, .f32⟩
  | 107 => ⟨S1x128x128, .f32⟩
  | 108 => ⟨S128x128, .f32⟩
  | 109 => ⟨S32768x128, .f32⟩
  | 110 => ⟨S1x128, .f32⟩
  | 111 => ⟨S128, .f32⟩
  | 112 => ⟨S1x128, .f32⟩
  | 113 => ⟨S32768x128, .f32⟩
  | 114 => ⟨S32768x128, .f32⟩
  | 115 => ⟨S_, .f32⟩
  | 116 => ⟨S32768x128, .f32⟩
  | 117 => ⟨S32768x128, .f32⟩
  | 118 => ⟨S1x128x128, .f32⟩
  | 119 => ⟨S128x128, .f32⟩
  | 120 => ⟨S32768x128, .f32⟩
  | 121 => ⟨S1x128, .f32⟩
  | 122 => ⟨S128, .f32⟩
  | 123 => ⟨S1x128, .f32⟩
  | 124 => ⟨S32768x128, .f32⟩
  | 125 => ⟨S32768x128, .f32⟩
  | 126 => ⟨S1, .f32⟩
  | 127 => ⟨S_, .f32⟩
  | _ => ⟨S32768x256, .f32⟩

abbrev hbmTy0_2 (i : Nat) : BufTy := match i % 128 with
  | 0 => ⟨S32768x128, .f32⟩
  | 1 => ⟨S32768x128, .f32⟩
  | 2 => ⟨S32768x512, .f32⟩
  | 3 => ⟨S32768x128, .f32⟩
  | 4 => ⟨S1x128, .f32⟩
  | 5 => ⟨S32768x128, .f32⟩
  | 6 => ⟨S32768x128, .f32⟩
  | _ => ⟨S32768x256, .f32⟩

abbrev hbmTy (i : Nat) : BufTy := match i / 128 with
  | 0 => hbmTy0_0 i
  | 1 => hbmTy0_1 i
  | 2 => hbmTy0_2 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c : Ref sig .tc := ⟨.hbm, 83, rfl⟩
abbrev main_v62 : Ref sig .tc := ⟨.hbm, 84, rfl⟩
abbrev main_v63 : Ref sig .tc := ⟨.hbm, 85, rfl⟩
abbrev main_c_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call1_cst : Ref sig .tc := ⟨.hbm, 106, rfl⟩
abbrev main_call1_v0 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_8 : Ref sig .tc := ⟨.hbm, 129, rfl⟩
abbrev main_v103 : Ref sig .tc := ⟨.hbm, 130, rfl⟩
abbrev main_v104 : Ref sig .tc := ⟨.hbm, 131, rfl⟩
abbrev main_c_9 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_10 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c_11 : Ref sig .tc := ⟨.hbm, 144, rfl⟩
abbrev main_v115 : Ref sig .tc := ⟨.hbm, 145, rfl⟩
abbrev main_v116 : Ref sig .tc := ⟨.hbm, 146, rfl⟩
abbrev main_c_12 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_13 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_call2_cst : Ref sig .tc := ⟨.hbm, 167, rfl⟩
abbrev main_call2_v0 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_c_14 : Ref sig .tc := ⟨.hbm, 190, rfl⟩
abbrev main_v156 : Ref sig .tc := ⟨.hbm, 191, rfl⟩
abbrev main_v157 : Ref sig .tc := ⟨.hbm, 192, rfl⟩
abbrev main_c_15 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_16 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_c_17 : Ref sig .tc := ⟨.hbm, 205, rfl⟩
abbrev main_v168 : Ref sig .tc := ⟨.hbm, 206, rfl⟩
abbrev main_v169 : Ref sig .tc := ⟨.hbm, 207, rfl⟩
abbrev main_c_18 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_19 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_c_20 : Ref sig .tc := ⟨.hbm, 220, rfl⟩
abbrev main_v180 : Ref sig .tc := ⟨.hbm, 221, rfl⟩
abbrev main_v181 : Ref sig .tc := ⟨.hbm, 222, rfl⟩
abbrev main_c_21 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_cst_22 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_call3_cst : Ref sig .tc := ⟨.hbm, 243, rfl⟩
abbrev main_call3_v0 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S32768_S32768x1_0 : S32768.BroadcastsInDim S32768x1 (![0] : Fin 1 → Fin S32768x1.rank)
  bcast_S_S4 : S_.BroadcastsInDim S4 (![] : Fin 0 → Fin S4.rank)
  reducesTo_S4_S_d0 : S4.ReducesTo [0] S_
  h_S_ : 0 < S_.numel
  bcast_S_S1 : S_.BroadcastsInDim S1 (![] : Fin 0 → Fin S1.rank)
  bcast_S1_S4_0 : S1.BroadcastsInDim S4 (![0] : Fin 1 → Fin S4.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S4x128x128_S1x128x128_0_0_0 : S4x128x128.Slices ![0, 0, 0] S1x128x128
  shapeCasts_S1x128x128_S128x128 : S1x128x128.ShapeCasts S128x128
  bcast_S_S32768x128 : S_.BroadcastsInDim S32768x128 (![] : Fin 0 → Fin S32768x128.rank)
  slices_S4_S1_0 : S4.Slices ![0] S1
  shapeCasts_S1_S_ : S1.ShapeCasts S_
  slices_S4x256x128_S1x256x128_1_0_0 : S4x256x128.Slices ![1, 0, 0] S1x256x128
  slices_S4x128_S1x128_1_0 : S4x128.Slices ![1, 0] S1x128
  bcast_S32768x1_S32768x128_0_1 : S32768x1.BroadcastsInDim S32768x128 (![0, 1] : Fin 2 → Fin S32768x128.rank)
  slices_S4x128x128_S1x128x128_1_0_0 : S4x128x128.Slices ![1, 0, 0] S1x128x128
  slices_S4_S1_1 : S4.Slices ![1] S1
  slices_S4x256x128_S1x256x128_2_0_0 : S4x256x128.Slices ![2, 0, 0] S1x256x128
  slices_S4x128_S1x128_2_0 : S4x128.Slices ![2, 0] S1x128
  slices_S4x128x128_S1x128x128_2_0_0 : S4x128x128.Slices ![2, 0, 0] S1x128x128
  slices_S4_S1_2 : S4.Slices ![2] S1
  slices_S4x256x128_S1x256x128_3_0_0 : S4x256x128.Slices ![3, 0, 0] S1x256x128
  slices_S4x128_S1x128_3_0 : S4x128.Slices ![3, 0] S1x128
  slices_S4x128x128_S1x128x128_3_0_0 : S4x128x128.Slices ![3, 0, 0] S1x128x128
  slices_S4_S1_3 : S4.Slices ![3] S1
  concatenates_S32768x128_S32768x128_S32768x128_S32768x128_S32768x512_d1 : Shape.Concatenates [S32768x128, S32768x128, S32768x128, S32768x128] S32768x512 1
  scatter_S32768_S524288x1_S524288_n_0_0_1_wf : ScatterDims.WF S32768 S524288x1 S524288 [] [0] [0] 1
  dot_S32768x256_S256x128_S32768x128_1_0_0_1_n_n_wf : DotDims.WF S32768x256 S256x128 S32768x128 [1] [0] [0] [1] [] []
  dot_S32768x128_S128x128_S32768x128_1_0_0_1_n_n_wf : DotDims.WF S32768x128 S128x128 S32768x128 [1] [0] [0] [1] [] []
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S32768x512_S512x128_S32768x128_1_0_0_1_n_n_wf : DotDims.WF S32768x512 S512x128 S32768x128 [1] [0] [0] [1] [] []

variable [Facts₀]

def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf

class Facts : Prop extends Facts₀ where

variable [Facts]
-- ==== Proof.B0.lean ====
/-
  The first kernel region (the four branch projections at once), for any float instance.

  Its grid is 16 row tiles. At tile `t` the body is handed rows `2048 t … 2048 t + 2047` of the converted input (window 0), the
  whole [256, 512] weight matrix (window 1) and the [1, 512] bias row (window 2), and stores into the output's block (window 3)
  the one value `k0_pay1` of those three: the tile's rows times the matrix, plus the bias row. Nothing else is written and no
  state is carried from tile to tile, so after the body each input buffer still holds its block and the output buffer holds
  `out0` of the three input blocks.
-/
import proofs.«181357_j35347580846308_1_alg».proof.Proof.Gen.Kernel.Launch
import proofs.«181357_j35347580846308_1_alg».proof.Proof.Gen.Kernel.Skeleton
import proofs.«181357_j35347580846308_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: the contents of every TensorCore buffer when the region is entered.
variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every tile, whether the tile fetches it or an earlier one did and
    the block has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

abbrev rx0 : Rect S2048x256 := Rect.unit (s := S2048x256) ![0, 0] S2048x256.size inb_S2048x256_S2048x256_0_0
abbrev rx1 : Rect S256x512 := Rect.unit (s := S256x512) ![0, 0] S256x512.size inb_S256x512_S256x512_0_0
abbrev rx2 : Rect S1x512 := Rect.unit (s := S1x512) ![0, 0] S1x512.size inb_S1x512_S1x512_0_0
abbrev ro0 : Rect S2048x512 := Rect.unit (s := S2048x512) ![0, 0] S2048x512.size inb_S2048x512_S2048x512_0_0

/-- The output buffer after the body: its one store, of the whole block, of the payload of the three input buffers. -/
def out0 (x0 : Vec F S2048x256 .bf16) (x1 : Vec F S256x512 .bf16) (x2 : Vec F S1x512 .f32) : Vec F S2048x512 .f32 :=
  View.canon [⟨ro0, k0_pay1 (View.ld x0 rx0) (View.ld x1 rx1) (View.ld x2 rx2)⟩]

/-- That store covers the buffer. -/
theorem cover0 (p0 : Vec F S2048x512 .f32) (y : S2048x512.Idx) :
    ∃ pc ∈ ([⟨ro0, p0⟩] : List (View.Piece (Elt F) S2048x512 .f32)), y ∈ pc.1.set :=
  View.cover_of_tiled [⟨ro0, p0⟩] S2048x512.size (by rfl) y

/-! ## The body's triple -/

set_option maxHeartbeats 1000000 in
/-- On whole buffers, the inputs' at contents `x0 x1 x2` and the output's at anything, the body runs to its return with the
    inputs' as they were and the output's at `out0 x0 x1 x2`. -/
theorem sound_kernel0 (c : Dev nD) (E : Set ℕ) (i : grid0.Coords)
    (arg1 : Memref sig .tc .vmem S2048x256 .bf16) (harg1 : arg1.IsWhole) (arg2 : Memref sig .tc .vmem S256x512 .bf16) (harg2 : arg2.IsWhole)
    (arg3 : Memref sig .tc .vmem S1x512 .f32) (harg3 : arg3.IsWhole) (arg4 : Memref sig .tc .vmem S2048x512 .f32) (harg4 : arg4.IsWhole)
    (x0 : Vec F S2048x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__branch_proj_kernel i arg1 harg1 arg2 harg2 arg3 harg3 arg4 harg4) K := by
  simp only [cc0__branch_proj_kernel_eq_skeleton]; unfold cc0__branch_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The region's proof data -/

/-- On core `c`: the arrays as the region finds them; after the body at tile `t` each input's buffer at its block and the
    output's at `out0` of the three input blocks; the invariant the scoped buffers no window stages and the random-number
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody.lean ====
/-
  The second kernel's body as separation-logic triples, one per case of its two conditionals, at any float
  instance: on whole memrefs — the seven inputs at their read contents, the output block and the accumulator
  scratch — the body runs to a continuation holding the inputs as they were and the scratch (and, at a row's
  last point, the output) at contents stated through the payloads of the body's stores.
-/
import proofs.«181357_j35347580846308_1_alg».proof.Proof.Gen.Kernel.Launch
import proofs.«181357_j35347580846308_1_alg».proof.Proof.Gen.Kernel.Skeleton
import proofs.«181357_j35347580846308_1_alg».proof.Proof.Gen.Kernel.Points
import Idealize.ShloMosaic.Lib.Pipeline.FrameBody
import Idealize.ShloMosaic.Lib.Tactic
import Idealize.ShloMosaic.Lib.Pipeline.Kit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Body 1: the reset, the accumulation and the final write -/

/-- Two zero offsets, however spelt, are the zero offsets. -/
theorem off2_zero : (![0, 0] : Fin 2 → Nat) = fun _ => 0 := funext fun a => by match a with | ⟨0, _⟩ => rfl | ⟨1, _⟩ => rfl
/-- Three zero offsets likewise. -/
theorem off3_zero : (![0, 0, 0] : Fin 3 → Nat) = fun _ => 0 := funext fun a => by match a with | ⟨0, _⟩ => rfl | ⟨1, _⟩ => rfl | ⟨2, _⟩ => rfl

abbrev r1 : Rect S4096x128 := Rect.unit (s := S4096x128) ![0, 0] S4096x128.size inb_S4096x128_S4096x128_0_0
abbrev r1a : Rect S1x4096x128 := Rect.unit (s := S1x4096x128) ![0, 0, 0] S1x4096x128.size inb_S1x4096x128_S1x4096x128_0_0_0
abbrev r1w : Rect S1x128x128 := Rect.unit (s := S1x128x128) ![0, 0, 0] S1x128x128.size inb_S1x128x128_S1x128x128_0_0_0
abbrev r1b : Rect S1x1x128 := Rect.unit (s := S1x1x128) ![0, 0, 0] S1x1x128.size inb_S1x1x128_S1x1x128_0_0_0
abbrev r1c : Rect S1x128 := Rect.unit (s := S1x128) ![0, 0] S1x128.size inb_S1x128_S1x128_0_0

/-- The first conditional's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- What the scratch holds after a point that found it at `s`. -/
def acc (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (s : Vec F S4096x128 .f32) : Vec F S4096x128 .f32 :=
  View.canon [⟨r1, k1_pay1 (k1_pay4 (View.ld x0 r1a) (View.ld x1 r1w) (View.ld x2 r1b) (View.ld x3 r1w) (View.ld x4 r1b) (View.ld x5 r1w) (View.ld s r1))⟩]

/-- What the reset leaves in the scratch. -/
def zeros : Vec F S4096x128 .f32 := View.canon [⟨r1, k1_pay3 (F := F)⟩]

/-- What the last point of a row writes to the output, from the scratch and the bias. -/
def outv (s' : Vec F S4096x128 .f32) (x6 : Vec F S1x128 .f32) : Vec F S4096x128 .f32 :=
  View.canon [⟨r1, k1_pay2 (View.ld s' r1) (View.ld x6 r1c)⟩]

theorem cover1 (p0 : Vec F S4096x128 .f32) (L : List (View.Piece (Elt F) S4096x128 .f32)) (y : S4096x128.Idx) :
    ∃ pc ∈ ((⟨r1, p0⟩ :: L) : List (View.Piece (Elt F) S4096x128 .f32)), y ∈ pc.1.set :=
  ⟨_, List.mem_cons_self, View.mem_set_unit_zero off2_zero inb_S4096x128_S4096x128_0_0 y⟩

/-- A whole-buffer load of what one whole-buffer store left reads that store's payload. -/
theorem ld_canon_r1 (w : Vec F S4096x128 .f32) :
    View.ld (View.canon [(⟨r1, w⟩ : View.Piece (Elt F) S4096x128 .f32)]) r1 = w := by
  rw [View.canon_unit_zero off2_zero, View.ld_unit_zero (S := S4096x128) off2_zero]

set_option maxHeartbeats 1000000 in
/-- A row's inner points (neither conditional taken): the scratch found at `xs` ends at one accumulation step over
    `xs`; the inputs and the output block are handed back as they came. -/
theorem kernelRun1_B (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : ¬cond1_0 i) (hc1 : ¬cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xi : Vec F S4096x128 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare (acc x0 x1 x2 x3 x4 x5 xs)) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fs, %hfs, HS⟩, Hk⟩
  subst hf0 hf1 hf2 hf3 hf4 hf5 hf6 hf9 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  rw [View.read_writes_eq_canon _ _ _ (cover1 _ _)]
  unfold acc; sl_unfold_run_names
  rfl

set_option maxHeartbeats 1000000 in
/-- A row's first point (the reset taken, the final write not): whatever the scratch held, it ends at one accumulation
    step over the reset's contents; the inputs and the output block are handed back as they came. -/
theorem kernelRun1_A (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : cond1_0 i) (hc1 : ¬cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xi : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xi ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare (acc x0 x1 x2 x3 x4 x5 (zeros (F := F)))) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%ds, %fs, -, HS⟩, Hk⟩
  subst hf0 hf1 hf2 hf3 hf4 hf5 hf6 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  rw [View.read_writes_eq_canon _ _ _ (cover1 _ _)]
  unfold acc; sl_unfold_run_names
  rw [View.canon_cons_unit_zero off2_zero, View.canon_unit_zero off2_zero, View.readCov_unit_zero _ off2_zero]
  unfold zeros
  rw [View.canon_unit_zero off2_zero, View.ld_unit_zero (S := S4096x128) off2_zero]
  rfl

set_option maxHeartbeats 1000000 in
/-- A row's last point (the reset not taken, the final write taken): the scratch found at `xs` ends at one
    accumulation step over `xs`, and the output block, whatever it held, at the final value of that scratch and
    the bias; the inputs are handed back as they came. -/
theorem kernelRun1_C (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : ¬cond1_0 i) (hc1 : cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (outv (acc x0 x1 x2 x3 x4 x5 xs) x6) ∗ owns (c : Thread nD τ) arg10 fullShare (acc x0 x1 x2 x3 x4 x5 xs)) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    rw [View.read_writes_eq_canon _ _ _ (cover1 _ _)]
    unfold outv acc
    rw [View.readCov_unit_zero _ off2_zero, ld_canon_r1]
    rfl
  iexists _; isplitr
  swap; · iexact HS
  ipureintro
  sl_unfold_run_names
  rw [View.read_writes_eq_canon _ _ _ (cover1 _ _)]
  unfold acc
  rfl

/-! ## The contents in closed form: each is its store's payload over the buffers read -/

/-- The reset's contents are its payload. -/
theorem zeros_eq : (zeros (F := F)) = k1_pay3 (F := F) := by
  unfold zeros; rw [View.canon_unit_zero off2_zero]

/-- One accumulation step over scratch contents `s`, as the payload over the inputs and `s`. -/
theorem acc_eq (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (s : Vec F S4096x128 .f32) :
    acc x0 x1 x2 x3 x4 x5 s = k1_pay1 (k1_pay4 x0 x1 x2 x3 x4 x5 s) := by
  unfold acc
  rw [View.canon_unit_zero off2_zero]
  simp only [View.ld_unit_zero (S := S1x4096x128) off3_zero, View.ld_unit_zero (S := S1x128x128) off3_zero,
    View.ld_unit_zero (S := S1x1x128) off3_zero, View.ld_unit_zero (S := S4096x128) off2_zero]

/-- The final write, as the payload over the scratch and the bias. -/
theorem outv_eq (s' : Vec F S4096x128 .f32) (x6 : Vec F S1x128 .f32) : outv s' x6 = k1_pay2 s' x6 := by
  unfold outv
  rw [View.canon_unit_zero off2_zero]
  simp only [View.ld_unit_zero (S := S4096x128) off2_zero, View.ld_unit_zero (S := S1x128) off2_zero]

end Cert.Kernel.Body

end
-- ==== Proof.B1.lean ====
/-
  The second kernel region (the branches' perceptrons, summed into the output), for any float instance.

  Its grid is 8 row tiles by 4 branches, the branch moving fastest: point `t` is tile `t / 4`, branch `t % 4`. At a point the
  body is handed the tile's 4096 rows of the branch's features (window 0), the branch's two weight matrices and two bias rows
  (windows 1 to 4), the branch's block of the gated output weights (window 5) and the output bias (window 6). It keeps a
  running sum in a scratch buffer of its own: at branch 0 the sum restarts from zero; at every branch the branch's
  contribution is added; at branch 3 the sum plus the bias is stored into the output's block (window 7), which the other
  branches leave alone and which is written back only then.

  `accAt n` is what the scratch holds after point `n`: the body's accumulation of the point's blocks over zero at a
  branch-0 point, over `accAt (n - 1)` otherwise. The invariant between points carries the scratch at exactly that value.
-/
import proofs.«181357_j35347580846308_1_alg».proof.Proof.BBody
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: the contents of every TensorCore buffer when the region is entered.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or earlier. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## Where the output is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Away from the last branch the body stores nothing into the output's buffer, and the block is not written back. -/
theorem idleAt1_7 : ∀ t : Fin cfg1.N, ¬cond1_1 (grid1.coords t) → cfg1.idle 7 (grid1.coords t) = true :=
  (by decide +kernel : ∀ t : Fin grid1.N, ¬cond1_1 (grid1.coords t) → cfg1.idle 7 (grid1.coords t) = true)
theorem noFlush1_7 : ∀ t : Fin cfg1.N, ¬cond1_1 (grid1.coords t) → (cfg1.win 7).flush t = false :=
  (by decide +kernel : ∀ t : Fin grid1.N, ¬cond1_1 (grid1.coords t) → (cfg1.win 7).flush t = false)
/-- At the last branch it stores the block. -/
theorem liveAt1_7 : ∀ t : Fin cfg1.N, cond1_1 (grid1.coords t) → cfg1.idle 7 (grid1.coords t) = false :=
  (by decide +kernel : ∀ t : Fin grid1.N, cond1_1 (grid1.coords t) → cfg1.idle 7 (grid1.coords t) = false)

/-! ## The running sum -/

/-- The scratch after point `n`: the point's accumulation over zero when the point is a branch 0, over what the point before
    left otherwise. -/
def accAt (c : Dev nD) : (n : ℕ) → n < cfg1.N → Vec F S4096x128 .f32
  | 0, hn => acc (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (zeros (F := F))
  | n + 1, hn =>
    if (n + 1) % 4 = 0 then acc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (zeros (F := F))
    else acc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (accAt c n (Nat.lt_of_succ_lt hn))

theorem accAt_first (c : Dev nD) (t : Fin cfg1.N) (h0 : t.val % 4 = 0) :
    accAt V c t.val t.isLt = acc (iblk1 V c 0 t) (iblk1 V c 1 t) (iblk1 V c 2 t) (iblk1 V c 3 t) (iblk1 V c 4 t) (iblk1 V c 5 t) (zeros (F := F)) := by
  obtain ⟨n, hn⟩ := t
  cases n with
  | zero => rfl
  | succ n => exact (if_pos h0).trans rfl

theorem accAt_next (c : Dev nD) (t : Fin cfg1.N) (h0 : ¬t.val % 4 = 0) :
    accAt V c t.val t.isLt = acc (iblk1 V c 0 t) (iblk1 V c 1 t) (iblk1 V c 2 t) (iblk1 V c 3 t) (iblk1 V c 4 t) (iblk1 V c 5 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scratch buffer as the body is passed it. -/
abbrev scM : Memref sig .tc .vmem S4096x128 .f32 := Memref.whole cc1_scratch0

/-- A scoped buffer the region does not stage, whole, at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are none of this region's staging buffers — the first region's six and the scratch, the scratch
    as `S` says — and the random-number register at some state. -/
def PhiWith (c : Dev nD) (S : sProp 𝕄) : sProp 𝕄 :=
  iprop((heldAny c cc0_stg0_0 ∗ heldAny c cc0_stg0_1 ∗ heldAny c cc0_stg1_0 ∗ heldAny c cc0_stg2_0 ∗ heldAny c cc0_stg3_0 ∗ heldAny c cc0_stg3_1 ∗ S)
    ∗ ∃ r, prngReg c r)

/-- What the launch hands the region is that with the scratch at anything. -/
theorem PhiA1_eq (c : Dev nD) :
    (Pipeline.ΦA spec1 c : sProp 𝕄) = PhiWith c (iprop(∃ d, owns (c : Thread nD τ) scM fullShare d)) := by
  unfold Pipeline.ΦA PhiWith; rw [scopedRest1_eq]; simp only [scM, owns_whole]; try rfl

/-- Before position `n`: at the start the scratch at anything; afterwards at what the point before left. -/
def PhiS (c : Dev nD) : (n : ℕ) → n ≤ cfg1.N → sProp 𝕄
  | 0, _ => Pipeline.ΦA spec1 c
  | n + 1, hn => PhiWith c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM fullShare (accAt V c n hn)) := rfl

theorem PhiS_pos (c : Dev nD) (n : ℕ) (h : n ≤ cfg1.N) (hz : n ≠ 0) :
    PhiS V c n h = PhiWith c (owns (c : Thread nD τ) scM fullShare (accAt V c (n - 1) (by omega))) := by
  cases n with
  | zero => exact absurd rfl hz
  | succ n => rfl

/-! ## The region's proof data -/

/-- On core `c`: the arrays as the region finds them; after the body at point `t` each input's buffer at its block and the
    output's at the running sum through `t` plus the bias (read only where the block is written back: at a last branch);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outv (accAt V c t.val t.isLt) (iblk1 V c 6 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = outv (accAt V c t.val t.isLt) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input's buffer is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]
theorem leaves1_6 (c : Dev nD) (t : Fin cfg1.N) :
    (dat1 V c).leavesExact 6 t = owns (c : Thread nD τ) (st1_6 t) fullShare (iblk1 V c 6 t) := by
  unfold Dat.leavesExact; rw [liveAt1_6 t, after1_6]

set_option maxHeartbeats 4000000 in
/-- The body at any point. The inputs' buffers hold their blocks; the point's position among the four branches says which
    of the three runs applies; the invariant hands the body the scratch at what the point before left (at anything before
    the very first point) and takes it back at this point's running sum; away from a last branch the output's buffer goes
    back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5, leaves1_6]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 7 t (idleAt1_7 t hc1) (noFlush1_7 t hc1)]
    rw [accAt_first V c t h0]
    by_cases hz : t.val = 0
    · rw [PhiS_castSucc V c t, PhiS_zero V c _ _ hz, PhiA1_eq]; unfold PhiWith
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]; unfold PhiWith
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    have hc0 : ¬cond1_0 (grid1.coords t) := fun h => h0 ((hcond1_0 t).mp h)
    rw [accAt_next V c t h0, PhiS_castSucc V c t, PhiS_pos V c _ _ hz]; unfold PhiWith
    by_cases h1 : t.val % 4 = 3
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7, accAt_next V c t h0]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t hc1)]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the same back, the scratch's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl,
    PhiS_pos V c _ _ hne, PhiA1_eq]; unfold PhiWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.Kernel.Hand

end
-- ==== Proof.BRun.lean ====
/-
  The whole kernel program's run, for any float instance: host operations, the first kernel region, more host operations,
  the second kernel region.

  Between two of these four pieces every unscoped buffer of the core is held at a known contents: `W0` the launch memory,
  `W1` after the first stretch of host operations, `W2` that with the first region's arrays replaced by what its pipeline
  leaves (its inputs unchanged, its output the blocks the tiles wrote back), `W3` after the second stretch, `W4` that with the
  second region's arrays replaced likewise. Each region takes its arrays out of the held buffers, runs its pipeline over the
  body obligation, and puts them back. Every weakly fair execution terminates without a fault, and in the final memory
  every unscoped buffer holds `W4`. No host operation writes an argument and no region's output is an argument, so the
  arguments end as launched; the result array ends at what the second pipeline leaves.
-/
import proofs.«181357_j35347580846308_1_alg».proof.Proof.B0
import proofs.«181357_j35347580846308_1_alg».proof.Proof.B1
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch of host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The buffers the first stretch writes: one result per operation. -/
abbrev hostOps0_W : List (Ref sig .tc) := [main_v0, main_v1, main_cst, main_v2, main_cst_0, main_v3, main_v4, main_v5, main_v6, main_v7, main_cst_1, main_v8, main_v9, main_v10, main_v11, main_v12, main_v13, main_v14, main_v15, main_v16, main_v17, main_v18, main_v19, main_v20, main_v21]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the second stretch writes. -/
abbrev hostOps1_W : List (Ref sig .tc) := [main_v23, main_v24, main_v25, main_v26, main_cst_2, main_v27, main_cst_3, main_v28, main_v29, main_v30, main_cst_4, main_v31, main_v32, main_cst_5, main_v33, main_v34, main_v35, main_v36, main_v37, main_c, main_v38, main_v39, main_c_6, main_v40, main_v41, main_v42, main_v43, main_v44, main_cst_7, main_v45, main_v46, main_v47, main_v48, main_v49, main_v50, main_c_8, main_v51, main_v52, main_c_9, main_v53, main_v54, main_v55, main_v56, main_v57, main_cst_10, main_v58, main_v59, main_v60, main_v61, main_v62, main_c_11, main_v63, main_v64, main_c_12, main_v65, main_v66, main_v67, main_v68, main_v69, main_cst_13, main_v70, main_v71, main_v72, main_v73, main_v74, main_v75, main_c_14, main_v76, main_v77, main_c_15, main_v78, main_v79, main_v80, main_v81, main_v82, main_cst_16, main_v83, main_v84, main_v85, main_v86, main_v87, main_c_17, main_v88, main_v89, main_c_18, main_v90, main_v91, main_v92, main_v93, main_v94, main_cst_19, main_v95, main_v96, main_v97, main_v98, main_v99, main_c_20, main_v100, main_v101, main_c_21, main_v102, main_v103, main_v104, main_v105, main_v106, main_cst_22, main_v107, main_v108, main_v109, main_v110, main_v111, main_v112, main_v113, main_v114, main_v115, main_v116, main_v117, main_v118, main_v119, main_v120, main_v121, main_v122, main_v123]
set_option maxHeartbeats 40000000 in
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- A buffer that is no array of either region and that no host operation writes ends as launched. -/
theorem W4_kept (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (W3_of m ρ c r h3).trans <| (W2_of_ne m ρ c r h2).trans <| (W1_of m ρ c r h1).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the random-number register at some state, and the core owing nothing. -/
abbrev R (c : Dev nD) : sProp 𝕄 := iprop((∃ r, prngReg c r) ∗ ∃ W, owes (c : Thread nD τ) (0 : CellTallies nD τ sig Unit) W)
/-- A stretch of host operations over the held buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes: every unscoped buffer at `W4`, the random-number register at some state. -/
abbrev Tₙ (c : Dev nD) : sProp 𝕄 := iprop(StableHlo.held (c : Thread nD τ) (Pipeline.ucRefs τ sig) (W4 m ρ c) ∗ ∃ r, prngReg c r)

/-! ## The regions -/

set_option backward.isDefEq.respectTransparency.types false in
/-- The first region: entered from the held buffers at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the held buffers at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final memory each unscoped buffer of each core holds `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched; the result ends at what the second pipeline leaves -/

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W4_main_arg10 (c : Dev nD) : W4 m ρ c (Proc.devRef .tc main_arg10) = m ((c : Thread nD τ).loc main_arg10) :=
  W4_kept m ρ c main_arg10 (by decide) (by decide) (by decide) (by decide)
theorem W4_main_arg11 (c : Dev nD) : W4 m ρ c (Proc.devRef .tc main_arg11) = m ((c : Thread nD τ).loc main_arg11) :=
  W4_kept m ρ c main_arg11 (by decide) (by decide) (by decide) (by decide)

/-- The run's post read at the result and the arguments. -/
theorem run_result : θ_run defs (onTc (τ := τ) (main (F := F))) ⟨m, fun _ => 0, ρ⟩ (fun r => ∀ c : Dev nD,
      r.2.mem ((c.tc : Thread nD τ).loc main_v124) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v124 (by decide))).trans (W4_arr m ρ c 7),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c)⟩) (run m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_result m ρ)

end Cert.Kernel.Hand

end
-- ==== Proof.K0.lean ====
/-
  The first kernel region (the four branch projections at once), for any float instance.

  Its grid is 16 row tiles. At tile `t` the body is handed rows `2048 t … 2048 t + 2047` of the converted input (window 0), the
  whole [256, 512] weight matrix (window 1) and the [1, 512] bias row (window 2), and stores into the output's block (window 3)
  the one value `k0_pay1` of those three: the tile's rows times the matrix, plus the bias row. Nothing else is written and no
  state is carried from tile to tile, so after the body each input buffer still holds its block and the output buffer holds
  `out0` of the three input blocks.
-/
import proofs.«181357_j35347580846308_1_alg».proof.Proof.Gen.KernelIdeal.Launch
import proofs.«181357_j35347580846308_1_alg».proof.Proof.Gen.KernelIdeal.Skeleton
import proofs.«181357_j35347580846308_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: the contents of every TensorCore buffer when the region is entered.
variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every tile, whether the tile fetches it or an earlier one did and
    the block has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

abbrev rx0 : Rect S2048x256 := Rect.unit (s := S2048x256) ![0, 0] S2048x256.size inb_S2048x256_S2048x256_0_0
abbrev rx1 : Rect S256x512 := Rect.unit (s := S256x512) ![0, 0] S256x512.size inb_S256x512_S256x512_0_0
abbrev rx2 : Rect S1x512 := Rect.unit (s := S1x512) ![0, 0] S1x512.size inb_S1x512_S1x512_0_0
abbrev ro0 : Rect S2048x512 := Rect.unit (s := S2048x512) ![0, 0] S2048x512.size inb_S2048x512_S2048x512_0_0

/-- The output buffer after the body: its one store, of the whole block, of the payload of the three input buffers. -/
def out0 (x0 : Vec F S2048x256 .bf16) (x1 : Vec F S256x512 .bf16) (x2 : Vec F S1x512 .f32) : Vec F S2048x512 .f32 :=
  View.canon [⟨ro0, k0_pay1 (View.ld x0 rx0) (View.ld x1 rx1) (View.ld x2 rx2)⟩]

/-- That store covers the buffer. -/
theorem cover0 (p0 : Vec F S2048x512 .f32) (y : S2048x512.Idx) :
    ∃ pc ∈ ([⟨ro0, p0⟩] : List (View.Piece (Elt F) S2048x512 .f32)), y ∈ pc.1.set :=
  View.cover_of_tiled [⟨ro0, p0⟩] S2048x512.size (by rfl) y

/-! ## The body's triple -/

set_option maxHeartbeats 1000000 in
/-- On whole buffers, the inputs' at contents `x0 x1 x2` and the output's at anything, the body runs to its return with the
    inputs' as they were and the output's at `out0 x0 x1 x2`. -/
theorem sound_kernel0 (c : Dev nD) (E : Set ℕ) (i : grid0.Coords)
    (arg1 : Memref sig .tc .vmem S2048x256 .bf16) (harg1 : arg1.IsWhole) (arg2 : Memref sig .tc .vmem S256x512 .bf16) (harg2 : arg2.IsWhole)
    (arg3 : Memref sig .tc .vmem S1x512 .f32) (harg3 : arg3.IsWhole) (arg4 : Memref sig .tc .vmem S2048x512 .f32) (harg4 : arg4.IsWhole)
    (x0 : Vec F S2048x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__branch_proj_kernel i arg1 harg1 arg2 harg2 arg3 harg3 arg4 harg4) K := by
  simp only [cc0__branch_proj_kernel_eq_skeleton]; unfold cc0__branch_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The region's proof data -/

/-- On core `c`: the arrays as the region finds them; after the body at tile `t` each input's buffer at its block and the
    output's at `out0` of the three input blocks; the invariant the scoped buffers no window stages and the random-number
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelBody.lean ====
/-
  The second kernel's body as separation-logic triples, one per case of its two conditionals, at any float
  instance: on whole memrefs — the seven inputs at their read contents, the output block and the accumulator
  scratch — the body runs to a continuation holding the inputs as they were and the scratch (and, at a row's
  last point, the output) at contents stated through the payloads of the body's stores.
-/
import proofs.«181357_j35347580846308_1_alg».proof.Proof.Gen.KernelIdeal.Launch
import proofs.«181357_j35347580846308_1_alg».proof.Proof.Gen.KernelIdeal.Skeleton
import proofs.«181357_j35347580846308_1_alg».proof.Proof.Gen.KernelIdeal.Points
import Idealize.ShloMosaic.Lib.Pipeline.FrameBody
import Idealize.ShloMosaic.Lib.Tactic
import Idealize.ShloMosaic.Lib.Pipeline.Kit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Body 1: the reset, the accumulation and the final write -/

/-- Two zero offsets, however spelt, are the zero offsets. -/
theorem off2_zero : (![0, 0] : Fin 2 → Nat) = fun _ => 0 := funext fun a => by match a with | ⟨0, _⟩ => rfl | ⟨1, _⟩ => rfl
/-- Three zero offsets likewise. -/
theorem off3_zero : (![0, 0, 0] : Fin 3 → Nat) = fun _ => 0 := funext fun a => by match a with | ⟨0, _⟩ => rfl | ⟨1, _⟩ => rfl | ⟨2, _⟩ => rfl

abbrev r1 : Rect S4096x128 := Rect.unit (s := S4096x128) ![0, 0] S4096x128.size inb_S4096x128_S4096x128_0_0
abbrev r1a : Rect S1x4096x128 := Rect.unit (s := S1x4096x128) ![0, 0, 0] S1x4096x128.size inb_S1x4096x128_S1x4096x128_0_0_0
abbrev r1w : Rect S1x128x128 := Rect.unit (s := S1x128x128) ![0, 0, 0] S1x128x128.size inb_S1x128x128_S1x128x128_0_0_0
abbrev r1b : Rect S1x1x128 := Rect.unit (s := S1x1x128) ![0, 0, 0] S1x1x128.size inb_S1x1x128_S1x1x128_0_0_0
abbrev r1c : Rect S1x128 := Rect.unit (s := S1x128) ![0, 0] S1x128.size inb_S1x128_S1x128_0_0

/-- The first conditional's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- What the scratch holds after a point that found it at `s`. -/
def acc (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (s : Vec F S4096x128 .f32) : Vec F S4096x128 .f32 :=
  View.canon [⟨r1, k1_pay1 (k1_pay4 (View.ld x0 r1a) (View.ld x1 r1w) (View.ld x2 r1b) (View.ld x3 r1w) (View.ld x4 r1b) (View.ld x5 r1w) (View.ld s r1))⟩]

/-- What the reset leaves in the scratch. -/
def zeros : Vec F S4096x128 .f32 := View.canon [⟨r1, k1_pay3 (F := F)⟩]

/-- What the last point of a row writes to the output, from the scratch and the bias. -/
def outv (s' : Vec F S4096x128 .f32) (x6 : Vec F S1x128 .f32) : Vec F S4096x128 .f32 :=
  View.canon [⟨r1, k1_pay2 (View.ld s' r1) (View.ld x6 r1c)⟩]

theorem cover1 (p0 : Vec F S4096x128 .f32) (L : List (View.Piece (Elt F) S4096x128 .f32)) (y : S4096x128.Idx) :
    ∃ pc ∈ ((⟨r1, p0⟩ :: L) : List (View.Piece (Elt F) S4096x128 .f32)), y ∈ pc.1.set :=
  ⟨_, List.mem_cons_self, View.mem_set_unit_zero off2_zero inb_S4096x128_S4096x128_0_0 y⟩

/-- A whole-buffer load of what one whole-buffer store left reads that store's payload. -/
theorem ld_canon_r1 (w : Vec F S4096x128 .f32) :
    View.ld (View.canon [(⟨r1, w⟩ : View.Piece (Elt F) S4096x128 .f32)]) r1 = w := by
  rw [View.canon_unit_zero off2_zero, View.ld_unit_zero (S := S4096x128) off2_zero]

set_option maxHeartbeats 1000000 in
/-- A row's inner points (neither conditional taken): the scratch found at `xs` ends at one accumulation step over
    `xs`; the inputs and the output block are handed back as they came. -/
theorem kernelRun1_B (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : ¬cond1_0 i) (hc1 : ¬cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xi : Vec F S4096x128 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare (acc x0 x1 x2 x3 x4 x5 xs)) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fs, %hfs, HS⟩, Hk⟩
  subst hf0 hf1 hf2 hf3 hf4 hf5 hf6 hf9 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  rw [View.read_writes_eq_canon _ _ _ (cover1 _ _)]
  unfold acc; sl_unfold_run_names
  rfl

set_option maxHeartbeats 1000000 in
/-- A row's first point (the reset taken, the final write not): whatever the scratch held, it ends at one accumulation
    step over the reset's contents; the inputs and the output block are handed back as they came. -/
theorem kernelRun1_A (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : cond1_0 i) (hc1 : ¬cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xi : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xi ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare (acc x0 x1 x2 x3 x4 x5 (zeros (F := F)))) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%ds, %fs, -, HS⟩, Hk⟩
  subst hf0 hf1 hf2 hf3 hf4 hf5 hf6 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  rw [View.read_writes_eq_canon _ _ _ (cover1 _ _)]
  unfold acc; sl_unfold_run_names
  rw [View.canon_cons_unit_zero off2_zero, View.canon_unit_zero off2_zero, View.readCov_unit_zero _ off2_zero]
  unfold zeros
  rw [View.canon_unit_zero off2_zero, View.ld_unit_zero (S := S4096x128) off2_zero]
  rfl

set_option maxHeartbeats 1000000 in
/-- A row's last point (the reset not taken, the final write taken): the scratch found at `xs` ends at one
    accumulation step over `xs`, and the output block, whatever it held, at the final value of that scratch and
    the bias; the inputs are handed back as they came. -/
theorem kernelRun1_C (c : Dev nD) (E : Set ℕ) (i : grid1.Coords)
    (arg2 : Memref sig .tc .vmem S1x4096x128 .bf16) (harg2 : arg2.IsWhole) (arg3 : Memref sig .tc .vmem S1x128x128 .bf16) (harg3 : arg3.IsWhole)
    (arg4 : Memref sig .tc .vmem S1x1x128 .f32) (harg4 : arg4.IsWhole) (arg5 : Memref sig .tc .vmem S1x128x128 .bf16) (harg5 : arg5.IsWhole)
    (arg6 : Memref sig .tc .vmem S1x1x128 .f32) (harg6 : arg6.IsWhole) (arg7 : Memref sig .tc .vmem S1x128x128 .bf16) (harg7 : arg7.IsWhole)
    (arg8 : Memref sig .tc .vmem S1x128 .f32) (harg8 : arg8.IsWhole) (arg9 : Memref sig .tc .vmem S4096x128 .f32) (harg9 : arg9.IsWhole)
    (arg10 : Memref sig .tc .vmem S4096x128 .f32) (harg10 : arg10.IsWhole)
    (hc0 : ¬cond1_0 i) (hc1 : cond1_1 i)
    (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (x6 : Vec F S1x128 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (outv (acc x0 x1 x2 x3 x4 x5 xs) x6) ∗ owns (c : Thread nD τ) arg10 fullShare (acc x0 x1 x2 x3 x4 x5 xs)) -∗ K ⟨⟩))
      ⊢ wp frame (wpE (defs₀ (F := F)) Variants.none c none) E (cc1__mlp_reduce_kernel i arg2 harg2 arg3 harg3 arg4 harg4 arg5 harg5 arg6 harg6 arg7 harg7 arg8 harg8 arg9 harg9 arg10 harg10) K := by
  simp only [cc1__mlp_reduce_kernel_eq_skeleton, k1_part1_eq_skeleton]; unfold cc1__mlp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    rw [View.read_writes_eq_canon _ _ _ (cover1 _ _)]
    unfold outv acc
    rw [View.readCov_unit_zero _ off2_zero, ld_canon_r1]
    rfl
  iexists _; isplitr
  swap; · iexact HS
  ipureintro
  sl_unfold_run_names
  rw [View.read_writes_eq_canon _ _ _ (cover1 _ _)]
  unfold acc
  rfl

/-! ## The contents in closed form: each is its store's payload over the buffers read -/

/-- The reset's contents are its payload. -/
theorem zeros_eq : (zeros (F := F)) = k1_pay3 (F := F) := by
  unfold zeros; rw [View.canon_unit_zero off2_zero]

/-- One accumulation step over scratch contents `s`, as the payload over the inputs and `s`. -/
theorem acc_eq (x0 : Vec F S1x4096x128 .bf16) (x1 : Vec F S1x128x128 .bf16) (x2 : Vec F S1x1x128 .f32) (x3 : Vec F S1x128x128 .bf16)
    (x4 : Vec F S1x1x128 .f32) (x5 : Vec F S1x128x128 .bf16) (s : Vec F S4096x128 .f32) :
    acc x0 x1 x2 x3 x4 x5 s = k1_pay1 (k1_pay4 x0 x1 x2 x3 x4 x5 s) := by
  unfold acc
  rw [View.canon_unit_zero off2_zero]
  simp only [View.ld_unit_zero (S := S1x4096x128) off3_zero, View.ld_unit_zero (S := S1x128x128) off3_zero,
    View.ld_unit_zero (S := S1x1x128) off3_zero, View.ld_unit_zero (S := S4096x128) off2_zero]

/-- The final write, as the payload over the scratch and the bias. -/
theorem outv_eq (s' : Vec F S4096x128 .f32) (x6 : Vec F S1x128 .f32) : outv s' x6 = k1_pay2 s' x6 := by
  unfold outv
  rw [View.canon_unit_zero off2_zero]
  simp only [View.ld_unit_zero (S := S4096x128) off2_zero, View.ld_unit_zero (S := S1x128) off2_zero]

end Cert.KernelIdeal.Body

end
-- ==== Proof.K1.lean ====
/-
  The second kernel region (the branches' perceptrons, summed into the output), for any float instance.

  Its grid is 8 row tiles by 4 branches, the branch moving fastest: point `t` is tile `t / 4`, branch `t % 4`. At a point the
  body is handed the tile's 4096 rows of the branch's features (window 0), the branch's two weight matrices and two bias rows
  (windows 1 to 4), the branch's block of the gated output weights (window 5) and the output bias (window 6). It keeps a
  running sum in a scratch buffer of its own: at branch 0 the sum restarts from zero; at every branch the branch's
  contribution is added; at branch 3 the sum plus the bias is stored into the output's block (window 7), which the other
  branches leave alone and which is written back only then.

  `accAt n` is what the scratch holds after point `n`: the body's accumulation of the point's blocks over zero at a
  branch-0 point, over `accAt (n - 1)` otherwise. The invariant between points carries the scratch at exactly that value.
-/
import proofs.«181357_j35347580846308_1_alg».proof.Proof.KernelBody
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: the contents of every TensorCore buffer when the region is entered.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or earlier. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## Where the output is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Away from the last branch the body stores nothing into the output's buffer, and the block is not written back. -/
theorem idleAt1_7 : ∀ t : Fin cfg1.N, ¬cond1_1 (grid1.coords t) → cfg1.idle 7 (grid1.coords t) = true :=
  (by decide +kernel : ∀ t : Fin grid1.N, ¬cond1_1 (grid1.coords t) → cfg1.idle 7 (grid1.coords t) = true)
theorem noFlush1_7 : ∀ t : Fin cfg1.N, ¬cond1_1 (grid1.coords t) → (cfg1.win 7).flush t = false :=
  (by decide +kernel : ∀ t : Fin grid1.N, ¬cond1_1 (grid1.coords t) → (cfg1.win 7).flush t = false)
/-- At the last branch it stores the block. -/
theorem liveAt1_7 : ∀ t : Fin cfg1.N, cond1_1 (grid1.coords t) → cfg1.idle 7 (grid1.coords t) = false :=
  (by decide +kernel : ∀ t : Fin grid1.N, cond1_1 (grid1.coords t) → cfg1.idle 7 (grid1.coords t) = false)

/-! ## The running sum -/

/-- The scratch after point `n`: the point's accumulation over zero when the point is a branch 0, over what the point before
    left otherwise. -/
def accAt (c : Dev nD) : (n : ℕ) → n < cfg1.N → Vec F S4096x128 .f32
  | 0, hn => acc (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (zeros (F := F))
  | n + 1, hn =>
    if (n + 1) % 4 = 0 then acc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (zeros (F := F))
    else acc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (accAt c n (Nat.lt_of_succ_lt hn))

theorem accAt_first (c : Dev nD) (t : Fin cfg1.N) (h0 : t.val % 4 = 0) :
    accAt V c t.val t.isLt = acc (iblk1 V c 0 t) (iblk1 V c 1 t) (iblk1 V c 2 t) (iblk1 V c 3 t) (iblk1 V c 4 t) (iblk1 V c 5 t) (zeros (F := F)) := by
  obtain ⟨n, hn⟩ := t
  cases n with
  | zero => rfl
  | succ n => exact (if_pos h0).trans rfl

theorem accAt_next (c : Dev nD) (t : Fin cfg1.N) (h0 : ¬t.val % 4 = 0) :
    accAt V c t.val t.isLt = acc (iblk1 V c 0 t) (iblk1 V c 1 t) (iblk1 V c 2 t) (iblk1 V c 3 t) (iblk1 V c 4 t) (iblk1 V c 5 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scratch buffer as the body is passed it. -/
abbrev scM : Memref sig .tc .vmem S4096x128 .f32 := Memref.whole cc1_scratch0

/-- A scoped buffer the region does not stage, whole, at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are none of this region's staging buffers — the first region's six and the scratch, the scratch
    as `S` says — and the random-number register at some state. -/
def PhiWith (c : Dev nD) (S : sProp 𝕄) : sProp 𝕄 :=
  iprop((heldAny c cc0_stg0_0 ∗ heldAny c cc0_stg0_1 ∗ heldAny c cc0_stg1_0 ∗ heldAny c cc0_stg2_0 ∗ heldAny c cc0_stg3_0 ∗ heldAny c cc0_stg3_1 ∗ S)
    ∗ ∃ r, prngReg c r)

/-- What the launch hands the region is that with the scratch at anything. -/
theorem PhiA1_eq (c : Dev nD) :
    (Pipeline.ΦA spec1 c : sProp 𝕄) = PhiWith c (iprop(∃ d, owns (c : Thread nD τ) scM fullShare d)) := by
  unfold Pipeline.ΦA PhiWith; rw [scopedRest1_eq]; simp only [scM, owns_whole]; try rfl

/-- Before position `n`: at the start the scratch at anything; afterwards at what the point before left. -/
def PhiS (c : Dev nD) : (n : ℕ) → n ≤ cfg1.N → sProp 𝕄
  | 0, _ => Pipeline.ΦA spec1 c
  | n + 1, hn => PhiWith c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM fullShare (accAt V c n hn)) := rfl

theorem PhiS_pos (c : Dev nD) (n : ℕ) (h : n ≤ cfg1.N) (hz : n ≠ 0) :
    PhiS V c n h = PhiWith c (owns (c : Thread nD τ) scM fullShare (accAt V c (n - 1) (by omega))) := by
  cases n with
  | zero => exact absurd rfl hz
  | succ n => rfl

/-! ## The region's proof data -/

/-- On core `c`: the arrays as the region finds them; after the body at point `t` each input's buffer at its block and the
    output's at the running sum through `t` plus the bias (read only where the block is written back: at a last branch);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outv (accAt V c t.val t.isLt) (iblk1 V c 6 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = outv (accAt V c t.val t.isLt) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input's buffer is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]
theorem leaves1_6 (c : Dev nD) (t : Fin cfg1.N) :
    (dat1 V c).leavesExact 6 t = owns (c : Thread nD τ) (st1_6 t) fullShare (iblk1 V c 6 t) := by
  unfold Dat.leavesExact; rw [liveAt1_6 t, after1_6]

set_option maxHeartbeats 4000000 in
/-- The body at any point. The inputs' buffers hold their blocks; the point's position among the four branches says which
    of the three runs applies; the invariant hands the body the scratch at what the point before left (at anything before
    the very first point) and takes it back at this point's running sum; away from a last branch the output's buffer goes
    back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5, leaves1_6]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 7 t (idleAt1_7 t hc1) (noFlush1_7 t hc1)]
    rw [accAt_first V c t h0]
    by_cases hz : t.val = 0
    · rw [PhiS_castSucc V c t, PhiS_zero V c _ _ hz, PhiA1_eq]; unfold PhiWith
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]; unfold PhiWith
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    have hc0 : ¬cond1_0 (grid1.coords t) := fun h => h0 ((hcond1_0 t).mp h)
    rw [accAt_next V c t h0, PhiS_castSucc V c t, PhiS_pos V c _ _ hz]; unfold PhiWith
    by_cases h1 : t.val % 4 = 3
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7, accAt_next V c t h0]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t hc1)]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c Set.univ (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the same back, the scratch's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl,
    PhiS_pos V c _ _ hne, PhiA1_eq]; unfold PhiWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.KernelIdeal.Hand

end
-- ==== Proof.KRun.lean ====
/-
  The whole kernel program's run, for any float instance: host operations, the first kernel region, more host operations,
  the second kernel region.

  Between two of these four pieces every unscoped buffer of the core is held at a known contents: `W0` the launch memory,
  `W1` after the first stretch of host operations, `W2` that with the first region's arrays replaced by what its pipeline
  leaves (its inputs unchanged, its output the blocks the tiles wrote back), `W3` after the second stretch, `W4` that with the
  second region's arrays replaced likewise. Each region takes its arrays out of the held buffers, runs its pipeline over the
  body obligation, and puts them back. Every weakly fair execution terminates without a fault, and in the final memory
  every unscoped buffer holds `W4`. No host operation writes an argument and no region's output is an argument, so the
  arguments end as launched; the result array ends at what the second pipeline leaves.
-/
import proofs.«181357_j35347580846308_1_alg».proof.Proof.K0
import proofs.«181357_j35347580846308_1_alg».proof.Proof.K1
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch of host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The buffers the first stretch writes: one result per operation. -/
abbrev hostOps0_W : List (Ref sig .tc) := [main_v0, main_v1, main_cst, main_v2, main_cst_0, main_v3, main_v4, main_v5, main_v6, main_v7, main_cst_1, main_v8, main_v9, main_v10, main_v11, main_v12, main_v13, main_v14, main_v15, main_v16, main_v17, main_v18, main_v19, main_v20, main_v21]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the second stretch writes. -/
abbrev hostOps1_W : List (Ref sig .tc) := [main_v23, main_v24, main_v25, main_v26, main_cst_2, main_v27, main_cst_3, main_v28, main_v29, main_v30, main_cst_4, main_v31, main_v32, main_cst_5, main_v33, main_v34, main_v35, main_v36, main_v37, main_c, main_v38, main_v39, main_c_6, main_v40, main_v41, main_v42, main_v43, main_v44, main_cst_7, main_v45, main_v46, main_v47, main_v48, main_v49, main_v50, main_c_8, main_v51, main_v52, main_c_9, main_v53, main_v54, main_v55, main_v56, main_v57, main_cst_10, main_v58, main_v59, main_v60, main_v61, main_v62, main_c_11, main_v63, main_v64, main_c_12, main_v65, main_v66, main_v67, main_v68, main_v69, main_cst_13, main_v70, main_v71, main_v72, main_v73, main_v74, main_v75, main_c_14, main_v76, main_v77, main_c_15, main_v78, main_v79, main_v80, main_v81, main_v82, main_cst_16, main_v83, main_v84, main_v85, main_v86, main_v87, main_c_17, main_v88, main_v89, main_c_18, main_v90, main_v91, main_v92, main_v93, main_v94, main_cst_19, main_v95, main_v96, main_v97, main_v98, main_v99, main_c_20, main_v100, main_v101, main_c_21, main_v102, main_v103, main_v104, main_v105, main_v106, main_cst_22, main_v107, main_v108, main_v109, main_v110, main_v111, main_v112, main_v113, main_v114, main_v115, main_v116, main_v117, main_v118, main_v119, main_v120, main_v121, main_v122, main_v123]
set_option maxHeartbeats 40000000 in
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- A buffer that is no array of either region and that no host operation writes ends as launched. -/
theorem W4_kept (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (W3_of m ρ c r h3).trans <| (W2_of_ne m ρ c r h2).trans <| (W1_of m ρ c r h1).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the random-number register at some state, and the core owing nothing. -/
abbrev R (c : Dev nD) : sProp 𝕄 := iprop((∃ r, prngReg c r) ∗ ∃ W, owes (c : Thread nD τ) (0 : CellTallies nD τ sig Unit) W)
/-- A stretch of host operations over the held buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes: every unscoped buffer at `W4`, the random-number register at some state. -/
abbrev Tₙ (c : Dev nD) : sProp 𝕄 := iprop(StableHlo.held (c : Thread nD τ) (Pipeline.ucRefs τ sig) (W4 m ρ c) ∗ ∃ r, prngReg c r)

/-! ## The regions -/

set_option backward.isDefEq.respectTransparency.types false in
/-- The first region: entered from the held buffers at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the held buffers at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final memory each unscoped buffer of each core holds `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched; the result ends at what the second pipeline leaves -/

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W4_main_arg10 (c : Dev nD) : W4 m ρ c (Proc.devRef .tc main_arg10) = m ((c : Thread nD τ).loc main_arg10) :=
  W4_kept m ρ c main_arg10 (by decide) (by decide) (by decide) (by decide)
theorem W4_main_arg11 (c : Dev nD) : W4 m ρ c (Proc.devRef .tc main_arg11) = m ((c : Thread nD τ).loc main_arg11) :=
  W4_kept m ρ c main_arg11 (by decide) (by decide) (by decide) (by decide)

/-- The run's post read at the result and the arguments. -/
theorem run_result : θ_run defs (onTc (τ := τ) (main (F := F))) ⟨m, fun _ => 0, ρ⟩ (fun r => ∀ c : Dev nD,
      r.2.mem ((c.tc : Thread nD τ).loc main_v124) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v124 (by decide))).trans (W4_arr m ρ c 7),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c)⟩) (run m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_result m ρ)

end Cert.KernelIdeal.Hand

end
-- ==== Proof.Spec.lean ====
/-
  The function both programs compute, written once over plain coordinates, and the one algebraic law that joins their
  two arrangements of it.

  A node's row of branch features `h` goes through a two-layer perceptron: `dense` is one affine layer read at an output
  coordinate (the row against a column of the weights, plus the bias), `mlp` the second layer applied to the first
  layer rectified against `z`. With `M i k` the perceptron output of branch `i` at feature `k`, `g i` the branch's gate and
  `Wo` one column of the output weights (512 rows: branch `i`'s are rows `128 i + k`):

  * `outCat` scales each branch's features by its gate, lays the four branches side by side as one row of 512 and contracts
    that row with the column: `∑ c, (M (c / 128) (c % 128) · g (c / 128)) · Wo c + bo`;
  * `outAcc` scales the WEIGHTS by the gate instead and adds the four 128-term contractions one after another into a running
    sum that starts at zero: `((((0 + P 0) + P 1) + P 2) + P 3) + bo`, `P i = ∑ k, M i k · (Wo (128 i + k) · g i)`.

  They are equal on the extended reals: the 512 terms are regrouped as 4 × 128 (addition is commutative and associative
  there, infinities included) and in each term the gate moves across the product (so is multiplication). No finiteness of
  any entry is used.
-/
import Idealize.ShloMosaic.Lib.ValueIdx

open scoped BigOperators

noncomputable section

namespace Cert.Spec

/-- The 512 rows as four branches of 128: row `128 i + k` is the pair `(i, k)`. -/
abbrev e512 : Fin 4 × Fin 128 ≃ Fin 512 := finProdFinEquiv

/-- One affine layer at output coordinate `j`: the row `h` against column `j` of `W`, plus the bias. -/
def dense {K M : ℕ} (h : Fin K → EReal) (W : Fin K → Fin M → EReal) (b : Fin M → EReal) (j : Fin M) : EReal :=
  (∑ k : Fin K, h k * W k j) + b j

/-- The two-layer perceptron on one row, at output coordinate `j`: the second layer of the first layer rectified at `z`. -/
def mlp (z : EReal) (h : Fin 128 → EReal) (W1 : Fin 128 → Fin 128 → EReal) (b1 : Fin 128 → EReal)
    (W2 : Fin 128 → Fin 128 → EReal) (b2 : Fin 128 → EReal) (j : Fin 128) : EReal :=
  dense (fun k => max (dense h W1 b1 k) z) W2 b2 j

/-- Row `128 i + k` of the 512: the position of branch `i`'s feature `k` when the four branches lie side by side. -/
abbrev at512 (i : Fin 4) (k : Fin 128) : Fin 512 := e512 (i, k)

/-- The gated branches side by side, contracted with one column of the output weights. -/
def outCat (M : Fin 4 → Fin 128 → EReal) (g : Fin 4 → EReal) (Wo : Fin 512 → EReal) (bo : EReal) : EReal :=
  (∑ c : Fin 512, (M (e512.symm c).1 (e512.symm c).2 * g (e512.symm c).1) * Wo c) + bo

/-- Branch `i`'s contribution when the gate scales the weights. -/
def part (M : Fin 4 → Fin 128 → EReal) (g : Fin 4 → EReal) (Wo : Fin 512 → EReal) (i : Fin 4) : EReal :=
  ∑ k : Fin 128, M i k * (Wo (at512 i k) * g i)

/-- The four contributions added one after another into a sum that starts at zero, then the bias. -/
def outAcc (M : Fin 4 → Fin 128 → EReal) (g : Fin 4 → EReal) (Wo : Fin 512 → EReal) (bo : EReal) : EReal :=
  ((((0 + part M g Wo 0) + part M g Wo 1) + part M g Wo 2) + part M g Wo 3) + bo

/-- Regrouping 512 = 4 × 128 and moving the gate across each product: the two arrangements agree. -/
theorem outAcc_eq_outCat (M : Fin 4 → Fin 128 → EReal) (g : Fin 4 → EReal) (Wo : Fin 512 → EReal) (bo : EReal) :
    outAcc M g Wo bo = outCat M g Wo bo := by
  unfold outAcc outCat part
  rw [← Equiv.sum_comp e512, Fintype.sum_prod_type, Fin.sum_univ_four, zero_add]
  simp only [Equiv.symm_apply_apply]
  refine congrArg (· + bo) ?_
  have e : ∀ (i : Fin 4) (k : Fin 128), M i k * (Wo (at512 i k) * g i) = M i k * g i * Wo (e512 (i, k)) := fun i k => by
    rw [mul_comm (Wo _) (g i), mul_assoc]
  simp only [e]

/-- The whole output at node `n`, feature `j`, in the side-by-side arrangement: `H i n` is branch `i`'s feature row at the node. -/
def out (z : EReal) (H : Fin 4 → Fin 32768 → Fin 128 → EReal) (g : Fin 4 → EReal)
    (W1 : Fin 4 → Fin 128 → Fin 128 → EReal) (b1 : Fin 4 → Fin 128 → EReal)
    (W2 : Fin 4 → Fin 128 → Fin 128 → EReal) (b2 : Fin 4 → Fin 128 → EReal)
    (Wo : Fin 512 → Fin 128 → EReal) (bo : Fin 128 → EReal) (n : Fin 32768) (j : Fin 128) : EReal :=
  outCat (fun i k => mlp z (H i n) (W1 i) (b1 i) (W2 i) (b2 i) k) g (fun c => Wo c j) (bo j)

/-- The same output in the running-sum arrangement. -/
def outK (z : EReal) (H : Fin 4 → Fin 32768 → Fin 128 → EReal) (g : Fin 4 → EReal)
    (W1 : Fin 4 → Fin 128 → Fin 128 → EReal) (b1 : Fin 4 → Fin 128 → EReal)
    (W2 : Fin 4 → Fin 128 → Fin 128 → EReal) (b2 : Fin 4 → Fin 128 → EReal)
    (Wo : Fin 512 → Fin 128 → EReal) (bo : Fin 128 → EReal) (n : Fin 32768) (j : Fin 128) : EReal :=
  outAcc (fun i k => mlp z (H i n) (W1 i) (b1 i) (W2 i) (b2 i) k) g (fun c => Wo c j) (bo j)

theorem outK_eq_out (z : EReal) (H : Fin 4 → Fin 32768 → Fin 128 → EReal) (g : Fin 4 → EReal)
    (W1 : Fin 4 → Fin 128 → Fin 128 → EReal) (b1 : Fin 4 → Fin 128 → EReal)
    (W2 : Fin 4 → Fin 128 → Fin 128 → EReal) (b2 : Fin 4 → Fin 128 → EReal)
    (Wo : Fin 512 → Fin 128 → EReal) (bo : Fin 128 → EReal) (n : Fin 32768) (j : Fin 128) :
    outK z H g W1 b1 W2 b2 Wo bo n j = out z H g W1 b1 W2 b2 Wo bo n j :=
  outAcc_eq_outCat _ _ _ _

end Cert.Spec

end
-- ==== Proof.KernelPay.lean ====
/-
  The values the kernel's stores write, each read at one output coordinate on the extended reals.

  On the extended reals a change of float format is the identity and a matrix product into a zero accumulator is the
  plain sum over the contracted coordinate, so each stored value is a closed expression in the loaded blocks:

  * the projection's store is one affine layer, the row of the left block against a column of the right block plus the
    bias row's entry;
  * the accumulator's first store is zero everywhere, its running store adds to the old entry the product of the
    two-layer perceptron's row with a column of the output weights, and the pass-through store changes nothing;
  * the last store adds the output bias row's entry to the accumulator.

  A shape cast that drops a leading axis of extent one reads its operand at coordinate zero on that axis; a cast between
  equal shapes reads it where it stands; a row broadcast over many rows reads the one row.
-/
import proofs.«181357_j35347580846308_1_alg».proof.Proof.Gen.KernelIdeal.Skeleton
import proofs.«181357_j35347580846308_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelPay

open Idealize.ShloMosaic Idealize.ShloMosaic.ValueIdx Cert.KernelIdeal Cert.KernelIdeal.Gen

/-! ## The accumulator's first store, the pass-through store and the last store -/

/-- The accumulator's first store is the zero word everywhere, which is the real zero. -/
theorem pay_zero (y : S4096x128.Idx) : k1_pay3 (F := Ideal) y = 0 := by
  unfold k1_pay3
  rw [shapeCast_self]
  exact Ideal.ofBits_zero_f32

/-- The pass-through store writes back what it was given: a cast between equal shapes moves nothing. -/
theorem pay_keep (v27 : FVec Ideal S4096x128 .f32) : k1_pay1 (F := Ideal) v27 = v27 := by
  unfold k1_pay1
  exact shapeCast_self _ _

/-- The last store: the accumulator's entry plus the output bias row's entry in the same column. -/
theorem pay_out (v34 : Vec Ideal S4096x128 .f32) (v35 : Vec Ideal S1x128 .f32) (r : Fin 4096) (j : Fin 128) :
    k1_pay2 (F := Ideal) v34 v35 (ix2 r j) = v34 (ix2 r j) + v35 (ix2 (0 : Fin 1) j) := by
  unfold k1_pay2
  rw [addf_apply, broadcastTo_1b_ab_apply, shapeCast_self]

/-! ## The projection's matrix product read at an output coordinate -/

theorem mm_proj_lhs_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl

theorem mm_proj_lhs_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q

theorem mm_proj_rhs_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q

theorem mm_proj_rhs_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Into a zero accumulator the product at row `r`, column `c` is the sum over the contracted coordinate of the left
    operand's row entry times the right operand's column entry. -/
theorem mm_proj_apply (a : FVec Ideal S2048x256 .bf16) (b : FVec Ideal S256x512 .bf16) (r : Fin 2048) (c : Fin 512) :
    matmul dot_S2048x256_S256x512_S2048x512_1_0_0_1_n_n none a b (constant (F := Ideal) S2048x512 .f32 0x00000000#32) (ix2 r c)
      = ∑ k : Fin 256, a (ix2 r k) * b (ix2 k c) := by
  show FloatOps.matmul dot_S2048x256_S256x512_S2048x512_1_0_0_1_n_n none a b (constant (F := Ideal) S2048x512 .f32 0x00000000#32) (ix2 r c) = _
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r c) ((contrEquiv1 dot_S2048x256_S256x512_S2048x512_1_0_0_1_n_n 256 rfl rfl).symm k) = ix2 r k := funext fun x => Fin.ext (by
    match x with
    | ⟨0, _⟩ => exact mm_proj_lhs_0 _ _
    | ⟨1, _⟩ => exact (mm_proj_lhs_1 _ _).trans hk)
  have er : dot_S2048x256_S256x512_S2048x512_1_0_0_1_n_n.rhsIdx (ix2 r c) ((contrEquiv1 dot_S2048x256_S256x512_S2048x512_1_0_0_1_n_n 256 rfl rfl).symm k) = ix2 k c := funext fun x => Fin.ext (by
    match x with
    | ⟨0, _⟩ => exact (mm_proj_rhs_0 _ _).trans hk
    | ⟨1, _⟩ => exact mm_proj_rhs_1 _ _)
  rw [el, er]

/-! ## The projection's store -/

/-- The projection's store at row `r`, column `q`: one affine layer, the row of the left block against column `q` of the
    right block plus the bias row's entry at `q`. -/
theorem pay_proj (v0 : Vec Ideal S2048x256 .bf16) (v2 : Vec Ideal S256x512 .bf16) (v4 : Vec Ideal S1x512 .f32)
    (r : Fin 2048) (q : Fin 512) :
    k0_pay1 (F := Ideal) v0 v2 v4 (ix2 r q)
      = Cert.Spec.dense (fun a : Fin 256 => v0 (ix2 r a)) (fun (a : Fin 256) (b : Fin 512) => v2 (ix2 a b))
          (fun b : Fin 512 => v4 (ix2 (0 : Fin 1) b)) q := by
  unfold k0_pay1 Cert.Spec.dense
  dsimp only
  rw [addf_apply, broadcastTo_1b_ab_apply, shapeCast_self, shapeCast_self, shapeCast_self, mm_proj_apply]

/-! ## The perceptron's square matrix product read at an output coordinate -/

theorem mm_sq_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl

theorem mm_sq_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

theorem mm_sq_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

theorem mm_sq_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into a zero accumulator the product at row `r`, column `c` is the sum over the contracted coordinate of the left
    operand's row entry times the right operand's column entry. -/
theorem mm_sq_apply (a : FVec Ideal S4096x128 .bf16) (b : FVec Ideal S128x128 .bf16) (r : Fin 4096) (c : Fin 128) :
    matmul dot_S4096x128_S128x128_S4096x128_1_0_0_1_n_n none a b (constant (F := Ideal) S4096x128 .f32 0x00000000#32) (ix2 r c)
      = ∑ k : Fin 128, a (ix2 r k) * b (ix2 k c) := by
  show FloatOps.matmul dot_S4096x128_S128x128_S4096x128_1_0_0_1_n_n none a b (constant (F := Ideal) S4096x128 .f32 0x00000000#32) (ix2 r c) = _
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun x => Fin.ext (by
    match x with
    | ⟨0, _⟩ => exact mm_sq_lhs_0 _ _
    | ⟨1, _⟩ => exact (mm_sq_lhs_1 _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun x => Fin.ext (by
    match x with
    | ⟨0, _⟩ => exact (mm_sq_rhs_0 _ _).trans hk
    | ⟨1, _⟩ => exact mm_sq_rhs_1 _ _)
  rw [el, er]

/-! ## One affine layer of the perceptron -/

/-- A square product into a zero accumulator plus a broadcast bias row, at row `r`, column `c`, is one affine layer:
    the left operand's row against column `c` of the weights (read past their leading unit axis) plus the bias entry. -/
theorem layer_apply (x : FVec Ideal S4096x128 .bf16) (w : FVec Ideal S1x128x128 .bf16) (b : FVec Ideal S1x1x128 .f32)
    (r : Fin 4096) (c : Fin 128) :
    addf (matmul dot_S4096x128_S128x128_S4096x128_1_0_0_1_n_n none x
            (shapeCast S128x128 w shapeCasts_S1x128x128_S128x128) (constant (F := Ideal) S4096x128 .f32 0x00000000#32))
         (broadcastTo S4096x128 (shapeCast S1x128 b shapeCasts_S1x1x128_S1x128) broadcasts_S1x128_S4096x128) (ix2 r c)
      = Cert.Spec.dense (fun a : Fin 128 => x (ix2 r a)) (fun (a : Fin 128) (d : Fin 128) => w (ix3 (0 : Fin 1) a d))
          (fun d : Fin 128 => b (ix3 (0 : Fin 1) (0 : Fin 1) d)) c := by
  unfold Cert.Spec.dense
  rw [addf_apply, mm_sq_apply, broadcastTo_1b_ab_apply, shapeCast_1ab_ab_apply]
  simp only [shapeCast_1ab_ab_apply]

/-! ## The accumulator's running store -/

/-- The running store at row `r`, column `j`: the old entry plus the perceptron's row against column `j` of the output
    weights. The perceptron is the second affine layer applied to the first one rectified at the zero word; the two
    changes of format in between move nothing. -/
theorem pay_acc (v3 : Vec Ideal S1x4096x128 .bf16) (v5 : Vec Ideal S1x128x128 .bf16) (v7 : Vec Ideal S1x1x128 .f32)
    (v15 : Vec Ideal S1x128x128 .bf16) (v17 : Vec Ideal S1x1x128 .f32) (v23 : Vec Ideal S1x128x128 .bf16)
    (v26 : Vec Ideal S4096x128 .f32) (r : Fin 4096) (j : Fin 128) :
    k1_pay4 (F := Ideal) v3 v5 v7 v15 v17 v23 v26 (ix2 r j)
      = v26 (ix2 r j) + ∑ k : Fin 128,
          Cert.Spec.mlp (Ideal.ofBits .f32 0x00000000#32) (fun a => v3 (ix3 (0 : Fin 1) r a))
            (fun a b => v5 (ix3 (0 : Fin 1) a b)) (fun b => v7 (ix3 (0 : Fin 1) (0 : Fin 1) b))
            (fun a b => v15 (ix3 (0 : Fin 1) a b)) (fun b => v17 (ix3 (0 : Fin 1) (0 : Fin 1) b)) k
          * v23 (ix3 (0 : Fin 1) k j) := by
  unfold k1_pay4
  rw [addf_apply, mm_sq_apply]
  refine congrArg (v26 (ix2 r j) + ·) (Finset.sum_congr rfl fun k _ => ?_)
  rw [shapeCast_1ab_ab_apply, truncf_apply, layer_apply]
  unfold Cert.Spec.mlp
  simp only [truncf_apply, maximumf_apply, layer_apply, broadcast_apply, shapeCast_1ab_ab_apply]
  rfl

end Cert.KernelPay

end
-- ==== Proof.KVal0.lean ====
/-
  The first region's output array after its sixteen row tiles, as one function of its index.

  Tile `t` is handed rows `2048 t … 2048 t + 2047` of the converted input, the whole weight matrix and the bias row, and
  writes back rows `2048 t … 2048 t + 2047` of the output: the payload of those three blocks, which at row `r`, column
  `q` of the tile is one affine layer — the tile's row `r` against column `q` of the weights plus the bias entry at
  `q`. Row `r` of the tile is row `2048 t + r` of the array on both sides, so every tile writes its block of ONE
  function of the whole arrays: row `n` of the input against column `q`, plus the bias. Row `n` lies in tile
  `n / 2048`, so the sixteen blocks cover the array and it ends holding that function everywhere.
-/
import proofs.«181357_j35347580846308_1_alg».proof.Proof.K0
import proofs.«181357_j35347580846308_1_alg».proof.Proof.KernelPay
import proofs.«181357_j35347580846308_1_alg».proof.Proof.Spec
import Idealize.ShloMosaic.Lib.Pipeline.Value
import Idealize.ShloMosaic.Lib.ValueIdx

open scoped BigOperators

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- `V`: the contents of every buffer when the region is entered, on the extended reals.
variable (V : (c : Dev nD) → (b : Ref sig .tc) → Buf (Elt Ideal) ((c : Thread nD τ).loc b))

/-! ## The function the output ends holding -/

/-- Row `n`, column `q` of the projection: row `n` of the converted input against column `q` of the weights, plus the
    bias row's entry at `q`. -/
def projAt (c : Dev nD) (n : Fin 32768) (q : Fin 512) : EReal :=
  Cert.Spec.dense (fun a : Fin 256 => (V c main_v19 : S32768x256.Idx → EReal) (ix2 n a))
    (fun (a : Fin 256) (b : Fin 512) => (V c main_v20 : S256x512.Idx → EReal) (ix2 a b))
    (fun b : Fin 512 => (V c main_v21 : S1x512.Idx → EReal) (ix2 (0 : Fin 1) b)) q

/-- The same at an index of the output array. -/
def proj (c : Dev nD) : S32768x512.Idx → EReal :=
  fun i => projAt V c ⟨(i 0).val, idx2_lt0 i⟩ ⟨(i 1).val, idx2_lt1 i⟩

/-! ## Where each window's block sits -/

theorem off2_zero : (![0, 0] : Fin 2 → Nat) = fun _ => 0 := funext fun a => by fin_cases a <;> rfl

/-- The block indices over the grid: the input's and the output's row blocks move with the tile, the weights and
    the bias stay where they are. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at tile `t` is rows `2048 t …` of the converted input. -/
theorem iblk0_0_apply (c : Dev nD) (t : Fin cfg0.N) (x : S2048x256.Idx) (k : S32768x256.Idx)
    (hk0 : (k 0).val = 2048 * t.val + (x 0).val) (hk1 : (k 1).val = (x 1).val) :
    (iblk0 V c 0 t : Vec Ideal S2048x256 .bf16) x = (V c main_v19 : S32768x256.Idx → EReal) k := by
  obtain ⟨e0, e1, -⟩ := idx_facts0 t
  unfold iblk0
  rw [View.read_apply]
  show V c main_v19 _ = V c main_v19 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 256 + 1 * (x 1).val = (k 1).val; rw [e1, hk1]; omega

/-- The weights' block at every tile is the whole matrix. -/
theorem iblk0_1_apply (c : Dev nD) (t : Fin cfg0.N) (x : S256x512.Idx) (k : S256x512.Idx)
    (hk0 : (k 0).val = (x 0).val) (hk1 : (k 1).val = (x 1).val) :
    (iblk0 V c 1 t : Vec Ideal S256x512 .bf16) x = (V c main_v20 : S256x512.Idx → EReal) k := by
  obtain ⟨-, -, e0, e1, -⟩ := idx_facts0 t
  unfold iblk0
  rw [View.read_apply]
  show V c main_v20 _ = V c main_v20 _
  congr 1
  funext a
  apply Fin.ext
  match a with
  | ⟨0, _⟩ => show win0_1.index t (0 : Fin 2) * 256 + 1 * (x 0).val = (k 0).val; rw [e0, hk0]; omega
  | ⟨1, _⟩ => show win0_1.index t (1 : Fin 2) * 512 + 1 * (x 1).val = (k 1).val; rw [e1, hk1]; omega

/-- The bias's block at every tile is the whole row. -/
theorem iblk0_2_apply (c : Dev nD) (t : Fin cfg0.N) (x : S1x512.Idx) (k : S1x512.Idx)
    (hk0 : (k 0).val = (x 0).val) (hk1 : (k 1).val = (x 1).val) :
    (iblk0 V c 2 t : Vec Ideal S1x512 .f32) x = (V c main_v21 : S1x512.Idx → EReal) k := by
  obtain ⟨-, -, -, -, e0, e1, -⟩ := idx_facts0 t
  unfold iblk0
  rw [View.read_apply]
  show V c main_v21 _ = V c main_v21 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 512 + 1 * (x 1).val = (k 1).val; rw [e1, hk1]; omega

/-! ## What a tile writes back -/

/-- The payload at an index of the block, with the index's coordinates as the row and the column. -/
theorem pay_proj_at (x0 : Vec Ideal S2048x256 .bf16) (x1 : Vec Ideal S256x512 .bf16) (x2 : Vec Ideal S1x512 .f32)
    (y : S2048x512.Idx) :
    k0_pay1 (F := Ideal) x0 x1 x2 y
      = Cert.Spec.dense (fun a : Fin 256 => x0 (ix2 (⟨(y 0).val, idx2_lt0 y⟩ : Fin 2048) a))
          (fun (a : Fin 256) (b : Fin 512) => x1 (ix2 a b)) (fun b : Fin 512 => x2 (ix2 (0 : Fin 1) b))
          (⟨(y 1).val, idx2_lt1 y⟩ : Fin 512) := by
  obtain ⟨r, q, rfl⟩ : ∃ (r : Fin 2048) (q : Fin 512), y = ix2 r q := ⟨y 0, y 1, eq_ix2 y⟩
  exact Cert.KernelPay.pay_proj x0 x1 x2 r q

/-- Tile `t` writes back its block of `proj`. -/
theorem flushed3_eq (c : Dev nD) (t : Fin cfg0.N) :
    (dat0 V c).flushed 3 t = ((cfg0.win 3).blk t).view.read (Elt Ideal) (proj V c) := by
  show (cfg0.win 3).cut (grid0.coords t) ((dat0 V c).after 3 t) = _
  rw [after0_3]
  unfold out0
  rw [View.canon_unit_zero off2_zero]
  simp only [View.ld_unit_zero (S := S2048x256) off2_zero, View.ld_unit_zero (S := S256x512) off2_zero,
    View.ld_unit_zero (S := S1x512) off2_zero]
  obtain ⟨-, -, -, -, -, -, e0, e1⟩ := idx_facts0 t
  funext y
  show k0_pay1 (F := Ideal) (iblk0 V c 0 t) (iblk0 V c 1 t) (iblk0 V c 2 t) y
    = proj V c (((cfg0.win 3).blk t).view.emb y)
  refine (pay_proj_at (iblk0 V c 0 t) (iblk0 V c 1 t) (iblk0 V c 2 t) y).trans ?_
  unfold proj projAt Cert.Spec.dense
  have hr : ((((cfg0.win 3).blk t).view.emb y) 0).val = 2048 * t.val + (y 0).val := by
    show win0_3.index t (0 : Fin 2) * 2048 + 1 * (y 0).val = _
    rw [e0]; omega
  have hq : ((((cfg0.win 3).blk t).view.emb y) 1).val = (y 1).val := by
    show win0_3.index t (1 : Fin 2) * 512 + 1 * (y 1).val = _
    rw [e1]; omega
  refine congrArg₂ (· + ·) (Finset.sum_congr rfl fun a _ => congrArg₂ (· * ·) ?_ ?_) ?_
  · exact iblk0_0_apply V c t _ _ hr rfl
  · exact iblk0_1_apply V c t _ _ rfl hq
  · exact iblk0_2_apply V c t _ _ rfl hq

/-! ## The blocks cover the array -/

/-- An index of the array is in tile `t`'s block iff each coordinate is in the block's range on its axis. -/
theorem mem_blk3 (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v22).slice (win0_3.rect t)).set ↔ _
  rw [View.set_slice_whole, Rect.mem_set_unit]
  exact Iff.rfl

/-- Row `n` lies in tile `n / 2048`, which writes its block back. -/
theorem cover3 (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : grid0.N = 16 := N_0
  obtain ⟨t, ht⟩ : ∃ t : Fin cfg0.N, t.val = (i 0).val / 2048 :=
    ⟨⟨(i 0).val / 2048, by show (i 0).val / 2048 < grid0.N; omega⟩, rfl⟩
  obtain ⟨-, -, -, -, -, -, e0, e1⟩ := idx_facts0 t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 512 ≤ (i 1).val ∧ (i 1).val < win0_3.index t (1 : Fin 2) * 512 + 512
    rw [e1]; omega

/-! ## The array after the region -/

/-- The output array ends holding `proj`. -/
theorem final0_eq (c : Dev nD) : (dat0 V c).arrAt 3 cfg0.N = proj V c :=
  (dat0 V c).arrAt_eq_of_cover 3 (proj V c) (fun t _ => flushed3_eq V c t) cover3

/-- Read at row `n`, column `q`: row `n` of the converted input against column `q` of the weights, plus the bias. -/
theorem final0 (c : Dev nD) (n : Fin 32768) (q : Fin 512) :
    (dat0 (F := Ideal) V c).arrAt 3 cfg0.N (ix2 n q)
      = Cert.Spec.dense (fun a : Fin 256 => V c main_v19 (ix2 n a)) (fun (a : Fin 256) (b : Fin 512) => V c main_v20 (ix2 a b))
          (fun b : Fin 512 => V c main_v21 (ix2 (0 : Fin 1) b)) q := by
  rw [final0_eq]
  rfl

end Cert.KernelIdeal.Val

end
-- ==== Proof.KVal1.lean ====
/-
  The second region's output array after its thirty-two points, as one function of its index, on the extended reals.

  Point `t` is tile `t / 4`, branch `t % 4`. At row `r` of the tile and column `j` every point adds to the running sum
  the product of the branch's two-layer perceptron of the row with column `j` of the branch's block of the output
  weights; the sum restarts from zero at branch 0, and at branch 3 the sum plus the bias entry is written to rows
  `4096 (t / 4) …` of the output. Row `r` of tile `m` is row `4096 m + r` of the arrays on every window, so what a row's
  last point writes back is, at each index of its block, ONE function of the whole arrays: the four branches'
  contributions at that node added in branch order to zero, then the bias. Row `n` lies in tile `n / 4096`, whose
  last point writes its block back, so the eight written blocks cover the array and it ends holding that function.
-/
import proofs.«181357_j35347580846308_1_alg».proof.Proof.K1
import proofs.«181357_j35347580846308_1_alg».proof.Proof.KernelPay
import proofs.«181357_j35347580846308_1_alg».proof.Proof.Spec
import Idealize.ShloMosaic.Lib.Pipeline.Value
import Idealize.ShloMosaic.Lib.ValueIdx

set_option maxRecDepth 16384

open scoped BigOperators

noncomputable section

namespace Cert.KernelIdeal.Val1

open Cert.KernelIdeal Cert.KernelIdeal.Gen Cert.KernelIdeal.Body Cert.KernelIdeal.Hand Cert.KernelPay
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero word, as an extended real. -/
abbrev z : EReal := Ideal.ofBits .f32 0x00000000#32

/-! ## One step of the body, read at a row and a column -/

/-- What one point adds at row `r`, column `j` of its tile: the perceptron of the row of `x0` under the weights
    `x1 … x4`, against column `j` of `x5`. -/
def stepTerm (x0 : Vec Ideal S1x4096x128 .bf16) (x1 : Vec Ideal S1x128x128 .bf16) (x2 : Vec Ideal S1x1x128 .f32)
    (x3 : Vec Ideal S1x128x128 .bf16) (x4 : Vec Ideal S1x1x128 .f32) (x5 : Vec Ideal S1x128x128 .bf16)
    (r : Fin 4096) (j : Fin 128) : EReal :=
  ∑ k : Fin 128,
    Cert.Spec.mlp z (fun a => x0 (ix3 (0 : Fin 1) r a)) (fun a b => x1 (ix3 (0 : Fin 1) a b))
      (fun b => x2 (ix3 (0 : Fin 1) (0 : Fin 1) b)) (fun a b => x3 (ix3 (0 : Fin 1) a b))
      (fun b => x4 (ix3 (0 : Fin 1) (0 : Fin 1) b)) k * x5 (ix3 (0 : Fin 1) k j)

/-- The reset's contents are zero everywhere. -/
theorem zeros_apply (y : S4096x128.Idx) : zeros (F := Ideal) y = 0 := by
  rw [zeros_eq]; exact pay_zero y

/-- One accumulation step adds the point's term to the old entry. -/
theorem acc_apply (x0 : Vec Ideal S1x4096x128 .bf16) (x1 : Vec Ideal S1x128x128 .bf16) (x2 : Vec Ideal S1x1x128 .f32)
    (x3 : Vec Ideal S1x128x128 .bf16) (x4 : Vec Ideal S1x1x128 .f32) (x5 : Vec Ideal S1x128x128 .bf16)
    (s : Vec Ideal S4096x128 .f32) (r : Fin 4096) (j : Fin 128) :
    acc x0 x1 x2 x3 x4 x5 s (ix2 r j) = s (ix2 r j) + stepTerm x0 x1 x2 x3 x4 x5 r j := by
  rw [acc_eq, pay_keep]; exact pay_acc x0 x1 x2 x3 x4 x5 s r j

/-- The final write adds the bias row's entry. -/
theorem outv_apply (s' : Vec Ideal S4096x128 .f32) (x6 : Vec Ideal S1x128 .f32) (r : Fin 4096) (j : Fin 128) :
    outv s' x6 (ix2 r j) = s' (ix2 r j) + x6 (ix2 (0 : Fin 1) j) := by
  rw [outv_eq]; exact pay_out s' x6 r j

/-- A point's term over blocks that read as `H`, `W1`, `b1`, `W2`, `b2` and the column `Wo`. -/
theorem stepTerm_eq (x0 : Vec Ideal S1x4096x128 .bf16) (x1 : Vec Ideal S1x128x128 .bf16) (x2 : Vec Ideal S1x1x128 .f32)
    (x3 : Vec Ideal S1x128x128 .bf16) (x4 : Vec Ideal S1x1x128 .f32) (x5 : Vec Ideal S1x128x128 .bf16)
    (r : Fin 4096) (j : Fin 128) (H : Fin 128 → EReal) (W1 : Fin 128 → Fin 128 → EReal) (b1 : Fin 128 → EReal)
    (W2 : Fin 128 → Fin 128 → EReal) (b2 : Fin 128 → EReal) (Wo : Fin 128 → EReal)
    (h0 : ∀ a, x0 (ix3 (0 : Fin 1) r a) = H a) (h1 : ∀ a b, x1 (ix3 (0 : Fin 1) a b) = W1 a b)
    (h2 : ∀ b, x2 (ix3 (0 : Fin 1) (0 : Fin 1) b) = b1 b) (h3 : ∀ a b, x3 (ix3 (0 : Fin 1) a b) = W2 a b)
    (h4 : ∀ b, x4 (ix3 (0 : Fin 1) (0 : Fin 1) b) = b2 b) (h5 : ∀ k, x5 (ix3 (0 : Fin 1) k j) = Wo k) :
    stepTerm x0 x1 x2 x3 x4 x5 r j = ∑ k : Fin 128, Cert.Spec.mlp z H W1 b1 W2 b2 k * Wo k := by
  unfold stepTerm
  have e0 : (fun a => x0 (ix3 (0 : Fin 1) r a)) = H := funext h0
  have e1 : (fun a b => x1 (ix3 (0 : Fin 1) a b)) = W1 := funext fun a => funext fun b => h1 a b
  have e2 : (fun b => x2 (ix3 (0 : Fin 1) (0 : Fin 1) b)) = b1 := funext h2
  have e3 : (fun a b => x3 (ix3 (0 : Fin 1) a b)) = W2 := funext fun a => funext fun b => h3 a b
  have e4 : (fun b => x4 (ix3 (0 : Fin 1) (0 : Fin 1) b)) = b2 := funext h4
  rw [e0, e1, e2, e3, e4]
  exact Finset.sum_congr rfl fun k _ => by rw [h5]

/-! ## The running sum at a row's last point -/

/-- Point `s`'s term, over its blocks. -/
def term1 (c : Dev nD) (s : Fin cfg1.N) (r : Fin 4096) (j : Fin 128) : EReal :=
  stepTerm (iblk1 V c 0 s) (iblk1 V c 1 s) (iblk1 V c 2 s) (iblk1 V c 3 s) (iblk1 V c 4 s) (iblk1 V c 5 s) r j

/-- At a first branch the running sum restarts: zero plus the point's term. -/
theorem accAt_first_apply (c : Dev nD) (t : Fin cfg1.N) (h0 : t.val % 4 = 0) (r : Fin 4096) (j : Fin 128) :
    accAt V c t.val t.isLt (ix2 r j) = 0 + term1 V c t r j := by
  rw [accAt_first V c t h0]
  refine (acc_apply (iblk1 V c 0 t) (iblk1 V c 1 t) (iblk1 V c 2 t) (iblk1 V c 3 t) (iblk1 V c 4 t) (iblk1 V c 5 t)
    (zeros (F := Ideal)) r j).trans ?_
  rw [zeros_apply]; rfl

/-- At a later branch the point's term is added to what the point before left. -/
theorem accAt_succ_apply (c : Dev nD) (n : ℕ) (hn : n + 1 < cfg1.N) (h0 : ¬(n + 1) % 4 = 0) (r : Fin 4096) (j : Fin 128) :
    accAt V c (n + 1) hn (ix2 r j) = accAt V c n (Nat.lt_of_succ_lt hn) (ix2 r j) + term1 V c ⟨n + 1, hn⟩ r j := by
  rw [show accAt V c (n + 1) hn = acc (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (iblk1 V c 5 ⟨n + 1, hn⟩) (accAt V c n (Nat.lt_of_succ_lt hn))
    from accAt_next V c ⟨n + 1, hn⟩ h0]
  exact acc_apply (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (iblk1 V c 5 ⟨n + 1, hn⟩) (accAt V c n (Nat.lt_of_succ_lt hn)) r j

/-- At a row's last point the running sum is the four branch terms added in order to zero. -/
theorem accAt_last_apply (c : Dev nD) (n : ℕ) (hn : n + 3 < cfg1.N) (h0 : n % 4 = 0) (r : Fin 4096) (j : Fin 128) :
    accAt V c (n + 3) hn (ix2 r j)
      = (((0 + term1 V c ⟨n, by omega⟩ r j) + term1 V c ⟨n + 1, by omega⟩ r j) + term1 V c ⟨n + 2, by omega⟩ r j)
          + term1 V c ⟨n + 3, hn⟩ r j := by
  refine (accAt_succ_apply V c (n + 2) hn (by omega) r j).trans (congrArg₂ (· + ·) ?_ rfl)
  refine (accAt_succ_apply V c (n + 1) (by omega) (by omega) r j).trans (congrArg₂ (· + ·) ?_ rfl)
  refine (accAt_succ_apply V c n (by omega) (by omega) r j).trans (congrArg₂ (· + ·) ?_ rfl)
  exact accAt_first_apply V c ⟨n, by omega⟩ h0 r j

/-! ## Where the windows' blocks sit in their arrays -/

/-- The index maps, decided over the grid: a point's branch is its position in its group of four, its tile the group. -/
theorem idx_facts1 : ∀ t : Fin cfg1.N,
    (win1_0.index t (0 : Fin 3) = t.val % 4 ∧ win1_0.index t (1 : Fin 3) = t.val / 4 ∧ win1_0.index t (2 : Fin 3) = 0)
    ∧ (win1_1.index t (0 : Fin 3) = t.val % 4 ∧ win1_1.index t (1 : Fin 3) = 0 ∧ win1_1.index t (2 : Fin 3) = 0)
    ∧ (win1_2.index t (0 : Fin 3) = t.val % 4 ∧ win1_2.index t (1 : Fin 3) = 0 ∧ win1_2.index t (2 : Fin 3) = 0)
    ∧ (win1_3.index t (0 : Fin 3) = t.val % 4 ∧ win1_3.index t (1 : Fin 3) = 0 ∧ win1_3.index t (2 : Fin 3) = 0)
    ∧ (win1_4.index t (0 : Fin 3) = t.val % 4 ∧ win1_4.index t (1 : Fin 3) = 0 ∧ win1_4.index t (2 : Fin 3) = 0)
    ∧ (win1_5.index t (0 : Fin 3) = t.val % 4 ∧ win1_5.index t (1 : Fin 3) = 0 ∧ win1_5.index t (2 : Fin 3) = 0)
    ∧ (win1_6.index t (0 : Fin 2) = 0 ∧ win1_6.index t (1 : Fin 2) = 0)
    ∧ (win1_7.index t (0 : Fin 2) = t.val / 4 ∧ win1_7.index t (1 : Fin 2) = 0) :=
  (by decide +kernel : ∀ t : Fin grid1.N, _)

/-- The feature block at a point holds the branch's features at the tile's rows. -/
theorem read0 (c : Dev nD) (s : Fin cfg1.N) (i : Fin 4) (hi : s.val % 4 = i.val) (r : Fin 4096) (n : Fin 32768)
    (hn : n.val = 4096 * (s.val / 4) + r.val) (a : Fin 128) :
    iblk1 V c 0 s (ix3 (0 : Fin 1) r a) = V c main_v117 (ix3 i n a) := by
  obtain ⟨⟨e0, e1, e2⟩, -⟩ := idx_facts1 s
  show V c main_v117 (((cfg1.win 0).blk s).view.emb (ix3 (0 : Fin 1) r a)) = V c main_v117 (ix3 i n a)
  refine congrArg (V c main_v117) ?_
  funext d; apply Fin.ext
  match d with
  | ⟨0, _⟩ => show win1_0.index s (0 : Fin 3) * 1 + 1 * 0 = i.val; omega
  | ⟨1, _⟩ => show win1_0.index s (1 : Fin 3) * 4096 + 1 * r.val = n.val; omega
  | ⟨2, _⟩ => show win1_0.index s (2 : Fin 3) * 128 + 1 * a.val = a.val; omega

/-- The first layer's weights at a point are the branch's. -/
theorem read1 (c : Dev nD) (s : Fin cfg1.N) (i : Fin 4) (hi : s.val % 4 = i.val) (a b : Fin 128) :
    iblk1 V c 1 s (ix3 (0 : Fin 1) a b) = V c main_v118 (ix3 i a b) := by
  obtain ⟨-, ⟨e0, e1, e2⟩, -⟩ := idx_facts1 s
  show V c main_v118 (((cfg1.win 1).blk s).view.emb (ix3 (0 : Fin 1) a b)) = V c main_v118 (ix3 i a b)
  refine congrArg (V c main_v118) ?_
  funext d; apply Fin.ext
  match d with
  | ⟨0, _⟩ => show win1_1.index s (0 : Fin 3) * 1 + 1 * 0 = i.val; omega
  | ⟨1, _⟩ => show win1_1.index s (1 : Fin 3) * 128 + 1 * a.val = a.val; omega
  | ⟨2, _⟩ => show win1_1.index s (2 : Fin 3) * 128 + 1 * b.val = b.val; omega

/-- The first layer's bias row at a point is the branch's. -/
theorem read2 (c : Dev nD) (s : Fin cfg1.N) (i : Fin 4) (hi : s.val % 4 = i.val) (b : Fin 128) :
    iblk1 V c 2 s (ix3 (0 : Fin 1) (0 : Fin 1) b) = V c main_v121 (ix3 i (0 : Fin 1) b) := by
  obtain ⟨-, -, ⟨e0, e1, e2⟩, -⟩ := idx_facts1 s
  show V c main_v121 (((cfg1.win 2).blk s).view.emb (ix3 (0 : Fin 1) (0 : Fin 1) b)) = V c main_v121 (ix3 i (0 : Fin 1) b)
  refine congrArg (V c main_v121) ?_
  funext d; apply Fin.ext
  match d with
  | ⟨0, _⟩ => show win1_2.index s (0 : Fin 3) * 1 + 1 * 0 = i.val; omega
  | ⟨1, _⟩ => show win1_2.index s (1 : Fin 3) * 1 + 1 * 0 = 0; omega
  | ⟨2, _⟩ => show win1_2.index s (2 : Fin 3) * 128 + 1 * b.val = b.val; omega

/-- The second layer's weights at a point are the branch's. -/
theorem read3 (c : Dev nD) (s : Fin cfg1.N) (i : Fin 4) (hi : s.val % 4 = i.val) (a b : Fin 128) :
    iblk1 V c 3 s (ix3 (0 : Fin 1) a b) = V c main_v119 (ix3 i a b) := by
  obtain ⟨-, -, -, ⟨e0, e1, e2⟩, -⟩ := idx_facts1 s
  show V c main_v119 (((cfg1.win 3).blk s).view.emb (ix3 (0 : Fin 1) a b)) = V c main_v119 (ix3 i a b)
  refine congrArg (V c main_v119) ?_
  funext d; apply Fin.ext
  match d with
  | ⟨0, _⟩ => show win1_3.index s (0 : Fin 3) * 1 + 1 * 0 = i.val; omega
  | ⟨1, _⟩ => show win1_3.index s (1 : Fin 3) * 128 + 1 * a.val = a.val; omega
  | ⟨2, _⟩ => show win1_3.index s (2 : Fin 3) * 128 + 1 * b.val = b.val; omega

/-- The second layer's bias row at a point is the branch's. -/
theorem read4 (c : Dev nD) (s : Fin cfg1.N) (i : Fin 4) (hi : s.val % 4 = i.val) (b : Fin 128) :
    iblk1 V c 4 s (ix3 (0 : Fin 1) (0 : Fin 1) b) = V c main_v122 (ix3 i (0 : Fin 1) b) := by
  obtain ⟨-, -, -, -, ⟨e0, e1, e2⟩, -⟩ := idx_facts1 s
  show V c main_v122 (((cfg1.win 4).blk s).view.emb (ix3 (0 : Fin 1) (0 : Fin 1) b)) = V c main_v122 (ix3 i (0 : Fin 1) b)
  refine congrArg (V c main_v122) ?_
  funext d; apply Fin.ext
  match d with
  | ⟨0, _⟩ => show win1_4.index s (0 : Fin 3) * 1 + 1 * 0 = i.val; omega
  | ⟨1, _⟩ => show win1_4.index s (1 : Fin 3) * 1 + 1 * 0 = 0; omega
  | ⟨2, _⟩ => show win1_4.index s (2 : Fin 3) * 128 + 1 * b.val = b.val; omega

/-- The output weights' block at a point is the branch's, read at a column of the same number. -/
theorem read5 (c : Dev nD) (s : Fin cfg1.N) (i : Fin 4) (hi : s.val % 4 = i.val) (k : Fin 128) (j j' : Fin 128)
    (hj : j'.val = j.val) :
    iblk1 V c 5 s (ix3 (0 : Fin 1) k j) = V c main_v120 (ix3 i k j') := by
  obtain ⟨-, -, -, -, -, ⟨e0, e1, e2⟩, -⟩ := idx_facts1 s
  show V c main_v120 (((cfg1.win 5).blk s).view.emb (ix3 (0 : Fin 1) k j)) = V c main_v120 (ix3 i k j')
  refine congrArg (V c main_v120) ?_
  funext d; apply Fin.ext
  match d with
  | ⟨0, _⟩ => show win1_5.index s (0 : Fin 3) * 1 + 1 * 0 = i.val; omega
  | ⟨1, _⟩ => show win1_5.index s (1 : Fin 3) * 128 + 1 * k.val = k.val; omega
  | ⟨2, _⟩ => show win1_5.index s (2 : Fin 3) * 128 + 1 * j.val = j'.val; omega

/-- The output bias's block at every point is the whole row. -/
theorem read6 (c : Dev nD) (s : Fin cfg1.N) (j j' : Fin 128) (hj : j'.val = j.val) :
    iblk1 V c 6 s (ix2 (0 : Fin 1) j) = V c main_v123 (ix2 (0 : Fin 1) j') := by
  obtain ⟨-, -, -, -, -, -, ⟨e0, e1⟩, -⟩ := idx_facts1 s
  show V c main_v123 (((cfg1.win 6).blk s).view.emb (ix2 (0 : Fin 1) j)) = V c main_v123 (ix2 (0 : Fin 1) j')
  refine congrArg (V c main_v123) ?_
  funext d; apply Fin.ext
  match d with
  | ⟨0, _⟩ => show win1_6.index s (0 : Fin 2) * 1 + 1 * 0 = 0; omega
  | ⟨1, _⟩ => show win1_6.index s (1 : Fin 2) * 128 + 1 * j.val = j'.val; omega

/-! ## The function the output ends holding -/

/-- Branch `i`'s perceptron at node `n`, feature `k`. -/
def percAt (c : Dev nD) (n : Fin 32768) (i : Fin 4) (k : Fin 128) : EReal :=
  Cert.Spec.mlp z (fun a => V c main_v117 (ix3 i n a)) (fun a b => V c main_v118 (ix3 i a b))
    (fun b => V c main_v121 (ix3 i (0 : Fin 1) b)) (fun a b => V c main_v119 (ix3 i a b))
    (fun b => V c main_v122 (ix3 i (0 : Fin 1) b)) k

/-- Column `j` of the gated output weights, its 512 rows as four branches of 128. -/
def woCol (c : Dev nD) (j : Fin 128) (cc : Fin 512) : EReal :=
  V c main_v120 (ix3 (Cert.Spec.e512.symm cc).1 (Cert.Spec.e512.symm cc).2 j)

/-- The output at node `n`, feature `j`: the four branches' contributions added in order to zero, then the bias. -/
def outAt (c : Dev nD) (n : Fin 32768) (j : Fin 128) : EReal :=
  Cert.Spec.outAcc (percAt V c n) (fun _ => 1) (woCol V c j) (V c main_v123 (ix2 (0 : Fin 1) j))

/-- The same at an index of the output array. -/
def outArr (c : Dev nD) : S32768x128.Idx → EReal :=
  fun i => outAt V c ⟨(i 0).val, idx2_lt0 i⟩ ⟨(i 1).val, idx2_lt1 i⟩

/-- Point `s` of branch `i`, at row `r` of its tile — row `n` of the arrays —, adds branch `i`'s contribution. -/
theorem term1_eq (c : Dev nD) (s : Fin cfg1.N) (i : Fin 4) (hi : s.val % 4 = i.val) (r : Fin 4096) (n : Fin 32768)
    (hn : n.val = 4096 * (s.val / 4) + r.val) (j j' : Fin 128) (hj : j'.val = j.val) :
    term1 V c s r j = Cert.Spec.part (percAt V c n) (fun _ => 1) (woCol V c j') i := by
  unfold term1
  refine (stepTerm_eq (iblk1 V c 0 s) (iblk1 V c 1 s) (iblk1 V c 2 s) (iblk1 V c 3 s) (iblk1 V c 4 s) (iblk1 V c 5 s) r j
    (fun a => V c main_v117 (ix3 i n a)) (fun a b => V c main_v118 (ix3 i a b))
    (fun b => V c main_v121 (ix3 i (0 : Fin 1) b)) (fun a b => V c main_v119 (ix3 i a b))
    (fun b => V c main_v122 (ix3 i (0 : Fin 1) b)) (fun k => V c main_v120 (ix3 i k j'))
    (fun a => read0 V c s i hi r n hn a) (fun a b => read1 V c s i hi a b) (fun b => read2 V c s i hi b)
    (fun a b => read3 V c s i hi a b) (fun b => read4 V c s i hi b) (fun k => read5 V c s i hi k j j' hj)).trans ?_
  unfold Cert.Spec.part percAt woCol
  refine Finset.sum_congr rfl fun k _ => ?_
  rw [mul_one]
  show _ = _ * V c main_v120 (ix3 (Cert.Spec.e512.symm (Cert.Spec.e512 (i, k))).1 (Cert.Spec.e512.symm (Cert.Spec.e512 (i, k))).2 j')
  rw [Equiv.symm_apply_apply]

/-! ## What a row's last point writes back -/

/-- A point that writes the output back writes its block of `outArr`. -/
theorem flushed7_eq (c : Dev nD) (t : Fin cfg1.N) (hf : (cfg1.win 7).flush t = true) :
    (dat1 V c).flushed 7 t = ((cfg1.win 7).blk t).view.read (Elt Ideal) (outArr V c) := by
  have h3 : t.val % 4 = 3 := (flush1_7 t).mp hf
  have hN : cfg1.N = 32 := N_1
  obtain ⟨tv, tlt⟩ := t
  obtain ⟨n, rfl⟩ : ∃ n, tv = n + 3 := ⟨tv - 3, by dsimp only at h3; omega⟩
  dsimp only at h3
  obtain ⟨-, -, -, -, -, -, -, ⟨e0, e1⟩⟩ := idx_facts1 ⟨n + 3, tlt⟩
  dsimp only at e0 e1
  show (cfg1.win 7).cut (grid1.coords ⟨n + 3, tlt⟩) ((dat1 V c).after 7 ⟨n + 3, tlt⟩) = _
  rw [after1_7]
  funext y
  obtain ⟨r, j, rfl⟩ : ∃ (r : Fin 4096) (j : Fin 128), y = ix2 r j := ⟨y 0, y 1, eq_ix2 y⟩
  show outv (accAt V c (n + 3) tlt) (iblk1 V c 6 ⟨n + 3, tlt⟩) (ix2 r j)
    = outArr V c (((cfg1.win 7).blk ⟨n + 3, tlt⟩).view.emb (ix2 r j))
  refine (outv_apply (accAt V c (n + 3) tlt) (iblk1 V c 6 ⟨n + 3, tlt⟩) r j).trans ?_
  rw [accAt_last_apply V c n tlt (by omega) r j]
  have hr : ((((cfg1.win 7).blk ⟨n + 3, tlt⟩).view.emb (ix2 r j)) 0).val = 4096 * (n / 4) + r.val := by
    show win1_7.index ⟨n + 3, tlt⟩ (0 : Fin 2) * 4096 + 1 * r.val = _
    rw [e0]; omega
  have hq : ((((cfg1.win 7).blk ⟨n + 3, tlt⟩).view.emb (ix2 r j)) 1).val = j.val := by
    show win1_7.index ⟨n + 3, tlt⟩ (1 : Fin 2) * 128 + 1 * j.val = _
    rw [e1]; omega
  unfold outArr outAt Cert.Spec.outAcc
  refine congrArg₂ (· + ·) (congrArg₂ (· + ·) (congrArg₂ (· + ·) (congrArg₂ (· + ·) (congrArg₂ (· + ·) rfl ?_) ?_) ?_) ?_) ?_
  · exact term1_eq V c ⟨n, by omega⟩ 0 (by show n % 4 = 0; omega) r _ (by show _ = 4096 * (n / 4) + r.val; rw [hr]) j _ hq
  · exact term1_eq V c ⟨n + 1, by omega⟩ 1 (by show (n + 1) % 4 = 1; omega) r _ (by show _ = 4096 * ((n + 1) / 4) + r.val; rw [hr]; omega) j _ hq
  · exact term1_eq V c ⟨n + 2, by omega⟩ 2 (by show (n + 2) % 4 = 2; omega) r _ (by show _ = 4096 * ((n + 2) / 4) + r.val; rw [hr]; omega) j _ hq
  · exact term1_eq V c ⟨n + 3, tlt⟩ 3 (by show (n + 3) % 4 = 3; omega) r _ (by show _ = 4096 * ((n + 3) / 4) + r.val; rw [hr]; omega) j _ hq
  · exact read6 V c ⟨n + 3, tlt⟩ j _ hq

/-! ## The written-back blocks cover the array -/

/-- An index of the output is in point `t`'s block iff each coordinate is in the block's range on its axis. -/
theorem mem_blk7 (t : Fin cfg1.N) (i : S32768x128.Idx) :
    i ∈ ((cfg1.win 7).blk t).view.set ↔ ∀ a : Fin 2, win1_7.index t a * S4096x128.size a ≤ (i a).val
      ∧ (i a).val < win1_7.index t a * S4096x128.size a + S4096x128.size a := by
  show i ∈ ((View.whole main_v124).slice (win1_7.rect t)).set ↔ _
  rw [View.set_slice_whole, Rect.mem_set_unit]
  exact Iff.rfl

/-- The same with the ranges written out: rows `4096 (t / 4) … 4096 (t / 4) + 4095`, every column. -/
theorem mem_blk7_iff (t : Fin cfg1.N) (i : S32768x128.Idx) :
    i ∈ ((cfg1.win 7).blk t).view.set ↔ 4096 * (t.val / 4) ≤ (i 0).val ∧ (i 0).val < 4096 * (t.val / 4) + 4096 := by
  obtain ⟨-, -, -, -, -, -, -, ⟨e0, e1⟩⟩ := idx_facts1 t
  have hi1 : (i 1).val < 128 := (i 1).isLt
  rw [mem_blk7]
  constructor
  · intro h
    have h0 : win1_7.index t (0 : Fin 2) * 4096 ≤ (i 0).val ∧ (i 0).val < win1_7.index t (0 : Fin 2) * 4096 + 4096 := h 0
    rw [e0] at h0
    omega
  · intro h a
    match a with
    | ⟨0, _⟩ =>
      show win1_7.index t (0 : Fin 2) * 4096 ≤ (i 0).val ∧ (i 0).val < win1_7.index t (0 : Fin 2) * 4096 + 4096
      rw [e0]; omega
    | ⟨1, _⟩ =>
      show win1_7.index t (1 : Fin 2) * 128 ≤ (i 1).val ∧ (i 1).val < win1_7.index t (1 : Fin 2) * 128 + 128
      rw [e1]; omega

/-- Row `n` lies in tile `n / 4096`, whose last branch, point `4 (n / 4096) + 3`, writes the block back. -/
theorem cover7 (i : S32768x128.Idx) :
    ∃ t : Fin cfg1.N, (cfg1.win 7).flush t = true ∧ i ∈ ((cfg1.win 7).blk t).view.set := by
  have hi0 : (i 0).val < 32768 := (i 0).isLt
  have hN : grid1.N = 32 := N_1
  obtain ⟨t, ht⟩ : ∃ t : Fin cfg1.N, t.val = 4 * ((i 0).val / 4096) + 3 :=
    ⟨⟨4 * ((i 0).val / 4096) + 3, by show 4 * ((i 0).val / 4096) + 3 < grid1.N; omega⟩, rfl⟩
  refine ⟨t, (flush1_7 t).mpr (by omega), ?_⟩
  rw [mem_blk7_iff]
  omega

/-! ## The array after the region -/

/-- The output array ends holding `outArr`. -/
theorem final1_eq (c : Dev nD) : (dat1 V c).arrAt 7 cfg1.N = outArr V c :=
  (dat1 V c).arrAt_eq_of_cover 7 (outArr V c) (fun t hf => flushed7_eq V c t hf) cover7

/-- Read at node `n`, feature `j`: the four branches' contributions — each the branch's perceptron at the node against
    its 128 rows of column `j` of the output weights — added in branch order to zero, then the bias entry. -/
theorem final1 (c : Dev nD) (n : Fin 32768) (j : Fin 128) :
    (dat1 (F := Ideal) V c).arrAt 7 cfg1.N (ix2 n j)
      = Cert.Spec.outAcc
          (fun (i : Fin 4) (k : Fin 128) => Cert.Spec.mlp z (fun a => V c main_v117 (ix3 i n a))
            (fun a b => V c main_v118 (ix3 i a b)) (fun b => V c main_v121 (ix3 i (0 : Fin 1) b))
            (fun a b => V c main_v119 (ix3 i a b)) (fun b => V c main_v122 (ix3 i (0 : Fin 1) b)) k)
          (fun _ => 1)
          (fun cc : Fin 512 => V c main_v120 (ix3 (Cert.Spec.e512.symm cc).1 (Cert.Spec.e512.symm cc).2 j))
          (V c main_v123 (ix2 (0 : Fin 1) j)) := by
  rw [final1_eq]
  rfl

end Cert.KernelIdeal.Val1

end
-- ==== Proof.Glue.lean ====
/-
  The host-side pieces that both programs compute by the same operations on the same arguments, each named once.

  * `gates bg t`: the softmax of `bg / t` over the four branches — the quotient, minus its maximum, exponentiated, divided by
    the sum of the exponentials.
  * `srcIdx ei`, `dstIdx ei`: the two rows of the edge list (an edge goes from node `srcIdx e` to node `dstIdx e`).
  * `invDeg ei`: for each node, one over the larger of 1 and the number of edges arriving at it, as a column.
  * `meanStep ei h`: one round of message passing — every edge carries the feature row of its source node (a negative source
    index counted from the end), the rows arriving at a node are added up starting from zero, and the sum is scaled by the
    node's `invDeg`.

  Nothing here is opened by the proof: the two programs apply these same functions to arguments that are shown equal, so the
  results are equal by congruence.
-/
import proofs.«181357_j35347580846308_1_alg».proof.Proof.Gen.ReferenceIdeal

noncomputable section

namespace Cert.Glue

open Cert.ReferenceIdeal Cert.ReferenceIdeal.Gen Idealize.ShloMosaic

variable {F : FTy → Type} [FloatOps F]

/-- `bg / t`, the temperature spread over the four branches. -/
def logits (bg : (⟨S4, .f32⟩ : BufTy).Contents (Elt F)) (t : (⟨S_, .f32⟩ : BufTy).Contents (Elt F)) : (⟨S4, .f32⟩ : BufTy).Contents (Elt F) :=
  Host.divf bg (broadcastInDim S4 ![] bcast_S_S4 t)

/-- The exponentials of the logits less their maximum. -/
def expShift (bg : (⟨S4, .f32⟩ : BufTy).Contents (Elt F)) (t : (⟨S_, .f32⟩ : BufTy).Contents (Elt F)) : (⟨S4, .f32⟩ : BufTy).Contents (Elt F) :=
  Host.exp (subf (logits bg t) (broadcastInDim S4 ![0] bcast_S1_S4_0 (broadcastInDim S1 ![] bcast_S_S1
    (maximumf (constant S_ .f32 0xFF800000#32) (Host.reduce FloatOps.maximumf (logits bg t) (constant S_ .f32 0xFF800000#32) reducesTo_S4_S_d0 h_S_)))))

/-- The branch gates: the softmax of `bg / t`. -/
def gates (bg : (⟨S4, .f32⟩ : BufTy).Contents (Elt F)) (t : (⟨S_, .f32⟩ : BufTy).Contents (Elt F)) : (⟨S4, .f32⟩ : BufTy).Contents (Elt F) :=
  Host.divf (expShift bg t) (broadcastInDim S4 ![0] bcast_S1_S4_0 (broadcastInDim S1 ![] bcast_S_S1
    (Host.reduceAdd (expShift bg t) (constant S_ .f32 0x00000000#32) reducesTo_S4_S_d0 h_S_)))

/-- Each edge's source node: row 0 of the edge list. -/
def srcIdx (ei : (⟨S2x524288, .i32⟩ : BufTy).Contents (Elt F)) : (⟨S524288, .i32⟩ : BufTy).Contents (Elt F) :=
  shapeCast _ (extractStridedSlice S1x524288 ![0, 0] ei slices_S2x524288_S1x524288_0_0) shapeCasts_S1x524288_S524288

/-- Each edge's destination node: row 1 of the edge list. -/
def dstIdx (ei : (⟨S2x524288, .i32⟩ : BufTy).Contents (Elt F)) : (⟨S524288, .i32⟩ : BufTy).Contents (Elt F) :=
  shapeCast _ (extractStridedSlice S1x524288 ![1, 0] ei slices_S2x524288_S1x524288_1_0) shapeCasts_S1x524288_S524288

/-- One over `max (number of edges arriving at the node) 1`, as a column. -/
def invDeg (ei : (⟨S2x524288, .i32⟩ : BufTy).Contents (Elt F)) : (⟨S32768x1, .f32⟩ : BufTy).Contents (Elt F) :=
  broadcastInDim S32768x1 ![0] bcast_S32768_S32768x1_0
    (Host.divf (broadcastInDim S32768 ![] bcast_S_S32768 (constant S_ .f32 0x3F800000#32))
      (maximumf
        (Host.scatterAdd scatter_S32768_S524288x1_S524288_n_0_0_1 (broadcastInDim S32768 ![] bcast_S_S32768 (constant S_ .f32 0x00000000#32))
          (broadcastInDim S524288x1 ![0] bcast_S524288_S524288x1_0 (dstIdx ei)) (broadcastInDim S524288 ![] bcast_S_S524288 (constant S_ .f32 0x3F800000#32)))
        (broadcastInDim S32768 ![] bcast_S_S32768 (constant S_ .f32 0x3F800000#32))))

/-- The source indices with a negative one counted from the end (`i + 32768`). -/
def srcWrapped (ei : (⟨S2x524288, .i32⟩ : BufTy).Contents (Elt F)) : (⟨S524288, .i32⟩ : BufTy).Contents (Elt F) :=
  select (cmpi .slt (srcIdx ei) (broadcastInDim S524288 ![] bcast_S_S524288 (constantI S_ 32 0#32)))
    (addi (srcIdx ei) (broadcastInDim S524288 ![] bcast_S_S524288 (constantI S_ 32 32768#32))) (srcIdx ei)

/-- One round of mean message passing over the edges. -/
def meanStep (ei : (⟨S2x524288, .i32⟩ : BufTy).Contents (Elt F)) (h : (⟨S32768x128, .f32⟩ : BufTy).Contents (Elt F)) :
    (⟨S32768x128, .f32⟩ : BufTy).Contents (Elt F) :=
  mulf
    (Host.scatterAdd scatter_S32768x128_S524288x1_S524288x128_1_0_0_1 (broadcastInDim S32768x128 ![] bcast_S_S32768x128 (constant S_ .f32 0x00000000#32))
      (broadcastInDim S524288x1 ![0] bcast_S524288_S524288x1_0 (dstIdx ei))
      (Host.gather gather_S32768x128_S524288x1_S524288x128_1_0_n_n_0_1_1128 h (broadcastInDim S524288x1 ![0] bcast_S524288_S524288x1_0 (srcWrapped ei))))
    (broadcastInDim S32768x128 ![0, 1] bcast_S32768x1_S32768x128_0_1 (invDeg ei))

end Cert.Glue

end
-- ==== Proof.KHost.lean ====
/-
  The kernel program's host operations, read back at the buffers its two kernel regions consume.

  The entry function runs 25 host operations, a first kernel region, 123 more host operations and a second kernel region. Every
  statement here starts from an ARBITRARY valuation `U` of the device's buffers and says what one of the two stretches leaves in a
  buffer a region reads, in terms of what `U` held in the buffers the stretch reads.

  First stretch (25 operations):
  * the node features are only converted to a narrower float format, which at exact arithmetic changes nothing;
  * the four branch weight matrices `[4,256,128]` are transposed to `[256,4,128]` and flattened to `[256,512]`: entry
    `(a, 128 i + k)` of the result is entry `(i, a, k)` of the argument; the four bias rows `[4,128]` are flattened to one row of 512;
  * the gates are the softmax of the branch logits over the temperature — the same composition of operations that `Cert.Glue.gates`
    names;
  * the output weights `[512,128]` are regrouped as `[4,128,128]` and branch `i`'s block is scaled by gate `i`.

  Second stretch (123 operations): the first region's result `[32768,512]` is cut into four column blocks of 128; block `i` goes
  through `i` rounds of mean message passing over the edge list (`Cert.Glue.meanStep`) and the four results are stacked as
  `[4,32768,128]`; the perceptron weights and the scaled output weights are converted (no change), the biases gain a unit axis.
-/
import proofs.«181357_j35347580846308_1_alg».proof.Proof.Gen.KernelIdeal.Launch
import proofs.«181357_j35347580846308_1_alg».proof.Proof.Glue
import proofs.«181357_j35347580846308_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 8192

noncomputable section

namespace Cert.KernelIdeal.HostVal

open Idealize.ShloMosaic Idealize.ShloMosaic.ValueIdx Cert.KernelIdeal Cert.KernelIdeal.Gen Idealize.ShloMosaic.StableHlo

/-- Position `128 i + k` of the 512, as a number. -/
theorem at512_val (i : Fin 4) (k : Fin 128) : (Cert.Spec.at512 i k).val = k.val + 128 * i.val := rfl

/-! ## The first stretch -/

/-- The node features reach the first region unchanged: a change of float format is the identity at exact arithmetic. -/
theorem h19 (U : Valuation τ sig (Elt Ideal)) (n : Fin 32768) (a : Fin 256) :
    (StableHlo.after (hostOps0 (F := Ideal)) U (Proc.devRef .tc main_v19) : S32768x256.Idx → EReal) (ix2 n a)
      = (U (Proc.devRef .tc main_arg0) : S32768x256.Idx → EReal) (ix2 n a) := by
  after_results
  rfl

/-- The branch weights side by side: column `128 i + k` of row `a` is branch `i`'s entry `(a, k)`. The flattening keeps the
    row-major position, `(a·4 + i)·128 + k = a·512 + (128 i + k)`, and the transposition exchanges the first two coordinates. -/
theorem h20 (U : Valuation τ sig (Elt Ideal)) (a : Fin 256) (i : Fin 4) (k : Fin 128) :
    (StableHlo.after (hostOps0 (F := Ideal)) U (Proc.devRef .tc main_v20) : S256x512.Idx → EReal) (ix2 a (Cert.Spec.at512 i k))
      = (U (Proc.devRef .tc main_arg2) : S4x256x128.Idx → EReal) (ix3 i a k) := by
  after_results
  show shapeCast S256x512 (transpose S256x4x128 [1, 0, 2] (U (Proc.devRef .tc main_arg2)) transposes_S4x256x128_S256x4x128_1_0_2)
    shapeCasts_S256x4x128_S256x512 (ix2 a (Cert.Spec.at512 i k)) = _
  rw [shapeCast_apply _ _ (ix2 a (Cert.Spec.at512 i k)) (ix3 a i k) (by
    rw [Shape.rowMajor_val_three, Shape.rowMajor_val_two]
    show (a.val * 4 + i.val) * 128 + k.val = a.val * 512 + (Cert.Spec.at512 i k).val
    rw [at512_val]; omega)]
  exact transpose_apply _ _ _ (ix3 a i k) (ix3 i a k) (fun b => match b with | ⟨0, _⟩ => rfl | ⟨1, _⟩ => rfl | ⟨2, _⟩ => rfl)

/-- The four bias rows as one row of 512: position `128 i + k` is branch `i`'s entry `k` (two flattenings, each keeping the
    row-major position). -/
theorem h21 (U : Valuation τ sig (Elt Ideal)) (i : Fin 4) (k : Fin 128) :
    (StableHlo.after (hostOps0 (F := Ideal)) U (Proc.devRef .tc main_v21) : S1x512.Idx → EReal) (ix2 (0 : Fin 1) (Cert.Spec.at512 i k))
      = (U (Proc.devRef .tc main_arg3) : S4x128.Idx → EReal) (ix2 i k) := by
  after_results
  show shapeCast S1x512 (shapeCast S512 (U (Proc.devRef .tc main_arg3)) shapeCasts_S4x128_S512) shapeCasts_S512_S1x512
    (ix2 (0 : Fin 1) (Cert.Spec.at512 i k)) = _
  rw [shapeCast_apply _ _ (ix2 (0 : Fin 1) (Cert.Spec.at512 i k)) (ix1 (Cert.Spec.at512 i k)) (by
    rw [Shape.rowMajor_val_one, Shape.rowMajor_val_two]
    show (Cert.Spec.at512 i k).val = 0 * 512 + (Cert.Spec.at512 i k).val
    omega)]
  exact shapeCast_apply _ _ (ix1 (Cert.Spec.at512 i k)) (ix2 i k) (by
    rw [Shape.rowMajor_val_one, Shape.rowMajor_val_two]
    show i.val * 128 + k.val = (Cert.Spec.at512 i k).val
    rw [at512_val]; omega)

/-- The gates: the fifteen operations that compute them are, in order, the ones `Cert.Glue.gates` composes (the shape records of
    the two programs are the same literals, so the two spellings agree by unfolding). -/
theorem h11 (U : Valuation τ sig (Elt Ideal)) :
    (StableHlo.after (hostOps0 (F := Ideal)) U (Proc.devRef .tc main_v11) : S4.Idx → EReal)
      = Cert.Glue.gates (F := Ideal) (U (Proc.devRef .tc main_arg8)) (U (Proc.devRef .tc main_arg9)) := by
  after_results
  rfl

/-- The output weights scaled by the gates: block `i`, entry `(k, j)`, is row `128 i + k`, column `j` of the weights times gate `i`
    (the regrouping keeps the row-major position; the gate is spread along the two trailing axes). -/
theorem h15 (U : Valuation τ sig (Elt Ideal)) (i : Fin 4) (k j : Fin 128) :
    (StableHlo.after (hostOps0 (F := Ideal)) U (Proc.devRef .tc main_v15) : S4x128x128.Idx → EReal) (ix3 i k j)
      = @HMul.hMul EReal EReal EReal instHMul
          ((U (Proc.devRef .tc main_arg10) : S512x128.Idx → EReal) (ix2 (Cert.Spec.at512 i k) j))
          ((Cert.Glue.gates (F := Ideal) (U (Proc.devRef .tc main_arg8)) (U (Proc.devRef .tc main_arg9)) : S4.Idx → EReal) (ix1 i)) := by
  after_results
  show @HMul.hMul EReal EReal EReal instHMul
      (shapeCast S4x128x128 (U (Proc.devRef .tc main_arg10)) shapeCasts_S512x128_S4x128x128 (ix3 i k j))
      (broadcastInDim S4x128x128 ![0, 1, 2] bcast_S4x1x1_S4x128x128_0_1_2
          (broadcastInDim S4x1x1 ![0] bcast_S4_S4x1x1_0
            (Cert.Glue.gates (F := Ideal) (U (Proc.devRef .tc main_arg8)) (U (Proc.devRef .tc main_arg9)))) (ix3 i k j)) = _
  rw [shapeCast_apply _ _ (ix3 i k j) (ix2 (Cert.Spec.at512 i k) j) (by
    rw [Shape.rowMajor_val_three, Shape.rowMajor_val_two]
    show (Cert.Spec.at512 i k).val * 128 + j.val = (i.val * 128 + k.val) * 128 + j.val
    rw [at512_val]; omega)]
  rw [broadcastInDim_apply _ _ _ (ix3 i k j) (ix3 i (0 : Fin 1) (0 : Fin 1)) (fun b => match b with | ⟨0, _⟩ => rfl | ⟨1, _⟩ => rfl | ⟨2, _⟩ => rfl)]
  rw [broadcastInDim_apply _ _ _ (ix3 i (0 : Fin 1) (0 : Fin 1)) (ix1 i) (fun b => match b with | ⟨0, _⟩ => rfl)]

/-! ## The second stretch: the buffers that are copies -/

set_option maxHeartbeats 4000000 in
/-- The first layer's weights: converted, unchanged. -/
theorem h118 (U : Valuation τ sig (Elt Ideal)) (i : Fin 4) (a b : Fin 128) :
    (StableHlo.after (hostOps1 (F := Ideal)) U (Proc.devRef .tc main_v118) : S4x128x128.Idx → EReal) (ix3 i a b)
      = (U (Proc.devRef .tc main_arg4) : S4x128x128.Idx → EReal) (ix3 i a b) := by
  after_results_simp
  rfl

set_option maxHeartbeats 4000000 in
/-- The second layer's weights: converted, unchanged. -/
theorem h119 (U : Valuation τ sig (Elt Ideal)) (i : Fin 4) (a b : Fin 128) :
    (StableHlo.after (hostOps1 (F := Ideal)) U (Proc.devRef .tc main_v119) : S4x128x128.Idx → EReal) (ix3 i a b)
      = (U (Proc.devRef .tc main_arg6) : S4x128x128.Idx → EReal) (ix3 i a b) := by
  after_results_simp
  rfl

set_option maxHeartbeats 4000000 in
/-- The scaled output weights: converted, unchanged. -/
theorem h120 (U : Valuation τ sig (Elt Ideal)) (i : Fin 4) (a b : Fin 128) :
    (StableHlo.after (hostOps1 (F := Ideal)) U (Proc.devRef .tc main_v120) : S4x128x128.Idx → EReal) (ix3 i a b)
      = (U (Proc.devRef .tc main_v15) : S4x128x128.Idx → EReal) (ix3 i a b) := by
  after_results_simp
  rfl

set_option maxHeartbeats 4000000 in
/-- The first layer's biases with a unit middle axis: the row-major position is kept. -/
theorem h121 (U : Valuation τ sig (Elt Ideal)) (i : Fin 4) (b : Fin 128) :
    (StableHlo.after (hostOps1 (F := Ideal)) U (Proc.devRef .tc main_v121) : S4x1x128.Idx → EReal) (ix3 i (0 : Fin 1) b)
      = (U (Proc.devRef .tc main_arg5) : S4x128.Idx → EReal) (ix2 i b) := by
  after_results_simp
  show shapeCast S4x1x128 (U (Proc.devRef .tc main_arg5)) shapeCasts_S4x128_S4x1x128 (ix3 i (0 : Fin 1) b) = _
  exact shapeCast_apply _ _ (ix3 i (0 : Fin 1) b) (ix2 i b) (by
    rw [Shape.rowMajor_val_three, Shape.rowMajor_val_two]
    show i.val * 128 + b.val = (i.val * 1 + 0) * 128 + b.val
    omega)

set_option maxHeartbeats 4000000 in
/-- The second layer's biases with a unit middle axis. -/
theorem h122 (U : Valuation τ sig (Elt Ideal)) (i : Fin 4) (b : Fin 128) :
    (StableHlo.after (hostOps1 (F := Ideal)) U (Proc.devRef .tc main_v122) : S4x1x128.Idx → EReal) (ix3 i (0 : Fin 1) b)
      = (U (Proc.devRef .tc main_arg7) : S4x128.Idx → EReal) (ix2 i b) := by
  after_results_simp
  show shapeCast S4x1x128 (U (Proc.devRef .tc main_arg7)) shapeCasts_S4x128_S4x1x128 (ix3 i (0 : Fin 1) b) = _
  exact shapeCast_apply _ _ (ix3 i (0 : Fin 1) b) (ix2 i b) (by
    rw [Shape.rowMajor_val_three, Shape.rowMajor_val_two]
    show i.val * 128 + b.val = (i.val * 1 + 0) * 128 + b.val
    omega)

set_option maxHeartbeats 4000000 in
/-- The output bias as a row. -/
theorem h123 (U : Valuation τ sig (Elt Ideal)) (j : Fin 128) :
    (StableHlo.after (hostOps1 (F := Ideal)) U (Proc.devRef .tc main_v123) : S1x128.Idx → EReal) (ix2 (0 : Fin 1) j)
      = (U (Proc.devRef .tc main_arg11) : S128.Idx → EReal) (ix1 j) := by
  after_results_simp
  show shapeCast S1x128 (U (Proc.devRef .tc main_arg11)) shapeCasts_S128_S1x128 (ix2 (0 : Fin 1) j) = _
  exact shapeCast_apply _ _ (ix2 (0 : Fin 1) j) (ix1 j) (by
    rw [Shape.rowMajor_val_one, Shape.rowMajor_val_two]
    show j.val = 0 * 128 + j.val
    omega)

/-! ## The second stretch: the stacked branch features -/

/-- Column block `i` (columns `128 i … 128 i + 127`) of a `[32768,512]` array, as a `[32768,128]` array. -/
def colBlock (X : S32768x512.Idx → EReal) (i : Fin 4) : (⟨Cert.ReferenceIdeal.S32768x128, .f32⟩ : BufTy).Contents (Elt Ideal) :=
  fun idx => X (ix2 (idx 0) (Cert.Spec.at512 i (idx 1)))

theorem colBlock_apply (X : S32768x512.Idx → EReal) (i : Fin 4) (n : Fin 32768) (k : Fin 128) :
    colBlock X i (ix2 n k) = X (ix2 n (Cert.Spec.at512 i k)) := rfl

/-- A slice of 128 columns starting at column `128 i` is column block `i`: column `k` of the slice is column `128 i + k`. -/
theorem slice0 (X : S32768x512.Idx → EReal) :
    extractStridedSlice S32768x128 ![0, 0] X slices_S32768x512_S32768x128_0_0 = colBlock X 0 := by
  funext idx
  exact extractStridedSlice_apply _ _ _ idx (ix2 (idx 0) (Cert.Spec.at512 0 (idx 1))) (fun a => match a with
    | ⟨0, _⟩ => by show (idx 0).val = 0 + (idx 0).val; omega
    | ⟨1, _⟩ => by show (idx 1).val + 128 * 0 = 0 + (idx 1).val; omega)

theorem slice1 (X : S32768x512.Idx → EReal) :
    extractStridedSlice S32768x128 ![0, 128] X slices_S32768x512_S32768x128_0_128 = colBlock X 1 := by
  funext idx
  exact extractStridedSlice_apply _ _ _ idx (ix2 (idx 0) (Cert.Spec.at512 1 (idx 1))) (fun a => match a with
    | ⟨0, _⟩ => by show (idx 0).val = 0 + (idx 0).val; omega
    | ⟨1, _⟩ => by show (idx 1).val + 128 * 1 = 128 + (idx 1).val; omega)

theorem slice2 (X : S32768x512.Idx → EReal) :
    extractStridedSlice S32768x128 ![0, 256] X slices_S32768x512_S32768x128_0_256 = colBlock X 2 := by
  funext idx
  exact extractStridedSlice_apply _ _ _ idx (ix2 (idx 0) (Cert.Spec.at512 2 (idx 1))) (fun a => match a with
    | ⟨0, _⟩ => by show (idx 0).val = 0 + (idx 0).val; omega
    | ⟨1, _⟩ => by show (idx 1).val + 128 * 2 = 256 + (idx 1).val; omega)

theorem slice3 (X : S32768x512.Idx → EReal) :
    extractStridedSlice S32768x128 ![0, 384] X slices_S32768x512_S32768x128_0_384 = colBlock X 3 := by
  funext idx
  exact extractStridedSlice_apply _ _ _ idx (ix2 (idx 0) (Cert.Spec.at512 3 (idx 1))) (fun a => match a with
    | ⟨0, _⟩ => by show (idx 0).val = 0 + (idx 0).val; omega
    | ⟨1, _⟩ => by show (idx 1).val + 128 * 3 = 384 + (idx 1).val; omega)

/-- Four `[32768,128]` arrays, each given a leading unit axis, stacked along that axis: layer `i` of the stack is the `i`-th
    array (the layers before it have extent one each, so layer `i` starts at position `i`). -/
theorem stack_apply0 (x0 x1 x2 x3 : S32768x128.Idx → EReal) (n : Fin 32768) (k : Fin 128) :
    concatenate S4x32768x128 0
      [⟨S1x32768x128, broadcastInDim S1x32768x128 ![1, 2] bcast_S32768x128_S1x32768x128_1_2 x0⟩,
       ⟨S1x32768x128, broadcastInDim S1x32768x128 ![1, 2] bcast_S32768x128_S1x32768x128_1_2 x1⟩,
       ⟨S1x32768x128, broadcastInDim S1x32768x128 ![1, 2] bcast_S32768x128_S1x32768x128_1_2 x2⟩,
       ⟨S1x32768x128, broadcastInDim S1x32768x128 ![1, 2] bcast_S32768x128_S1x32768x128_1_2 x3⟩]
      concatenates_S1x32768x128_S1x32768x128_S1x32768x128_S1x32768x128_S4x32768x128_d0 (ix3 (0 : Fin 4) n k) = x0 (ix2 n k) := by
  rw [concatenate_apply_piece (0 : Fin 3) _ _ (ix3 (0 : Fin 4) n k) 0 (by show (0 : Nat) < 4; omega) S1x32768x128 _ rfl rfl 0 rfl
    (ix3 (0 : Fin 1) n k) (fun b => match b with | ⟨0, _⟩ => fun h => absurd rfl h | ⟨1, _⟩ => fun _ => rfl | ⟨2, _⟩ => fun _ => rfl) rfl]
  exact broadcastInDim_apply _ _ _ (ix3 (0 : Fin 1) n k) (ix2 n k) (fun b => match b with | ⟨0, _⟩ => rfl | ⟨1, _⟩ => rfl)

theorem stack_apply1 (x0 x1 x2 x3 : S32768x128.Idx → EReal) (n : Fin 32768) (k : Fin 128) :
    concatenate S4x32768x128 0
      [⟨S1x32768x128, broadcastInDim S1x32768x128 ![1, 2] bcast_S32768x128_S1x32768x128_1_2 x0⟩,
       ⟨S1x32768x128, broadcastInDim S1x32768x128 ![1, 2] bcast_S32768x128_S1x32768x128_1_2 x1⟩,
       ⟨S1x32768x128, broadcastInDim S1x32768x128 ![1, 2] bcast_S32768x128_S1x32768x128_1_2 x2⟩,
       ⟨S1x32768x128, broadcastInDim S1x32768x128 ![1, 2] bcast_S32768x128_S1x32768x128_1_2 x3⟩]
      concatenates_S1x32768x128_S1x32768x128_S1x32768x128_S1x32768x128_S4x32768x128_d0 (ix3 (1 : Fin 4) n k) = x1 (ix2 n k) := by
  rw [concatenate_apply_piece (0 : Fin 3) _ _ (ix3 (1 : Fin 4) n k) 1 (by show (1 : Nat) < 4; omega) S1x32768x128 _ rfl rfl 1 rfl
    (ix3 (0 : Fin 1) n k) (fun b => match b with | ⟨0, _⟩ => fun h => absurd rfl h | ⟨1, _⟩ => fun _ => rfl | ⟨2, _⟩ => fun _ => rfl) rfl]
  exact broadcastInDim_apply _ _ _ (ix3 (0 : Fin 1) n k) (ix2 n k) (fun b => match b with | ⟨0, _⟩ => rfl | ⟨1, _⟩ => rfl)

theorem stack_apply2 (x0 x1 x2 x3 : S32768x128.Idx → EReal) (n : Fin 32768) (k : Fin 128) :
    concatenate S4x32768x128 0
      [⟨S1x32768x128, broadcastInDim S1x32768x128 ![1, 2] bcast_S32768x128_S1x32768x128_1_2 x0⟩,
       ⟨S1x32768x128, broadcastInDim S1x32768x128 ![1, 2] bcast_S32768x128_S1x32768x128_1_2 x1⟩,
       ⟨S1x32768x128, broadcastInDim S1x32768x128 ![1, 2] bcast_S32768x128_S1x32768x128_1_2 x2⟩,
       ⟨S1x32768x128, broadcastInDim S1x32768x128 ![1, 2] bcast_S32768x128_S1x32768x128_1_2 x3⟩]
      concatenates_S1x32768x128_S1x32768x128_S1x32768x128_S1x32768x128_S4x32768x128_d0 (ix3 (2 : Fin 4) n k) = x2 (ix2 n k) := by
  rw [concatenate_apply_piece (0 : Fin 3) _ _ (ix3 (2 : Fin 4) n k) 2 (by show (2 : Nat) < 4; omega) S1x32768x128 _ rfl rfl 2 rfl
    (ix3 (0 : Fin 1) n k) (fun b => match b with | ⟨0, _⟩ => fun h => absurd rfl h | ⟨1, _⟩ => fun _ => rfl | ⟨2, _⟩ => fun _ => rfl) rfl]
  exact broadcastInDim_apply _ _ _ (ix3 (0 : Fin 1) n k) (ix2 n k) (fun b => match b with | ⟨0, _⟩ => rfl | ⟨1, _⟩ => rfl)

theorem stack_apply3 (x0 x1 x2 x3 : S32768x128.Idx → EReal) (n : Fin 32768) (k : Fin 128) :
    concatenate S4x32768x128 0
      [⟨S1x32768x128, broadcastInDim S1x32768x128 ![1, 2] bcast_S32768x128_S1x32768x128_1_2 x0⟩,
       ⟨S1x32768x128, broadcastInDim S1x32768x128 ![1, 2] bcast_S32768x128_S1x32768x128_1_2 x1⟩,
       ⟨S1x32768x128, broadcastInDim S1x32768x128 ![1, 2] bcast_S32768x128_S1x32768x128_1_2 x2⟩,
       ⟨S1x32768x128, broadcastInDim S1x32768x128 ![1, 2] bcast_S32768x128_S1x32768x128_1_2 x3⟩]
      concatenates_S1x32768x128_S1x32768x128_S1x32768x128_S1x32768x128_S4x32768x128_d0 (ix3 (3 : Fin 4) n k) = x3 (ix2 n k) := by
  rw [concatenate_apply_piece (0 : Fin 3) _ _ (ix3 (3 : Fin 4) n k) 3 (by show (3 : Nat) < 4; omega) S1x32768x128 _ rfl rfl 3 rfl
    (ix3 (0 : Fin 1) n k) (fun b => match b with | ⟨0, _⟩ => fun h => absurd rfl h | ⟨1, _⟩ => fun _ => rfl | ⟨2, _⟩ => fun _ => rfl) rfl]
  exact broadcastInDim_apply _ _ _ (ix3 (0 : Fin 1) n k) (ix2 n k) (fun b => match b with | ⟨0, _⟩ => rfl | ⟨1, _⟩ => rfl)

/-! ### Cutting the stretch before its last twelve operations -/

/-- Running two lines one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- A line cut after its first `n` operations. -/
theorem after_split {Val : EltTy → Type} (n : Nat) (ops : List (HloOp τ sig Val)) (V : Valuation τ sig Val) :
    StableHlo.after ops V = StableHlo.after (ops.drop n) (StableHlo.after (ops.take n) V) := by
  rw [← after_append, List.take_append_drop]

/-- The last twelve operations of the second stretch, as the generated list has them: the four unit axes, the stacking, and the
    conversions and reshapes of the weights and biases. -/
abbrev opsTail {F : FTy → Type} [FloatOps F] : List (HloOp τ sig (Elt F)) :=
  [ StableHlo.unary main_v36 main_v112 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v49 main_v113 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v74 main_v114 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v111 main_v115 (broadcastInDim S1x32768x128 ![1, 2] bcast_S32768x128_S1x32768x128_1_2 : (⟨S32768x128, .f32⟩ : BufTy).Contents (Elt F) → (⟨S1x32768x128, .f32⟩ : BufTy).Contents (Elt F)),
    StableHlo.nary ![main_v112, main_v113, main_v114, main_v115] main_v116 (fun u => concatenate S4x32768x128 0 [⟨S1x32768x128, u 0⟩, ⟨S1x32768x128, u 1⟩, ⟨S1x32768x128, u 2⟩, ⟨S1x32768x128, u 3⟩] concatenates_S1x32768x128_S1x32768x128_S1x32768x128_S1x32768x128_S4x32768x128_d0),
    StableHlo.unary main_v116 main_v117 ((truncf .bf16 · bitsLt_bf16_f32) : (⟨S4x32768x128, .f32⟩ : BufTy).Contents (Elt F) → (⟨S4x32768x128, .bf16⟩ : BufTy).Contents (Elt F)),
    StableHlo.unary main_arg4 main_v118 ((truncf .bf16 · bitsLt_bf16_f32) : (⟨S4x128x128, .f32⟩ : BufTy).Contents (Elt F) → (⟨S4x128x128, .bf16⟩ : BufTy).Contents (Elt F)),
    StableHlo.unary main_arg6 main_v119 ((truncf .bf16 · bitsLt_bf16_f32) : (⟨S4x128x128, .f32⟩ : BufTy).Contents (Elt F) → (⟨S4x128x128, .bf16⟩ : BufTy).Contents (Elt F)),
    StableHlo.unary main_v15 main_v120 ((truncf .bf16 · bitsLt_bf16_f32) : (⟨S4x128x128, .f32⟩ : BufTy).Contents (Elt F) → (⟨S4x128x128, .bf16⟩ : BufTy).Contents (Elt F)),
    StableHlo.reshape main_arg5 main_v121 rfl shapeCasts_S4x128_S4x1x128,
    StableHlo.reshape main_arg7 main_v122 rfl shapeCasts_S4x128_S4x1x128,
    StableHlo.reshape main_arg11 main_v123 rfl shapeCasts_S128_S1x128 ]

theorem drop_eq_opsTail : (hostOps1 (F := Ideal)).drop 111 = opsTail (F := Ideal) := rfl

/-- What the last twelve operations leave in the stacked buffer, from ANY valuation `V`: the four arrays `V` holds for the branches,
    each under a leading unit axis, stacked. -/
theorem tail117 (V : Valuation τ sig (Elt Ideal)) :
    (StableHlo.after (opsTail (F := Ideal)) V (Proc.devRef .tc main_v117) : S4x32768x128.Idx → EReal)
      = (truncf (F := Ideal) .bf16 (concatenate S4x32768x128 0
          [⟨S1x32768x128, broadcastInDim S1x32768x128 ![1, 2] bcast_S32768x128_S1x32768x128_1_2 (V (Proc.devRef .tc main_v36))⟩,
           ⟨S1x32768x128, broadcastInDim S1x32768x128 ![1, 2] bcast_S32768x128_S1x32768x128_1_2 (V (Proc.devRef .tc main_v49))⟩,
           ⟨S1x32768x128, broadcastInDim S1x32768x128 ![1, 2] bcast_S32768x128_S1x32768x128_1_2 (V (Proc.devRef .tc main_v74))⟩,
           ⟨S1x32768x128, broadcastInDim S1x32768x128 ![1, 2] bcast_S32768x128_S1x32768x128_1_2 (V (Proc.devRef .tc main_v111))⟩]
          concatenates_S1x32768x128_S1x32768x128_S1x32768x128_S1x32768x128_S4x32768x128_d0) bitsLt_bf16_f32 : S4x32768x128.Idx → EReal) := by
  after_results
  rfl

/-- The last twelve operations do not write the four branch arrays. -/
theorem tail_keep36 (V : Valuation τ sig (Elt Ideal)) :
    StableHlo.after (opsTail (F := Ideal)) V (Proc.devRef .tc main_v36) = V (Proc.devRef .tc main_v36) := by
  after_results <;> rfl
theorem tail_keep49 (V : Valuation τ sig (Elt Ideal)) :
    StableHlo.after (opsTail (F := Ideal)) V (Proc.devRef .tc main_v49) = V (Proc.devRef .tc main_v49) := by
  after_results <;> rfl
theorem tail_keep74 (V : Valuation τ sig (Elt Ideal)) :
    StableHlo.after (opsTail (F := Ideal)) V (Proc.devRef .tc main_v74) = V (Proc.devRef .tc main_v74) := by
  after_results <;> rfl
theorem tail_keep111 (V : Valuation τ sig (Elt Ideal)) :
    StableHlo.after (opsTail (F := Ideal)) V (Proc.devRef .tc main_v111) = V (Proc.devRef .tc main_v111) := by
  after_results <;> rfl

/-- The stacked buffer after the whole stretch is the stack of the four branch arrays after the whole stretch. -/
theorem v117_stack (U : Valuation τ sig (Elt Ideal)) :
    (StableHlo.after (hostOps1 (F := Ideal)) U (Proc.devRef .tc main_v117) : S4x32768x128.Idx → EReal)
      = (truncf (F := Ideal) .bf16 (concatenate S4x32768x128 0
          [⟨S1x32768x128, broadcastInDim S1x32768x128 ![1, 2] bcast_S32768x128_S1x32768x128_1_2 (StableHlo.after (hostOps1 (F := Ideal)) U (Proc.devRef .tc main_v36))⟩,
           ⟨S1x32768x128, broadcastInDim S1x32768x128 ![1, 2] bcast_S32768x128_S1x32768x128_1_2 (StableHlo.after (hostOps1 (F := Ideal)) U (Proc.devRef .tc main_v49))⟩,
           ⟨S1x32768x128, broadcastInDim S1x32768x128 ![1, 2] bcast_S32768x128_S1x32768x128_1_2 (StableHlo.after (hostOps1 (F := Ideal)) U (Proc.devRef .tc main_v74))⟩,
           ⟨S1x32768x128, broadcastInDim S1x32768x128 ![1, 2] bcast_S32768x128_S1x32768x128_1_2 (StableHlo.after (hostOps1 (F := Ideal)) U (Proc.devRef .tc main_v111))⟩]
          concatenates_S1x32768x128_S1x32768x128_S1x32768x128_S1x32768x128_S4x32768x128_d0) bitsLt_bf16_f32 : S4x32768x128.Idx → EReal) := by
  have e : ∀ b, StableHlo.after (hostOps1 (F := Ideal)) U b
      = StableHlo.after (opsTail (F := Ideal)) (StableHlo.after ((hostOps1 (F := Ideal)).take 111) U) b := fun b =>
    (congrFun (after_split 111 (hostOps1 (F := Ideal)) U) b).trans (by rw [drop_eq_opsTail])
  generalize StableHlo.after ((hostOps1 (F := Ideal)).take 111) U = V at e
  rw [e (Proc.devRef .tc main_v117), e (Proc.devRef .tc main_v36), e (Proc.devRef .tc main_v49), e (Proc.devRef .tc main_v74),
    e (Proc.devRef .tc main_v111), tail_keep36, tail_keep49, tail_keep74, tail_keep111]
  exact tail117 V

/-! ### The four branch arrays -/

set_option maxHeartbeats 40000000 in
/-- Branch 0: the first 128 columns of the first region's result, untouched. -/
theorem e36 (U : Valuation τ sig (Elt Ideal)) :
    (StableHlo.after (hostOps1 (F := Ideal)) U (Proc.devRef .tc main_v36) : S32768x128.Idx → EReal) = (extractStridedSlice S32768x128 ![0, 0] (U (Proc.devRef .tc main_v22) : S32768x512.Idx → EReal) slices_S32768x512_S32768x128_0_0) := by
  after_results_simp

set_option maxHeartbeats 40000000 in
/-- Branch 1: the operations from the slice to the product with the inverse degrees are one round of `Cert.Glue.meanStep`. -/
theorem e49 (U : Valuation τ sig (Elt Ideal)) :
    (StableHlo.after (hostOps1 (F := Ideal)) U (Proc.devRef .tc main_v49) : S32768x128.Idx → EReal) = (Cert.Glue.meanStep (F := Ideal) (U (Proc.devRef .tc main_arg1)) (extractStridedSlice S32768x128 ![0, 128] (U (Proc.devRef .tc main_v22) : S32768x512.Idx → EReal) slices_S32768x512_S32768x128_0_128)) := by
  after_results_simp
  rfl

set_option maxHeartbeats 40000000 in
/-- Branch 2: two rounds. -/
theorem e74 (U : Valuation τ sig (Elt Ideal)) :
    (StableHlo.after (hostOps1 (F := Ideal)) U (Proc.devRef .tc main_v74) : S32768x128.Idx → EReal) = (Cert.Glue.meanStep (F := Ideal) (U (Proc.devRef .tc main_arg1)) (Cert.Glue.meanStep (F := Ideal) (U (Proc.devRef .tc main_arg1)) (extractStridedSlice S32768x128 ![0, 256] (U (Proc.devRef .tc main_v22) : S32768x512.Idx → EReal) slices_S32768x512_S32768x128_0_256))) := by
  after_results_simp
  rfl

set_option maxHeartbeats 40000000 in
/-- Branch 3: three rounds. -/
theorem e111 (U : Valuation τ sig (Elt Ideal)) :
    (StableHlo.after (hostOps1 (F := Ideal)) U (Proc.devRef .tc main_v111) : S32768x128.Idx → EReal) = (Cert.Glue.meanStep (F := Ideal) (U (Proc.devRef .tc main_arg1)) (Cert.Glue.meanStep (F := Ideal) (U (Proc.devRef .tc main_arg1)) (Cert.Glue.meanStep (F := Ideal) (U (Proc.devRef .tc main_arg1)) (extractStridedSlice S32768x128 ![0, 384] (U (Proc.devRef .tc main_v22) : S32768x512.Idx → EReal) slices_S32768x512_S32768x128_0_384)))) := by
  after_results_simp
  rfl

/-! ### The stacked buffer read at an index -/

/-- Layer 0 of the stack is column block 0 of the first region's result. -/
theorem h117_0 (U : Valuation τ sig (Elt Ideal)) (n : Fin 32768) (k : Fin 128) :
    (StableHlo.after (hostOps1 (F := Ideal)) U (Proc.devRef .tc main_v117) : S4x32768x128.Idx → EReal) (ix3 (0 : Fin 4) n k)
      = (U (Proc.devRef .tc main_v22) : S32768x512.Idx → EReal) (ix2 n (Cert.Spec.at512 0 k)) := by
  rw [v117_stack U, truncf_apply, stack_apply0, e36 U, slice0]
  all_goals rfl

/-- Layer 1 is one round of message passing on column block 1. -/
theorem h117_1 (U : Valuation τ sig (Elt Ideal)) (n : Fin 32768) (k : Fin 128) :
    (StableHlo.after (hostOps1 (F := Ideal)) U (Proc.devRef .tc main_v117) : S4x32768x128.Idx → EReal) (ix3 (1 : Fin 4) n k)
      = ((Cert.Glue.meanStep (F := Ideal) (U (Proc.devRef .tc main_arg1)) (colBlock (U (Proc.devRef .tc main_v22)) 1)) : S32768x128.Idx → EReal) (ix2 n k) := by
  rw [v117_stack U, truncf_apply, stack_apply1, e49 U, slice1]
  all_goals rfl

/-- Layer 2 is two rounds on column block 2. -/
theorem h117_2 (U : Valuation τ sig (Elt Ideal)) (n : Fin 32768) (k : Fin 128) :
    (StableHlo.after (hostOps1 (F := Ideal)) U (Proc.devRef .tc main_v117) : S4x32768x128.Idx → EReal) (ix3 (2 : Fin 4) n k)
      = ((Cert.Glue.meanStep (F := Ideal) (U (Proc.devRef .tc main_arg1)) (Cert.Glue.meanStep (F := Ideal) (U (Proc.devRef .tc main_arg1)) (colBlock (U (Proc.devRef .tc main_v22)) 2))) : S32768x128.Idx → EReal) (ix2 n k) := by
  rw [v117_stack U, truncf_apply, stack_apply2, e74 U, slice2]
  all_goals rfl

/-- Layer 3 is three rounds on column block 3. -/
theorem h117_3 (U : Valuation τ sig (Elt Ideal)) (n : Fin 32768) (k : Fin 128) :
    (StableHlo.after (hostOps1 (F := Ideal)) U (Proc.devRef .tc main_v117) : S4x32768x128.Idx → EReal) (ix3 (3 : Fin 4) n k)
      = ((Cert.Glue.meanStep (F := Ideal) (U (Proc.devRef .tc main_arg1)) (Cert.Glue.meanStep (F := Ideal) (U (Proc.devRef .tc main_arg1)) (Cert.Glue.meanStep (F := Ideal) (U (Proc.devRef .tc main_arg1)) (colBlock (U (Proc.devRef .tc main_v22)) 3)))) : S32768x128.Idx → EReal) (ix2 n k) := by
  rw [v117_stack U, truncf_apply, stack_apply3, e111 U, slice3]
  all_goals rfl

end Cert.KernelIdeal.HostVal

end
-- ==== Proof.RefValue.lean ====
/-
  The reference program read at one index of its result, against the specification.

  For each of four branches `i` the reference takes an affine projection of a node's input row (`proj_i`), then (after
  `i` rounds of neighbourhood averaging, which stay opaque here: the arrays after them are the rows of `H`) a two-layer
  perceptron with a rectifier between the layers (`hidden_i`, `mlp_i`), scales the result by the branch's gate
  (`gate_i`: the gate is a one-element slice of the gate vector, reshaped to a scalar and spread over the whole array),
  lays the four scaled branches side by side along the feature axis (`cat_read`: column `128 i + k` of the row of 512 is
  branch `i`'s column `k`) and contracts that row with the output weights, plus the output bias (`ref_out`).

  Each step reads one operation at an index built from literal coordinates; the only arithmetic is that of row-major
  positions (`a * 128 + k` splits back into `a` and `k`) and of the side-by-side columns (`128 i + k`).
-/
import proofs.«181357_j35347580846308_1_alg».proof.Proof.ReadP
import proofs.«181357_j35347580846308_1_alg».proof.Proof.Spec
import Idealize.ShloMosaic.Lib.ValueIdx
import Idealize.ShloMosaic.Lib.Pipeline.Value
import Idealize.ShloMosaic.PureOps.Ideal.Laws

open scoped BigOperators

noncomputable section

namespace Cert.RefValue

open Cert.ReferenceIdeal Cert.ReferenceIdeal.Gen Cert.ReferenceIdeal.ReadP Idealize.ShloMosaic Idealize.ShloMosaic.ValueIdx

variable (x0 : (⟨S32768x256, .f32⟩ : BufTy).Contents (Elt Ideal)) (x1 : (⟨S2x524288, .i32⟩ : BufTy).Contents (Elt Ideal)) (x2 : (⟨S4x256x128, .f32⟩ : BufTy).Contents (Elt Ideal)) (x3 : (⟨S4x128, .f32⟩ : BufTy).Contents (Elt Ideal))
  (x4 : (⟨S4x128x128, .f32⟩ : BufTy).Contents (Elt Ideal)) (x5 : (⟨S4x128, .f32⟩ : BufTy).Contents (Elt Ideal)) (x6 : (⟨S4x128x128, .f32⟩ : BufTy).Contents (Elt Ideal)) (x7 : (⟨S4x128, .f32⟩ : BufTy).Contents (Elt Ideal))
  (x8 : (⟨S4, .f32⟩ : BufTy).Contents (Elt Ideal)) (x9 : (⟨S_, .f32⟩ : BufTy).Contents (Elt Ideal)) (x10 : (⟨S512x128, .f32⟩ : BufTy).Contents (Elt Ideal)) (x11 : (⟨S128, .f32⟩ : BufTy).Contents (Elt Ideal))

/-! ## The four projections: a node's input row against branch `i`'s weights, plus its bias -/

/-- Branch 0's projection at node `n`, feature `k`. -/
theorem proj_0 (n : Fin 32768) (k : Fin 128) :
    val_main_v32 (F := Ideal) x0 x2 x3 (ix2 n k)
      = Cert.Spec.dense (fun a : Fin 256 => x0 (ix2 n a)) (fun (a : Fin 256) (b : Fin 128) => x2 (ix3 (0 : Fin 4) a b))
          (fun b : Fin 128 => x3 (ix2 (0 : Fin 4) b)) k := by
  have eL : ∀ a : Fin 256, lidx_main_v27 (ix2 n k) a = ix2 n a := fun a =>
    funext fun d => Fin.ext (by match d with | ⟨0, _⟩ => rfl | ⟨1, _⟩ => rfl)
  have eR : ∀ a : Fin 256, idx_main_v25 (idx_main_v26 (ridx_main_v27 (ix2 n k) a)) = ix3 (0 : Fin 4) a k := fun a =>
    funext fun d => Fin.ext (by
      have ha := a.isLt; have hc := k.isLt
      match d with
      | ⟨0, _⟩ => rfl
      | ⟨1, _⟩ => show (a.val * 128 + k.val) / 128 % 256 = a.val; omega
      | ⟨2, _⟩ => show (a.val * 128 + k.val) % 128 = k.val; omega)
  have eB : idx_main_v28 (idx_main_v29 (idx_main_v30 (idx_main_v31 (ix2 n k)))) = ix2 (0 : Fin 4) k :=
    funext fun d => Fin.ext (by
      have hc := k.isLt
      match d with
      | ⟨0, _⟩ => rfl
      | ⟨1, _⟩ => show k.val % 128 = k.val; omega)
  rw [val_main_v32_apply, val_main_v27_apply, val_main_v31_apply, val_main_v30_apply, val_main_v29_apply, val_main_v28_apply, eB]
  simp only [val_main_v26_apply, val_main_v25_apply, eL, eR, Ideal.addf_def]
  rfl

/-- Branch 1's projection at node `n`, feature `k`. -/
theorem proj_1 (n : Fin 32768) (k : Fin 128) :
    val_main_v61 (F := Ideal) x0 x2 x3 (ix2 n k)
      = Cert.Spec.dense (fun a : Fin 256 => x0 (ix2 n a)) (fun (a : Fin 256) (b : Fin 128) => x2 (ix3 (1 : Fin 4) a b))
          (fun b : Fin 128 => x3 (ix2 (1 : Fin 4) b)) k := by
  have eL : ∀ a : Fin 256, lidx_main_v56 (ix2 n k) a = ix2 n a := fun a =>
    funext fun d => Fin.ext (by match d with | ⟨0, _⟩ => rfl | ⟨1, _⟩ => rfl)
  have eR : ∀ a : Fin 256, idx_main_v54 (idx_main_v55 (ridx_main_v56 (ix2 n k) a)) = ix3 (1 : Fin 4) a k := fun a =>
    funext fun d => Fin.ext (by
      have ha := a.isLt; have hc := k.isLt
      match d with
      | ⟨0, _⟩ => rfl
      | ⟨1, _⟩ => show (a.val * 128 + k.val) / 128 % 256 = a.val; omega
      | ⟨2, _⟩ => show (a.val * 128 + k.val) % 128 = k.val; omega)
  have eB : idx_main_v57 (idx_main_v58 (idx_main_v59 (idx_main_v60 (ix2 n k)))) = ix2 (1 : Fin 4) k :=
    funext fun d => Fin.ext (by
      have hc := k.isLt
      match d with
      | ⟨0, _⟩ => rfl
      | ⟨1, _⟩ => show k.val % 128 = k.val; omega)
  rw [val_main_v61_apply, val_main_v56_apply, val_main_v60_apply, val_main_v59_apply, val_main_v58_apply, val_main_v57_apply, eB]
  simp only [val_main_v55_apply, val_main_v54_apply, eL, eR, Ideal.addf_def]
  rfl

/-- Branch 2's projection at node `n`, feature `k`. -/
theorem proj_2 (n : Fin 32768) (k : Fin 128) :
    val_main_v102 (F := Ideal) x0 x2 x3 (ix2 n k)
      = Cert.Spec.dense (fun a : Fin 256 => x0 (ix2 n a)) (fun (a : Fin 256) (b : Fin 128) => x2 (ix3 (2 : Fin 4) a b))
          (fun b : Fin 128 => x3 (ix2 (2 : Fin 4) b)) k := by
  have eL : ∀ a : Fin 256, lidx_main_v97 (ix2 n k) a = ix2 n a := fun a =>
    funext fun d => Fin.ext (by match d with | ⟨0, _⟩ => rfl | ⟨1, _⟩ => rfl)
  have eR : ∀ a : Fin 256, idx_main_v95 (idx_main_v96 (ridx_main_v97 (ix2 n k) a)) = ix3 (2 : Fin 4) a k := fun a =>
    funext fun d => Fin.ext (by
      have ha := a.isLt; have hc := k.isLt
      match d with
      | ⟨0, _⟩ => rfl
      | ⟨1, _⟩ => show (a.val * 128 + k.val) / 128 % 256 = a.val; omega
      | ⟨2, _⟩ => show (a.val * 128 + k.val) % 128 = k.val; omega)
  have eB : idx_main_v98 (idx_main_v99 (idx_main_v100 (idx_main_v101 (ix2 n k)))) = ix2 (2 : Fin 4) k :=
    funext fun d => Fin.ext (by
      have hc := k.isLt
      match d with
      | ⟨0, _⟩ => rfl
      | ⟨1, _⟩ => show k.val % 128 = k.val; omega)
  rw [val_main_v102_apply, val_main_v97_apply, val_main_v101_apply, val_main_v100_apply, val_main_v99_apply, val_main_v98_apply, eB]
  simp only [val_main_v96_apply, val_main_v95_apply, eL, eR, Ideal.addf_def]
  rfl

/-- Branch 3's projection at node `n`, feature `k`. -/
theorem proj_3 (n : Fin 32768) (k : Fin 128) :
    val_main_v155 (F := Ideal) x0 x2 x3 (ix2 n k)
      = Cert.Spec.dense (fun a : Fin 256 => x0 (ix2 n a)) (fun (a : Fin 256) (b : Fin 128) => x2 (ix3 (3 : Fin 4) a b))
          (fun b : Fin 128 => x3 (ix2 (3 : Fin 4) b)) k := by
  have eL : ∀ a : Fin 256, lidx_main_v150 (ix2 n k) a = ix2 n a := fun a =>
    funext fun d => Fin.ext (by match d with | ⟨0, _⟩ => rfl | ⟨1, _⟩ => rfl)
  have eR : ∀ a : Fin 256, idx_main_v148 (idx_main_v149 (ridx_main_v150 (ix2 n k) a)) = ix3 (3 : Fin 4) a k := fun a =>
    funext fun d => Fin.ext (by
      have ha := a.isLt; have hc := k.isLt
      match d with
      | ⟨0, _⟩ => rfl
      | ⟨1, _⟩ => show (a.val * 128 + k.val) / 128 % 256 = a.val; omega
      | ⟨2, _⟩ => show (a.val * 128 + k.val) % 128 = k.val; omega)
  have eB : idx_main_v151 (idx_main_v152 (idx_main_v153 (idx_main_v154 (ix2 n k)))) = ix2 (3 : Fin 4) k :=
    funext fun d => Fin.ext (by
      have hc := k.isLt
      match d with
      | ⟨0, _⟩ => rfl
      | ⟨1, _⟩ => show k.val % 128 = k.val; omega)
  rw [val_main_v155_apply, val_main_v150_apply, val_main_v154_apply, val_main_v153_apply, val_main_v152_apply, val_main_v151_apply, eB]
  simp only [val_main_v149_apply, val_main_v148_apply, eL, eR, Ideal.addf_def]
  rfl

/-! ## The perceptron of each branch: two affine layers with the rectifier between them -/

/-- Branch 0's first layer at node `n`, hidden unit `c`, before the rectifier. -/
theorem hidden_0 (n : Fin 32768) (c : Fin 128) :
    val_main_v40 (F := Ideal) x0 x2 x3 x4 x5 (ix2 n c)
      = Cert.Spec.dense (fun a : Fin 128 => val_main_v32 (F := Ideal) x0 x2 x3 (ix2 n a))
          (fun (a b : Fin 128) => x4 (ix3 (0 : Fin 4) a b)) (fun b : Fin 128 => x5 (ix2 (0 : Fin 4) b)) c := by
  have eL : ∀ a : Fin 128, lidx_main_v35 (ix2 n c) a = ix2 n a := fun a =>
    funext fun d => Fin.ext (by match d with | ⟨0, _⟩ => rfl | ⟨1, _⟩ => rfl)
  have eR : ∀ a : Fin 128, idx_main_v33 (idx_main_v34 (ridx_main_v35 (ix2 n c) a)) = ix3 (0 : Fin 4) a c := fun a =>
    funext fun d => Fin.ext (by
      have ha := a.isLt; have hc := c.isLt
      match d with
      | ⟨0, _⟩ => rfl
      | ⟨1, _⟩ => show (a.val * 128 + c.val) / 128 % 128 = a.val; omega
      | ⟨2, _⟩ => show (a.val * 128 + c.val) % 128 = c.val; omega)
  have eB : idx_main_v36 (idx_main_v37 (idx_main_v38 (idx_main_v39 (ix2 n c)))) = ix2 (0 : Fin 4) c :=
    funext fun d => Fin.ext (by
      have hc := c.isLt
      match d with
      | ⟨0, _⟩ => rfl
      | ⟨1, _⟩ => show c.val % 128 = c.val; omega)
  rw [val_main_v40_apply, val_main_v35_apply, val_main_v39_apply, val_main_v38_apply, val_main_v37_apply, val_main_v36_apply, eB]
  simp only [val_main_v34_apply, val_main_v33_apply, eL, eR, Ideal.addf_def]
  rfl

/-- Branch 0's perceptron at node `n`, feature `k`: the second layer of the rectified first layer. -/
theorem mlp_0 (n : Fin 32768) (k : Fin 128) :
    val_main_v49 (F := Ideal) x0 x2 x3 x4 x5 x6 x7 (ix2 n k)
      = Cert.Spec.mlp (Ideal.ofBits .f32 0x00000000#32) (fun a : Fin 128 => val_main_v32 (F := Ideal) x0 x2 x3 (ix2 n a))
          (fun (a b : Fin 128) => x4 (ix3 (0 : Fin 4) a b)) (fun b : Fin 128 => x5 (ix2 (0 : Fin 4) b))
          (fun (a b : Fin 128) => x6 (ix3 (0 : Fin 4) a b)) (fun b : Fin 128 => x7 (ix2 (0 : Fin 4) b)) k := by
  have eL : ∀ a : Fin 128, lidx_main_v44 (ix2 n k) a = ix2 n a := fun a =>
    funext fun d => Fin.ext (by match d with | ⟨0, _⟩ => rfl | ⟨1, _⟩ => rfl)
  have eR : ∀ a : Fin 128, idx_main_v42 (idx_main_v43 (ridx_main_v44 (ix2 n k) a)) = ix3 (0 : Fin 4) a k := fun a =>
    funext fun d => Fin.ext (by
      have ha := a.isLt; have hc := k.isLt
      match d with
      | ⟨0, _⟩ => rfl
      | ⟨1, _⟩ => show (a.val * 128 + k.val) / 128 % 128 = a.val; omega
      | ⟨2, _⟩ => show (a.val * 128 + k.val) % 128 = k.val; omega)
  have eB : idx_main_v45 (idx_main_v46 (idx_main_v47 (idx_main_v48 (ix2 n k)))) = ix2 (0 : Fin 4) k :=
    funext fun d => Fin.ext (by
      have hc := k.isLt
      match d with
      | ⟨0, _⟩ => rfl
      | ⟨1, _⟩ => show k.val % 128 = k.val; omega)
  rw [val_main_v49_apply, val_main_v44_apply, val_main_v48_apply, val_main_v47_apply, val_main_v46_apply, val_main_v45_apply, eB]
  simp only [val_main_v43_apply, val_main_v42_apply, eL, eR, val_main_v41_apply, hidden_0, val_main_call0_v0_apply,
    val_main_call0_cst_apply, Ideal.addf_def, Ideal.maximumf_def, Ideal.ofBits_def]
  rfl

/-- Branch 1's first layer at node `n`, hidden unit `c`, before the rectifier. -/
theorem hidden_1 (n : Fin 32768) (c : Fin 128) :
    val_main_v81 (F := Ideal) x0 x1 x2 x3 x4 x5 (ix2 n c)
      = Cert.Spec.dense (fun a : Fin 128 => val_main_v73 (F := Ideal) x0 x1 x2 x3 (ix2 n a))
          (fun (a b : Fin 128) => x4 (ix3 (1 : Fin 4) a b)) (fun b : Fin 128 => x5 (ix2 (1 : Fin 4) b)) c := by
  have eL : ∀ a : Fin 128, lidx_main_v76 (ix2 n c) a = ix2 n a := fun a =>
    funext fun d => Fin.ext (by match d with | ⟨0, _⟩ => rfl | ⟨1, _⟩ => rfl)
  have eR : ∀ a : Fin 128, idx_main_v74 (idx_main_v75 (ridx_main_v76 (ix2 n c) a)) = ix3 (1 : Fin 4) a c := fun a =>
    funext fun d => Fin.ext (by
      have ha := a.isLt; have hc := c.isLt
      match d with
      | ⟨0, _⟩ => rfl
      | ⟨1, _⟩ => show (a.val * 128 + c.val) / 128 % 128 = a.val; omega
      | ⟨2, _⟩ => show (a.val * 128 + c.val) % 128 = c.val; omega)
  have eB : idx_main_v77 (idx_main_v78 (idx_main_v79 (idx_main_v80 (ix2 n c)))) = ix2 (1 : Fin 4) c :=
    funext fun d => Fin.ext (by
      have hc := c.isLt
      match d with
      | ⟨0, _⟩ => rfl
      | ⟨1, _⟩ => show c.val % 128 = c.val; omega)
  rw [val_main_v81_apply, val_main_v76_apply, val_main_v80_apply, val_main_v79_apply, val_main_v78_apply, val_main_v77_apply, eB]
  simp only [val_main_v75_apply, val_main_v74_apply, eL, eR, Ideal.addf_def]
  rfl

/-- Branch 1's perceptron at node `n`, feature `k`: the second layer of the rectified first layer. -/
theorem mlp_1 (n : Fin 32768) (k : Fin 128) :
    val_main_v90 (F := Ideal) x0 x1 x2 x3 x4 x5 x6 x7 (ix2 n k)
      = Cert.Spec.mlp (Ideal.ofBits .f32 0x00000000#32) (fun a : Fin 128 => val_main_v73 (F := Ideal) x0 x1 x2 x3 (ix2 n a))
          (fun (a b : Fin 128) => x4 (ix3 (1 : Fin 4) a b)) (fun b : Fin 128 => x5 (ix2 (1 : Fin 4) b))
          (fun (a b : Fin 128) => x6 (ix3 (1 : Fin 4) a b)) (fun b : Fin 128 => x7 (ix2 (1 : Fin 4) b)) k := by
  have eL : ∀ a : Fin 128, lidx_main_v85 (ix2 n k) a = ix2 n a := fun a =>
    funext fun d => Fin.ext (by match d with | ⟨0, _⟩ => rfl | ⟨1, _⟩ => rfl)
  have eR : ∀ a : Fin 128, idx_main_v83 (idx_main_v84 (ridx_main_v85 (ix2 n k) a)) = ix3 (1 : Fin 4) a k := fun a =>
    funext fun d => Fin.ext (by
      have ha := a.isLt; have hc := k.isLt
      match d with
      | ⟨0, _⟩ => rfl
      | ⟨1, _⟩ => show (a.val * 128 + k.val) / 128 % 128 = a.val; omega
      | ⟨2, _⟩ => show (a.val * 128 + k.val) % 128 = k.val; omega)
  have eB : idx_main_v86 (idx_main_v87 (idx_main_v88 (idx_main_v89 (ix2 n k)))) = ix2 (1 : Fin 4) k :=
    funext fun d => Fin.ext (by
      have hc := k.isLt
      match d with
      | ⟨0, _⟩ => rfl
      | ⟨1, _⟩ => show k.val % 128 = k.val; omega)
  rw [val_main_v90_apply, val_main_v85_apply, val_main_v89_apply, val_main_v88_apply, val_main_v87_apply, val_main_v86_apply, eB]
  simp only [val_main_v84_apply, val_main_v83_apply, eL, eR, val_main_v82_apply, hidden_1, val_main_call1_v0_apply,
    val_main_call1_cst_apply, Ideal.addf_def, Ideal.maximumf_def, Ideal.ofBits_def]
  rfl

/-- Branch 2's first layer at node `n`, hidden unit `c`, before the rectifier. -/
theorem hidden_2 (n : Fin 32768) (c : Fin 128) :
    val_main_v134 (F := Ideal) x0 x1 x2 x3 x4 x5 (ix2 n c)
      = Cert.Spec.dense (fun a : Fin 128 => val_main_v126 (F := Ideal) x0 x1 x2 x3 (ix2 n a))
          (fun (a b : Fin 128) => x4 (ix3 (2 : Fin 4) a b)) (fun b : Fin 128 => x5 (ix2 (2 : Fin 4) b)) c := by
  have eL : ∀ a : Fin 128, lidx_main_v129 (ix2 n c) a = ix2 n a := fun a =>
    funext fun d => Fin.ext (by match d with | ⟨0, _⟩ => rfl | ⟨1, _⟩ => rfl)
  have eR : ∀ a : Fin 128, idx_main_v127 (idx_main_v128 (ridx_main_v129 (ix2 n c) a)) = ix3 (2 : Fin 4) a c := fun a =>
    funext fun d => Fin.ext (by
      have ha := a.isLt; have hc := c.isLt
      match d with
      | ⟨0, _⟩ => rfl
      | ⟨1, _⟩ => show (a.val * 128 + c.val) / 128 % 128 = a.val; omega
      | ⟨2, _⟩ => show (a.val * 128 + c.val) % 128 = c.val; omega)
  have eB : idx_main_v130 (idx_main_v131 (idx_main_v132 (idx_main_v133 (ix2 n c)))) = ix2 (2 : Fin 4) c :=
    funext fun d => Fin.ext (by
      have hc := c.isLt
      match d with
      | ⟨0, _⟩ => rfl
      | ⟨1, _⟩ => show c.val % 128 = c.val; omega)
  rw [val_main_v134_apply, val_main_v129_apply, val_main_v133_apply, val_main_v132_apply, val_main_v131_apply, val_main_v130_apply, eB]
  simp only [val_main_v128_apply, val_main_v127_apply, eL, eR, Ideal.addf_def]
  rfl

/-- Branch 2's perceptron at node `n`, feature `k`: the second layer of the rectified first layer. -/
theorem mlp_2 (n : Fin 32768) (k : Fin 128) :
    val_main_v143 (F := Ideal) x0 x1 x2 x3 x4 x5 x6 x7 (ix2 n k)
      = Cert.Spec.mlp (Ideal.ofBits .f32 0x00000000#32) (fun a : Fin 128 => val_main_v126 (F := Ideal) x0 x1 x2 x3 (ix2 n a))
          (fun (a b : Fin 128) => x4 (ix3 (2 : Fin 4) a b)) (fun b : Fin 128 => x5 (ix2 (2 : Fin 4) b))
          (fun (a b : Fin 128) => x6 (ix3 (2 : Fin 4) a b)) (fun b : Fin 128 => x7 (ix2 (2 : Fin 4) b)) k := by
  have eL : ∀ a : Fin 128, lidx_main_v138 (ix2 n k) a = ix2 n a := fun a =>
    funext fun d => Fin.ext (by match d with | ⟨0, _⟩ => rfl | ⟨1, _⟩ => rfl)
  have eR : ∀ a : Fin 128, idx_main_v136 (idx_main_v137 (ridx_main_v138 (ix2 n k) a)) = ix3 (2 : Fin 4) a k := fun a =>
    funext fun d => Fin.ext (by
      have ha := a.isLt; have hc := k.isLt
      match d with
      | ⟨0, _⟩ => rfl
      | ⟨1, _⟩ => show (a.val * 128 + k.val) / 128 % 128 = a.val; omega
      | ⟨2, _⟩ => show (a.val * 128 + k.val) % 128 = k.val; omega)
  have eB : idx_main_v139 (idx_main_v140 (idx_main_v141 (idx_main_v142 (ix2 n k)))) = ix2 (2 : Fin 4) k :=
    funext fun d => Fin.ext (by
      have hc := k.isLt
      match d with
      | ⟨0, _⟩ => rfl
      | ⟨1, _⟩ => show k.val % 128 = k.val; omega)
  rw [val_main_v143_apply, val_main_v138_apply, val_main_v142_apply, val_main_v141_apply, val_main_v140_apply, val_main_v139_apply, eB]
  simp only [val_main_v137_apply, val_main_v136_apply, eL, eR, val_main_v135_apply, hidden_2, val_main_call2_v0_apply,
    val_main_call2_cst_apply, Ideal.addf_def, Ideal.maximumf_def, Ideal.ofBits_def]
  rfl

/-- Branch 3's first layer at node `n`, hidden unit `c`, before the rectifier. -/
theorem hidden_3 (n : Fin 32768) (c : Fin 128) :
    val_main_v199 (F := Ideal) x0 x1 x2 x3 x4 x5 (ix2 n c)
      = Cert.Spec.dense (fun a : Fin 128 => val_main_v191 (F := Ideal) x0 x1 x2 x3 (ix2 n a))
          (fun (a b : Fin 128) => x4 (ix3 (3 : Fin 4) a b)) (fun b : Fin 128 => x5 (ix2 (3 : Fin 4) b)) c := by
  have eL : ∀ a : Fin 128, lidx_main_v194 (ix2 n c) a = ix2 n a := fun a =>
    funext fun d => Fin.ext (by match d with | ⟨0, _⟩ => rfl | ⟨1, _⟩ => rfl)
  have eR : ∀ a : Fin 128, idx_main_v192 (idx_main_v193 (ridx_main_v194 (ix2 n c) a)) = ix3 (3 : Fin 4) a c := fun a =>
    funext fun d => Fin.ext (by
      have ha := a.isLt; have hc := c.isLt
      match d with
      | ⟨0, _⟩ => rfl
      | ⟨1, _⟩ => show (a.val * 128 + c.val) / 128 % 128 = a.val; omega
      | ⟨2, _⟩ => show (a.val * 128 + c.val) % 128 = c.val; omega)
  have eB : idx_main_v195 (idx_main_v196 (idx_main_v197 (idx_main_v198 (ix2 n c)))) = ix2 (3 : Fin 4) c :=
    funext fun d => Fin.ext (by
      have hc := c.isLt
      match d with
      | ⟨0, _⟩ => rfl
      | ⟨1, _⟩ => show c.val % 128 = c.val; omega)
  rw [val_main_v199_apply, val_main_v194_apply, val_main_v198_apply, val_main_v197_apply, val_main_v196_apply, val_main_v195_apply, eB]
  simp only [val_main_v193_apply, val_main_v192_apply, eL, eR, Ideal.addf_def]
  rfl

/-- Branch 3's perceptron at node `n`, feature `k`: the second layer of the rectified first layer. -/
theorem mlp_3 (n : Fin 32768) (k : Fin 128) :
    val_main_v208 (F := Ideal) x0 x1 x2 x3 x4 x5 x6 x7 (ix2 n k)
      = Cert.Spec.mlp (Ideal.ofBits .f32 0x00000000#32) (fun a : Fin 128 => val_main_v191 (F := Ideal) x0 x1 x2 x3 (ix2 n a))
          (fun (a b : Fin 128) => x4 (ix3 (3 : Fin 4) a b)) (fun b : Fin 128 => x5 (ix2 (3 : Fin 4) b))
          (fun (a b : Fin 128) => x6 (ix3 (3 : Fin 4) a b)) (fun b : Fin 128 => x7 (ix2 (3 : Fin 4) b)) k := by
  have eL : ∀ a : Fin 128, lidx_main_v203 (ix2 n k) a = ix2 n a := fun a =>
    funext fun d => Fin.ext (by match d with | ⟨0, _⟩ => rfl | ⟨1, _⟩ => rfl)
  have eR : ∀ a : Fin 128, idx_main_v201 (idx_main_v202 (ridx_main_v203 (ix2 n k) a)) = ix3 (3 : Fin 4) a k := fun a =>
    funext fun d => Fin.ext (by
      have ha := a.isLt; have hc := k.isLt
      match d with
      | ⟨0, _⟩ => rfl
      | ⟨1, _⟩ => show (a.val * 128 + k.val) / 128 % 128 = a.val; omega
      | ⟨2, _⟩ => show (a.val * 128 + k.val) % 128 = k.val; omega)
  have eB : idx_main_v204 (idx_main_v205 (idx_main_v206 (idx_main_v207 (ix2 n k)))) = ix2 (3 : Fin 4) k :=
    funext fun d => Fin.ext (by
      have hc := k.isLt
      match d with
      | ⟨0, _⟩ => rfl
      | ⟨1, _⟩ => show k.val % 128 = k.val; omega)
  rw [val_main_v208_apply, val_main_v203_apply, val_main_v207_apply, val_main_v206_apply, val_main_v205_apply, val_main_v204_apply, eB]
  simp only [val_main_v202_apply, val_main_v201_apply, eL, eR, val_main_v200_apply, hidden_3, val_main_call3_v0_apply,
    val_main_call3_cst_apply, Ideal.addf_def, Ideal.maximumf_def, Ideal.ofBits_def]
  rfl

/-! ## The gates -/

/-- Branch `i`'s gate: entry `i` of the normalised gate vector. -/
def g (i : Fin 4) : EReal := val_main_v24 (F := Ideal) x8 x9 (ix1 i)

/-- The array branch 0 is scaled by holds that branch's gate at every index: a one-element slice of the gate vector, read as a
    scalar (the one element of either shape sits at row-major position 0) and spread over the array. -/
theorem gate_0 (p : S32768x128.Idx) : val_main_v52 (F := Ideal) x8 x9 p = g x8 x9 (0 : Fin 4) := by
  rw [val_main_v52_apply]
  unfold val_main_v51
  refine (shapeCast_apply (val_main_v50 (F := Ideal) x8 x9) shapeCasts_S1_S_ (idx_main_v52 p) (ix1 (0 : Fin 1)) ?_).trans ?_
  · rw [Shape.rowMajor_val_one]
    exact (Shape.rowMajorPi_zero _ _).symm
  · rw [val_main_v50_apply]
    exact congrArg (val_main_v24 (F := Ideal) x8 x9) (funext fun d => Fin.ext (by match d with | ⟨0, _⟩ => rfl))

/-- The array branch 1 is scaled by holds that branch's gate at every index: a one-element slice of the gate vector, read as a
    scalar (the one element of either shape sits at row-major position 0) and spread over the array. -/
theorem gate_1 (p : S32768x128.Idx) : val_main_v93 (F := Ideal) x8 x9 p = g x8 x9 (1 : Fin 4) := by
  rw [val_main_v93_apply]
  unfold val_main_v92
  refine (shapeCast_apply (val_main_v91 (F := Ideal) x8 x9) shapeCasts_S1_S_ (idx_main_v93 p) (ix1 (0 : Fin 1)) ?_).trans ?_
  · rw [Shape.rowMajor_val_one]
    exact (Shape.rowMajorPi_zero _ _).symm
  · rw [val_main_v91_apply]
    exact congrArg (val_main_v24 (F := Ideal) x8 x9) (funext fun d => Fin.ext (by match d with | ⟨0, _⟩ => rfl))

/-- The array branch 2 is scaled by holds that branch's gate at every index: a one-element slice of the gate vector, read as a
    scalar (the one element of either shape sits at row-major position 0) and spread over the array. -/
theorem gate_2 (p : S32768x128.Idx) : val_main_v146 (F := Ideal) x8 x9 p = g x8 x9 (2 : Fin 4) := by
  rw [val_main_v146_apply]
  unfold val_main_v145
  refine (shapeCast_apply (val_main_v144 (F := Ideal) x8 x9) shapeCasts_S1_S_ (idx_main_v146 p) (ix1 (0 : Fin 1)) ?_).trans ?_
  · rw [Shape.rowMajor_val_one]
    exact (Shape.rowMajorPi_zero _ _).symm
  · rw [val_main_v144_apply]
    exact congrArg (val_main_v24 (F := Ideal) x8 x9) (funext fun d => Fin.ext (by match d with | ⟨0, _⟩ => rfl))

/-- The array branch 3 is scaled by holds that branch's gate at every index: a one-element slice of the gate vector, read as a
    scalar (the one element of either shape sits at row-major position 0) and spread over the array. -/
theorem gate_3 (p : S32768x128.Idx) : val_main_v211 (F := Ideal) x8 x9 p = g x8 x9 (3 : Fin 4) := by
  rw [val_main_v211_apply]
  unfold val_main_v210
  refine (shapeCast_apply (val_main_v209 (F := Ideal) x8 x9) shapeCasts_S1_S_ (idx_main_v211 p) (ix1 (0 : Fin 1)) ?_).trans ?_
  · rw [Shape.rowMajor_val_one]
    exact (Shape.rowMajorPi_zero _ _).symm
  · rw [val_main_v209_apply]
    exact congrArg (val_main_v24 (F := Ideal) x8 x9) (funext fun d => Fin.ext (by match d with | ⟨0, _⟩ => rfl))

/-! ## The branch features the perceptrons read, and the four branches side by side -/

/-- Branch `i`'s feature rows after its `i` rounds of neighbourhood averaging (none for branch 0: its projection). -/
def H : Fin 4 → Fin 32768 → Fin 128 → EReal
  | ⟨0, _⟩ => fun n k => val_main_v32 (F := Ideal) x0 x2 x3 (ix2 n k)
  | ⟨1, _⟩ => fun n k => val_main_v73 (F := Ideal) x0 x1 x2 x3 (ix2 n k)
  | ⟨2, _⟩ => fun n k => val_main_v126 (F := Ideal) x0 x1 x2 x3 (ix2 n k)
  | ⟨3, _⟩ => fun n k => val_main_v191 (F := Ideal) x0 x1 x2 x3 (ix2 n k)

theorem H_0 : H x0 x1 x2 x3 0 = fun n k => val_main_v32 (F := Ideal) x0 x2 x3 (ix2 n k) := rfl
theorem H_1 : H x0 x1 x2 x3 1 = fun n k => val_main_v73 (F := Ideal) x0 x1 x2 x3 (ix2 n k) := rfl
theorem H_2 : H x0 x1 x2 x3 2 = fun n k => val_main_v126 (F := Ideal) x0 x1 x2 x3 (ix2 n k) := rfl
theorem H_3 : H x0 x1 x2 x3 3 = fun n k => val_main_v191 (F := Ideal) x0 x1 x2 x3 (ix2 n k) := rfl

/-- Four arrays of 128 columns laid side by side: column `128 · 0 + k` of the result is column `k` of piece 0. -/
theorem cat4_0 (y0 y1 y2 y3 : (⟨S32768x128, .f32⟩ : BufTy).Contents (Elt Ideal)) (n : Fin 32768) (k : Fin 128) :
    concatenate S32768x512 1 [⟨S32768x128, y0⟩, ⟨S32768x128, y1⟩, ⟨S32768x128, y2⟩, ⟨S32768x128, y3⟩]
        concatenates_S32768x128_S32768x128_S32768x128_S32768x128_S32768x512_d1 (ix2 n (Cert.Spec.at512 0 k)) = y0 (ix2 n k) := by
  refine concatenate_apply_piece (t := S32768x512) 1 [⟨S32768x128, y0⟩, ⟨S32768x128, y1⟩, ⟨S32768x128, y2⟩, ⟨S32768x128, y3⟩]
    concatenates_S32768x128_S32768x128_S32768x128_S32768x128_S32768x512_d1 (ix2 n (Cert.Spec.at512 0 k)) 0 (by show (0 : Nat) < 4; omega) S32768x128 y0 rfl rfl 0 ?_ (ix2 n k) ?_ ?_
  · rfl
  · intro b hb
    match b with
    | ⟨0, _⟩ => rfl
    | ⟨1, _⟩ => exact absurd rfl hb
  · have hk := k.isLt
    show 0 + k.val = k.val + 128 * 0
    omega

/-- Four arrays of 128 columns laid side by side: column `128 · 1 + k` of the result is column `k` of piece 1. -/
theorem cat4_1 (y0 y1 y2 y3 : (⟨S32768x128, .f32⟩ : BufTy).Contents (Elt Ideal)) (n : Fin 32768) (k : Fin 128) :
    concatenate S32768x512 1 [⟨S32768x128, y0⟩, ⟨S32768x128, y1⟩, ⟨S32768x128, y2⟩, ⟨S32768x128, y3⟩]
        concatenates_S32768x128_S32768x128_S32768x128_S32768x128_S32768x512_d1 (ix2 n (Cert.Spec.at512 1 k)) = y1 (ix2 n k) := by
  refine concatenate_apply_piece (t := S32768x512) 1 [⟨S32768x128, y0⟩, ⟨S32768x128, y1⟩, ⟨S32768x128, y2⟩, ⟨S32768x128, y3⟩]
    concatenates_S32768x128_S32768x128_S32768x128_S32768x128_S32768x512_d1 (ix2 n (Cert.Spec.at512 1 k)) 1 (by show (1 : Nat) < 4; omega) S32768x128 y1 rfl rfl 128 ?_ (ix2 n k) ?_ ?_
  · rfl
  · intro b hb
    match b with
    | ⟨0, _⟩ => rfl
    | ⟨1, _⟩ => exact absurd rfl hb
  · have hk := k.isLt
    show 128 + k.val = k.val + 128 * 1
    omega

/-- Four arrays of 128 columns laid side by side: column `128 · 2 + k` of the result is column `k` of piece 2. -/
theorem cat4_2 (y0 y1 y2 y3 : (⟨S32768x128, .f32⟩ : BufTy).Contents (Elt Ideal)) (n : Fin 32768) (k : Fin 128) :
    concatenate S32768x512 1 [⟨S32768x128, y0⟩, ⟨S32768x128, y1⟩, ⟨S32768x128, y2⟩, ⟨S32768x128, y3⟩]
        concatenates_S32768x128_S32768x128_S32768x128_S32768x128_S32768x512_d1 (ix2 n (Cert.Spec.at512 2 k)) = y2 (ix2 n k) := by
  refine concatenate_apply_piece (t := S32768x512) 1 [⟨S32768x128, y0⟩, ⟨S32768x128, y1⟩, ⟨S32768x128, y2⟩, ⟨S32768x128, y3⟩]
    concatenates_S32768x128_S32768x128_S32768x128_S32768x128_S32768x512_d1 (ix2 n (Cert.Spec.at512 2 k)) 2 (by show (2 : Nat) < 4; omega) S32768x128 y2 rfl rfl 256 ?_ (ix2 n k) ?_ ?_
  · rfl
  · intro b hb
    match b with
    | ⟨0, _⟩ => rfl
    | ⟨1, _⟩ => exact absurd rfl hb
  · have hk := k.isLt
    show 256 + k.val = k.val + 128 * 2
    omega

/-- Four arrays of 128 columns laid side by side: column `128 · 3 + k` of the result is column `k` of piece 3. -/
theorem cat4_3 (y0 y1 y2 y3 : (⟨S32768x128, .f32⟩ : BufTy).Contents (Elt Ideal)) (n : Fin 32768) (k : Fin 128) :
    concatenate S32768x512 1 [⟨S32768x128, y0⟩, ⟨S32768x128, y1⟩, ⟨S32768x128, y2⟩, ⟨S32768x128, y3⟩]
        concatenates_S32768x128_S32768x128_S32768x128_S32768x128_S32768x512_d1 (ix2 n (Cert.Spec.at512 3 k)) = y3 (ix2 n k) := by
  refine concatenate_apply_piece (t := S32768x512) 1 [⟨S32768x128, y0⟩, ⟨S32768x128, y1⟩, ⟨S32768x128, y2⟩, ⟨S32768x128, y3⟩]
    concatenates_S32768x128_S32768x128_S32768x128_S32768x128_S32768x512_d1 (ix2 n (Cert.Spec.at512 3 k)) 3 (by show (3 : Nat) < 4; omega) S32768x128 y3 rfl rfl 384 ?_ (ix2 n k) ?_ ?_
  · rfl
  · intro b hb
    match b with
    | ⟨0, _⟩ => rfl
    | ⟨1, _⟩ => exact absurd rfl hb
  · have hk := k.isLt
    show 384 + k.val = k.val + 128 * 3
    omega

/-- The row of 512 at node `n`, column `128 i + k`: branch `i`'s perceptron output at feature `k`, times the branch's gate. -/
theorem cat_read (n : Fin 32768) (i : Fin 4) (k : Fin 128) :
    val_main_v213 (F := Ideal) x0 x1 x2 x3 x4 x5 x6 x7 x8 x9 (ix2 n (Cert.Spec.at512 i k))
      = Cert.Spec.mlp (Ideal.ofBits .f32 0x00000000#32) (H x0 x1 x2 x3 i n)
          (fun (a b : Fin 128) => x4 (ix3 i a b)) (fun b : Fin 128 => x5 (ix2 i b))
          (fun (a b : Fin 128) => x6 (ix3 i a b)) (fun b : Fin 128 => x7 (ix2 i b)) k * g x8 x9 i := by
  unfold val_main_v213
  match i with
  | ⟨0, _⟩ =>
    refine (cat4_0 _ _ _ _ n k).trans ?_
    rw [val_main_v53_apply, gate_0, mlp_0, Ideal.mulf_def]
    rfl
  | ⟨1, _⟩ =>
    refine (cat4_1 _ _ _ _ n k).trans ?_
    rw [val_main_v94_apply, gate_1, mlp_1, Ideal.mulf_def]
    rfl
  | ⟨2, _⟩ =>
    refine (cat4_2 _ _ _ _ n k).trans ?_
    rw [val_main_v147_apply, gate_2, mlp_2, Ideal.mulf_def]
    rfl
  | ⟨3, _⟩ =>
    refine (cat4_3 _ _ _ _ n k).trans ?_
    rw [val_main_v212_apply, gate_3, mlp_3, Ideal.mulf_def]
    rfl

/-! ## The result -/

/-- The reference's result at node `n`, feature `j`: the gated branches side by side against column `j` of the output
    weights, plus the output bias. -/
theorem ref_out (n : Fin 32768) (j : Fin 128) :
    val_main_v217 (F := Ideal) x0 x1 x2 x3 x4 x5 x6 x7 x8 x9 x10 x11 (ix2 n j)
      = Cert.Spec.out (Ideal.ofBits .f32 0x00000000#32) (H x0 x1 x2 x3) (g x8 x9)
          (fun i a b => x4 (ix3 i a b)) (fun i a => x5 (ix2 i a)) (fun i a b => x6 (ix3 i a b)) (fun i a => x7 (ix2 i a))
          (fun c j => x10 (ix2 c j)) (fun j => x11 (ix1 j)) n j := by
  have eL : ∀ c : Fin 512, lidx_main_v214 (ix2 n j) c = ix2 n c := fun c =>
    funext fun d => Fin.ext (by match d with | ⟨0, _⟩ => rfl | ⟨1, _⟩ => rfl)
  have eR : ∀ c : Fin 512, ridx_main_v214 (ix2 n j) c = ix2 c j := fun c =>
    funext fun d => Fin.ext (by match d with | ⟨0, _⟩ => rfl | ⟨1, _⟩ => rfl)
  have eB : idx_main_v215 (idx_main_v216 (ix2 n j)) = ix1 j :=
    funext fun d => Fin.ext (by match d with | ⟨0, _⟩ => rfl)
  rw [val_main_v217_apply, val_main_v214_apply, val_main_v216_apply, val_main_v215_apply, eB, Ideal.addf_def]
  unfold Cert.Spec.out Cert.Spec.outCat
  refine congrArg (· + x11 (ix1 j)) (Finset.sum_congr rfl fun c _ => ?_)
  rw [eL c, eR c]
  refine congrArg (· * x10 (ix2 c j)) ?_
  obtain ⟨⟨i, k⟩, rfl⟩ := Cert.Spec.e512.surjective c
  simp only [Equiv.symm_apply_apply]
  exact cat_read x0 x1 x2 x3 x4 x5 x6 x7 x8 x9 n i k

end Cert.RefValue

end
-- ==== Proof.RefGlue.lean ====
/-
  The reference's stages restated through the shared host-side functions: its gates are `Glue.gates` of the gate logits and
  the temperature, and each round of message passing is `Glue.meanStep` of the edge list applied to the round before (branch
  `i` goes through `i` rounds, starting from its projection).
-/
import proofs.«181357_j35347580846308_1_alg».proof.Proof.ReadP
import proofs.«181357_j35347580846308_1_alg».proof.Proof.Glue

noncomputable section

namespace Cert.RefGlue

open Cert.ReferenceIdeal Cert.ReferenceIdeal.Gen Cert.ReferenceIdeal.ReadP Idealize.ShloMosaic

variable {F : FTy → Type} [FloatOps F]
variable (x0 : (⟨S32768x256, .f32⟩ : BufTy).Contents (Elt F)) (x1 : (⟨S2x524288, .i32⟩ : BufTy).Contents (Elt F))
  (x2 : (⟨S4x256x128, .f32⟩ : BufTy).Contents (Elt F)) (x3 : (⟨S4x128, .f32⟩ : BufTy).Contents (Elt F))
  (x8 : (⟨S4, .f32⟩ : BufTy).Contents (Elt F)) (x9 : (⟨S_, .f32⟩ : BufTy).Contents (Elt F))

theorem gates_eq : val_main_v24 (F := F) x8 x9 = Cert.Glue.gates x8 x9 := rfl

/-- Branch 1: one round over its projection. -/
theorem b1_eq : val_main_v73 (F := F) x0 x1 x2 x3 = Cert.Glue.meanStep x1 (val_main_v61 (F := F) x0 x2 x3) := rfl

/-- Branch 2: two rounds over its projection. -/
theorem b2_eq : val_main_v126 (F := F) x0 x1 x2 x3 = Cert.Glue.meanStep x1 (Cert.Glue.meanStep x1 (val_main_v102 (F := F) x0 x2 x3)) := rfl

/-- Branch 3: three rounds over its projection. -/
theorem b3_eq : val_main_v191 (F := F) x0 x1 x2 x3 =
    Cert.Glue.meanStep x1 (Cert.Glue.meanStep x1 (Cert.Glue.meanStep x1 (val_main_v155 (F := F) x0 x2 x3))) := rfl

end Cert.RefGlue

end
-- ==== Proof.Bridge.lean ====
/-
  The two idealized programs end with the same array.

  Write `x0 … x11` for the twelve argument arrays. The kernel program's result at node `n`, feature `j` is read off its run in
  four steps.
  * The first region's output has, in columns `128 i … 128 i + 127`, branch `i`'s projection `x0 · Wb[i] + bb[i]`: the combined
    weight matrix holds `Wb[i]` in those columns, the combined bias `bb[i]`. That is the reference's projection of branch `i`.
  * Between the regions both programs pass branch `i` through `i` rounds of the same mean message passing over the same edge
    list, so the kernel's stacked branch features are the reference's, branch by branch (congruence; the rounds are not opened).
  * The second region accumulates, over the four branches in order and from zero, each branch's perceptron output contracted
    with that branch's 128 rows of the output weights SCALED BY THE BRANCH'S GATE, and adds the bias.
  * The reference scales each branch's perceptron output by the gate, lays the four side by side and contracts the 512 columns
    with the unscaled output weights.
  The last two agree by `Spec.outAcc_eq_outCat`: the sum of 512 regrouped as 4 × 128 and the gate moved across each product,
  which commutativity and associativity of + and · on the extended reals give with no finiteness assumption.
-/
import proofs.«181357_j35347580846308_1_alg».proof.Proof.KRun
import proofs.«181357_j35347580846308_1_alg».proof.Proof.KVal0
import proofs.«181357_j35347580846308_1_alg».proof.Proof.KVal1
import proofs.«181357_j35347580846308_1_alg».proof.Proof.KHost
import proofs.«181357_j35347580846308_1_alg».proof.Proof.RefValue
import proofs.«181357_j35347580846308_1_alg».proof.Proof.RefGlue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg) (c : Dev nD)

/-! ## The argument arrays -/

abbrev x0 : S32768x256.Idx → EReal := m ((c : Thread nD τ).loc main_arg0)
abbrev x1 : (⟨S2x524288, .i32⟩ : BufTy).Contents (Elt Ideal) := m ((c : Thread nD τ).loc main_arg1)
abbrev x2 : S4x256x128.Idx → EReal := m ((c : Thread nD τ).loc main_arg2)
abbrev x3 : S4x128.Idx → EReal := m ((c : Thread nD τ).loc main_arg3)
abbrev x4 : S4x128x128.Idx → EReal := m ((c : Thread nD τ).loc main_arg4)
abbrev x5 : S4x128.Idx → EReal := m ((c : Thread nD τ).loc main_arg5)
abbrev x6 : S4x128x128.Idx → EReal := m ((c : Thread nD τ).loc main_arg6)
abbrev x7 : S4x128.Idx → EReal := m ((c : Thread nD τ).loc main_arg7)
abbrev x8 : S4.Idx → EReal := m ((c : Thread nD τ).loc main_arg8)
abbrev x9 : S_.Idx → EReal := m ((c : Thread nD τ).loc main_arg9)
abbrev x10 : S512x128.Idx → EReal := m ((c : Thread nD τ).loc main_arg10)
abbrev x11 : S128.Idx → EReal := m ((c : Thread nD τ).loc main_arg11)

/-- A buffer the first stretch of host operations does not write and that is no array of the first region still holds its
    launch contents when the second stretch starts. -/
theorem W2_kept (r : Ref sig .tc) (h2 : ∀ w, Pipeline.arrRef spec0 w ≠ r) (h1 : r ∉ hostOps0_W) :
    W2 m ρ c (Proc.devRef .tc r) = m ((c : Thread nD τ).loc r) :=
  (W2_of_ne m ρ c r h2).trans ((W1_of m ρ c r h1).trans rfl)

/-- The first region's output array when the second stretch starts: what its pipeline left. -/
theorem W2_out : W2 m ρ c (Proc.devRef .tc main_v22) = (dat0 (V1 m ρ) c).arrAt 3 cfg0.N := W2_arr m ρ c 3

/-! ## The first region's column blocks are the reference's projections -/

set_option maxHeartbeats 4000000 in
theorem col_0 : Cert.KernelIdeal.HostVal.colBlock (W2 m ρ c (Proc.devRef .tc main_v22)) 0 = Cert.ReferenceIdeal.ReadP.val_main_v32 (F := Ideal) (x0 m c) (x2 m c) (x3 m c) := by
  funext idx
  obtain ⟨n, k, rfl⟩ : ∃ (n : Fin 32768) (k : Fin 128), idx = ix2 n k := ⟨idx 0, idx 1, eq_ix2 idx⟩
  refine (Cert.KernelIdeal.HostVal.colBlock_apply _ 0 n k).trans ?_
  refine Eq.trans ?_ (Cert.RefValue.proj_0 (x0 m c) (x2 m c) (x3 m c) n k).symm
  refine (congrFun (W2_out m ρ c) (ix2 n (Cert.Spec.at512 0 k))).trans ?_
  refine (Cert.KernelIdeal.Val.final0 (V1 m ρ) c n (Cert.Spec.at512 0 k)).trans ?_
  unfold Cert.Spec.dense
  refine congrArg₂ (· + ·) (Finset.sum_congr rfl fun a _ => congrArg₂ (· * ·) ?_ ?_) ?_
  · exact Cert.KernelIdeal.HostVal.h19 (W0 m ρ c) n a
  · exact Cert.KernelIdeal.HostVal.h20 (W0 m ρ c) a 0 k
  · exact Cert.KernelIdeal.HostVal.h21 (W0 m ρ c) 0 k
set_option maxHeartbeats 4000000 in
theorem col_1 : Cert.KernelIdeal.HostVal.colBlock (W2 m ρ c (Proc.devRef .tc main_v22)) 1 = Cert.ReferenceIdeal.ReadP.val_main_v61 (F := Ideal) (x0 m c) (x2 m c) (x3 m c) := by
  funext idx
  obtain ⟨n, k, rfl⟩ : ∃ (n : Fin 32768) (k : Fin 128), idx = ix2 n k := ⟨idx 0, idx 1, eq_ix2 idx⟩
  refine (Cert.KernelIdeal.HostVal.colBlock_apply _ 1 n k).trans ?_
  refine Eq.trans ?_ (Cert.RefValue.proj_1 (x0 m c) (x2 m c) (x3 m c) n k).symm
  refine (congrFun (W2_out m ρ c) (ix2 n (Cert.Spec.at512 1 k))).trans ?_
  refine (Cert.KernelIdeal.Val.final0 (V1 m ρ) c n (Cert.Spec.at512 1 k)).trans ?_
  unfold Cert.Spec.dense
  refine congrArg₂ (· + ·) (Finset.sum_congr rfl fun a _ => congrArg₂ (· * ·) ?_ ?_) ?_
  · exact Cert.KernelIdeal.HostVal.h19 (W0 m ρ c) n a
  · exact Cert.KernelIdeal.HostVal.h20 (W0 m ρ c) a 1 k
  · exact Cert.KernelIdeal.HostVal.h21 (W0 m ρ c) 1 k
set_option maxHeartbeats 4000000 in
theorem col_2 : Cert.KernelIdeal.HostVal.colBlock (W2 m ρ c (Proc.devRef .tc main_v22)) 2 = Cert.ReferenceIdeal.ReadP.val_main_v102 (F := Ideal) (x0 m c) (x2 m c) (x3 m c) := by
  funext idx
  obtain ⟨n, k, rfl⟩ : ∃ (n : Fin 32768) (k : Fin 128), idx = ix2 n k := ⟨idx 0, idx 1, eq_ix2 idx⟩
  refine (Cert.KernelIdeal.HostVal.colBlock_apply _ 2 n k).trans ?_
  refine Eq.trans ?_ (Cert.RefValue.proj_2 (x0 m c) (x2 m c) (x3 m c) n k).symm
  refine (congrFun (W2_out m ρ c) (ix2 n (Cert.Spec.at512 2 k))).trans ?_
  refine (Cert.KernelIdeal.Val.final0 (V1 m ρ) c n (Cert.Spec.at512 2 k)).trans ?_
  unfold Cert.Spec.dense
  refine congrArg₂ (· + ·) (Finset.sum_congr rfl fun a _ => congrArg₂ (· * ·) ?_ ?_) ?_
  · exact Cert.KernelIdeal.HostVal.h19 (W0 m ρ c) n a
  · exact Cert.KernelIdeal.HostVal.h20 (W0 m ρ c) a 2 k
  · exact Cert.KernelIdeal.HostVal.h21 (W0 m ρ c) 2 k
set_option maxHeartbeats 4000000 in
theorem col_3 : Cert.KernelIdeal.HostVal.colBlock (W2 m ρ c (Proc.devRef .tc main_v22)) 3 = Cert.ReferenceIdeal.ReadP.val_main_v155 (F := Ideal) (x0 m c) (x2 m c) (x3 m c) := by
  funext idx
  obtain ⟨n, k, rfl⟩ : ∃ (n : Fin 32768) (k : Fin 128), idx = ix2 n k := ⟨idx 0, idx 1, eq_ix2 idx⟩
  refine (Cert.KernelIdeal.HostVal.colBlock_apply _ 3 n k).trans ?_
  refine Eq.trans ?_ (Cert.RefValue.proj_3 (x0 m c) (x2 m c) (x3 m c) n k).symm
  refine (congrFun (W2_out m ρ c) (ix2 n (Cert.Spec.at512 3 k))).trans ?_
  refine (Cert.KernelIdeal.Val.final0 (V1 m ρ) c n (Cert.Spec.at512 3 k)).trans ?_
  unfold Cert.Spec.dense
  refine congrArg₂ (· + ·) (Finset.sum_congr rfl fun a _ => congrArg₂ (· * ·) ?_ ?_) ?_
  · exact Cert.KernelIdeal.HostVal.h19 (W0 m ρ c) n a
  · exact Cert.KernelIdeal.HostVal.h20 (W0 m ρ c) a 3 k
  · exact Cert.KernelIdeal.HostVal.h21 (W0 m ρ c) 3 k

/-! ## The stacked branch features are the reference's -/

theorem feat_0 (n : Fin 32768) (a : Fin 128) :
    V3 m ρ c main_v117 (ix3 (0 : Fin 4) n a) = Cert.RefValue.H (x0 m c) (x1 m c) (x2 m c) (x3 m c) 0 n a := by
  refine (Cert.KernelIdeal.HostVal.h117_0 (W2 m ρ c) n a).trans ?_
  exact congrFun (col_0 m ρ c) (ix2 n a)

theorem feat_1 (n : Fin 32768) (a : Fin 128) :
    V3 m ρ c main_v117 (ix3 (1 : Fin 4) n a) = Cert.RefValue.H (x0 m c) (x1 m c) (x2 m c) (x3 m c) 1 n a := by
  refine (Cert.KernelIdeal.HostVal.h117_1 (W2 m ρ c) n a).trans ?_
  have e1 : W2 m ρ c (Proc.devRef .tc main_arg1) = x1 m c := W2_kept m ρ c main_arg1 (by decide) (by decide)
  rw [e1, col_1 m ρ c]
  exact (congrFun (Cert.RefGlue.b1_eq (F := Ideal) (x0 m c) (x1 m c) (x2 m c) (x3 m c)) (ix2 n a)).symm

theorem feat_2 (n : Fin 32768) (a : Fin 128) :
    V3 m ρ c main_v117 (ix3 (2 : Fin 4) n a) = Cert.RefValue.H (x0 m c) (x1 m c) (x2 m c) (x3 m c) 2 n a := by
  refine (Cert.KernelIdeal.HostVal.h117_2 (W2 m ρ c) n a).trans ?_
  have e1 : W2 m ρ c (Proc.devRef .tc main_arg1) = x1 m c := W2_kept m ρ c main_arg1 (by decide) (by decide)
  rw [e1, col_2 m ρ c]
  exact (congrFun (Cert.RefGlue.b2_eq (F := Ideal) (x0 m c) (x1 m c) (x2 m c) (x3 m c)) (ix2 n a)).symm

theorem feat_3 (n : Fin 32768) (a : Fin 128) :
    V3 m ρ c main_v117 (ix3 (3 : Fin 4) n a) = Cert.RefValue.H (x0 m c) (x1 m c) (x2 m c) (x3 m c) 3 n a := by
  refine (Cert.KernelIdeal.HostVal.h117_3 (W2 m ρ c) n a).trans ?_
  have e1 : W2 m ρ c (Proc.devRef .tc main_arg1) = x1 m c := W2_kept m ρ c main_arg1 (by decide) (by decide)
  rw [e1, col_3 m ρ c]
  exact (congrFun (Cert.RefGlue.b3_eq (F := Ideal) (x0 m c) (x1 m c) (x2 m c) (x3 m c)) (ix2 n a)).symm

theorem feat (i : Fin 4) (n : Fin 32768) (a : Fin 128) :
    V3 m ρ c main_v117 (ix3 i n a) = Cert.RefValue.H (x0 m c) (x1 m c) (x2 m c) (x3 m c) i n a := by
  match i with
  | ⟨0, _⟩ => exact feat_0 m ρ c n a
  | ⟨1, _⟩ => exact feat_1 m ρ c n a
  | ⟨2, _⟩ => exact feat_2 m ρ c n a
  | ⟨3, _⟩ => exact feat_3 m ρ c n a

/-! ## The second region's other operands -/

theorem w1_eq (i : Fin 4) (a b : Fin 128) : V3 m ρ c main_v118 (ix3 i a b) = x4 m c (ix3 i a b) :=
  (Cert.KernelIdeal.HostVal.h118 (W2 m ρ c) i a b).trans (congrFun (W2_kept m ρ c main_arg4 (by decide) (by decide)) _)
theorem w2_eq (i : Fin 4) (a b : Fin 128) : V3 m ρ c main_v119 (ix3 i a b) = x6 m c (ix3 i a b) :=
  (Cert.KernelIdeal.HostVal.h119 (W2 m ρ c) i a b).trans (congrFun (W2_kept m ρ c main_arg6 (by decide) (by decide)) _)
theorem b1_eq (i : Fin 4) (b : Fin 128) : V3 m ρ c main_v121 (ix3 i (0 : Fin 1) b) = x5 m c (ix2 i b) :=
  (Cert.KernelIdeal.HostVal.h121 (W2 m ρ c) i b).trans (congrFun (W2_kept m ρ c main_arg5 (by decide) (by decide)) _)
theorem b2_eq (i : Fin 4) (b : Fin 128) : V3 m ρ c main_v122 (ix3 i (0 : Fin 1) b) = x7 m c (ix2 i b) :=
  (Cert.KernelIdeal.HostVal.h122 (W2 m ρ c) i b).trans (congrFun (W2_kept m ρ c main_arg7 (by decide) (by decide)) _)
theorem bo_eq (j : Fin 128) : V3 m ρ c main_v123 (ix2 (0 : Fin 1) j) = x11 m c (ix1 j) :=
  (Cert.KernelIdeal.HostVal.h123 (W2 m ρ c) j).trans (congrFun (W2_kept m ρ c main_arg11 (by decide) (by decide)) _)
/-- The gated output weights: branch `i`'s rows of `Wo`, times the branch's gate. -/
theorem wo_eq (i : Fin 4) (k j : Fin 128) :
    V3 m ρ c main_v120 (ix3 i k j) = x10 m c (ix2 (Cert.Spec.at512 i k) j) * Cert.RefValue.g (x8 m c) (x9 m c) i := by
  refine (Cert.KernelIdeal.HostVal.h120 (W2 m ρ c) i k j).trans ?_
  refine (congrFun (W2_of_ne m ρ c main_v15 (by decide)) (ix3 i k j)).trans ?_
  refine (Cert.KernelIdeal.HostVal.h15 (W0 m ρ c) i k j).trans ?_
  unfold Cert.RefValue.g
  rw [Cert.RefGlue.gates_eq]

/-! ## The two results -/

set_option maxHeartbeats 4000000 in
/-- The reference's result term, at the kernel's argument arrays, is the array the kernel program's second pipeline
    leaves. -/
theorem result_eq :
    Cert.ReferenceIdeal.ReadP.val_main_v217 (F := Ideal) (x0 m c) (x1 m c) (x2 m c) (x3 m c) (x4 m c) (x5 m c) (x6 m c) (x7 m c) (x8 m c) (x9 m c) (x10 m c) (x11 m c)
      = (dat1 (V3 m ρ) c).arrAt 7 cfg1.N := by
  funext idx
  obtain ⟨n, j, rfl⟩ : ∃ (n : Fin 32768) (j : Fin 128), idx = ix2 n j := ⟨idx 0, idx 1, eq_ix2 idx⟩
  rw [Cert.RefValue.ref_out, Cert.KernelIdeal.Val1.final1]
  unfold Cert.Spec.out
  rw [← Cert.Spec.outAcc_eq_outCat]
  unfold Cert.Spec.outAcc Cert.Spec.part
  simp only [feat m ρ c, w1_eq m ρ c, w2_eq m ρ c, b1_eq m ρ c, b2_eq m ρ c, bo_eq m ρ c, wo_eq m ρ c, Equiv.symm_apply_apply, mul_one]

end Cert.Bridge

end
-- ==== Proof.RefRunEq.lean ====
/-
  The reference's result, as its run names it, is the last stage of the operation-by-operation reading, at the launch
  contents of the twelve arguments.
-/
import proofs.«181357_j35347580846308_1_alg».proof.Proof.RunP
import proofs.«181357_j35347580846308_1_alg».proof.Proof.ReadP

noncomputable section

namespace Cert.RefRunEq

open Cert.ReferenceIdeal Cert.ReferenceIdeal.Gen Cert.ReferenceIdeal.ReadP Idealize.ShloMosaic Idealize.ShloMosaic.TcCoe Idealize.SL.Sem

variable {F : FTy → Type} [FloatOps F]

theorem val_main_v217_eq (m : (ℓ : Loc nD τ sig) → Buf (Elt F) ℓ) (c : Dev nD) :
    Cert.ReferenceIdeal.ValueP.res_main_v217 m c = val_main_v217 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v217; rfl

end Cert.RefRunEq

end
-- ==== Proof.lean ====
/-
  Every claim of this certificate.

  Both printed kernel programs (the word-level one and its idealization, which is the same text read at the extended reals) run
  to the end without a fault and leave their argument arrays unchanged: the program is two stretches of host operations and
  two kernel regions, each region's pipeline running a body that is proved once for any float instance. The reference is
  host operations only. The idealization rewrote nothing, so there is nothing to preserve. At the extended reals the kernel
  program and the reference end with the same array: the kernel folds the branch gates into the output weights and adds the
  four branches' contributions one after another, the reference scales the branches' outputs by the gates and contracts all
  512 columns at once, and the two arrangements agree by commutativity and associativity of + and · alone.
-/
import proofs.«181357_j35347580846308_1_alg».proof.Defs
import proofs.«181357_j35347580846308_1_alg».proof.Proof.Gen.Kernel
import proofs.«181357_j35347580846308_1_alg».proof.Proof.Gen.KernelIdeal
import proofs.«181357_j35347580846308_1_alg».proof.Proof.Gen.ReferenceIdeal
import proofs.«181357_j35347580846308_1_alg».proof.Proof.Gen.Pre_finite_inputs
import proofs.«181357_j35347580846308_1_alg».proof.Proof.BRun
import proofs.«181357_j35347580846308_1_alg».proof.Proof.KRun
import proofs.«181357_j35347580846308_1_alg».proof.Proof.Bridge
import proofs.«181357_j35347580846308_1_alg».proof.Proof.RefRunEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both idealized programs run, and both end with the array the kernel program's
    second pipeline leaves: the kernel by its run, the reference because its result term at those arguments is that array. -/
theorem algebraic : Cert.algebraic_KernelIdeal_ReferenceIdeal := by
  intro m ρ m' ρ' _ hagree
  refine ⟨fun c => (Cert.KernelIdeal.Hand.dat1 (F := Ideal) (Cert.KernelIdeal.Hand.V3 m ρ) c).arrAt 7 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.RefRunEq.val_main_v217_eq, h0, h1, h2, h3, h4, h5, h6, h7, h8, h9, h10, h11]
  exact Cert.Bridge.result_eq m ρ c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
